-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x128 : Shape := ⟨2, ![100000, 128]⟩
abbrev S1600000 : Shape := ⟨1, ![1600000]⟩
abbrev S50000x128 : Shape := ⟨2, ![50000, 128]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S3x256x128 : Shape := ⟨3, ![3, 256, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part2 {F : FTy → Type} [FloatOps F] (main_arg9 : FVec F S3x128 .f32) (main_arg10 : FVec F S3x256x128 .f32) (main_arg11 : FVec F S3x128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x256x128 .f32 := Host.absf main_arg10
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg6 : FVec F S128 .f32) (main_arg7 : FVec F S3x128x128 .f32) (main_arg8 : FVec F S3x128x128 .f32) (main_arg9 : FVec F S3x128 .f32) (main_arg10 : FVec F S3x256x128 .f32) (main_arg11 : FVec F S3x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : FVec F S100000x128 .f32) (main_arg2 : IVec S1600000 32) (main_arg3 : IVec S1600000 32) (main_arg4 : FVec F S50000x128 .f32) (main_arg5 : FVec F S256x128 .f32) (main_arg6 : FVec F S128 .f32) (main_arg7 : FVec F S3x128x128 .f32) (main_arg8 : FVec F S3x128x128 .f32) (main_arg9 : FVec F S3x128 .f32) (main_arg10 : FVec F S3x256x128 .f32) (main_arg11 : FVec F S3x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S50000x128 .f32 := Host.absf main_arg4
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S100000x128 : Shape := ⟨2, ![100000, 128]⟩
abbrev S1600000 : Shape := ⟨1, ![1600000]⟩
abbrev S50000x128 : Shape := ⟨2, ![50000, 128]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S3x256x128 : Shape := ⟨3, ![3, 256, 128]⟩
abbrev S1x128 : Shape := ⟨2, ![1, 128]⟩
abbrev S2000x256 : Shape := ⟨2, ![2000, 256]⟩
abbrev S2000x128 : Shape := ⟨2, ![2000, 128]⟩
abbrev S2000 : Shape := ⟨1, ![2000]⟩
abbrev S2000x1 : Shape := ⟨2, ![2000, 1]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩

abbrev nBuf : Space → Nat
  | .hbm => 102
  | .vmem => 46
  | .smem => 0
  | _ => 0

abbrev bufTy : (tb : Table) → Fin (tcTables nBuf tb) → BufTy
  | .hbm, ⟨0, _⟩ => ⟨S50000x256, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S50000x128, .f32⟩
  | .hbm, ⟨5, _⟩ => ⟨S256x128, .f32⟩
  | .hbm, ⟨6, _⟩ => ⟨S128, .f32⟩
  | .hbm, ⟨7, _⟩ => ⟨S3x128x128, .f32⟩
  | .hbm, ⟨8, _⟩ => ⟨S3x128x128, .f32⟩
  | .hbm, ⟨9, _⟩ => ⟨S3x128, .f32⟩
  | .hbm, ⟨10, _⟩ => ⟨S3x256x128, .f32⟩
  | .hbm, ⟨11, _⟩ => ⟨S3x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S100000x128, .f32⟩
  | .hbm, ⟨16, _⟩ => ⟨S3x128x128, .f32⟩
  | .hbm, ⟨17, _⟩ => ⟨S3x128x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S1x128x128, .f32⟩
  | .hbm, ⟨32, _⟩ => ⟨S128x128, .f32⟩
  | .hbm, ⟨33, _⟩ => ⟨S1x128x128, .f32⟩
  | .hbm, ⟨34, _⟩ => ⟨S128x128, .f32⟩
  | .hbm, ⟨35, _⟩ => ⟨S1x128, .f32⟩
  | .hbm, ⟨36, _⟩ => ⟨S128, .f32⟩
  | .hbm, ⟨37, _⟩ => ⟨S1x128x128, .f32⟩
  | .hbm, ⟨38, _⟩ => ⟨S128x128, .f32⟩
  | .hbm, ⟨39, _⟩ => ⟨S1x128x128, .f32⟩
  | .hbm, ⟨40, _⟩ => ⟨S128x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128x128, .f32⟩
  | .hbm, ⟨60, _⟩ => ⟨S128x128, .f32⟩
  | .hbm, ⟨61, _⟩ => ⟨S1x128x128, .f32⟩
  | .hbm, ⟨62, _⟩ => ⟨S128x128, .f32⟩
  | .hbm, ⟨63, _⟩ => ⟨S1x128, .f32⟩
  | .hbm, ⟨64, _⟩ => ⟨S128, .f32⟩
  | .hbm, ⟨65, _⟩ => ⟨S1x128x128, .f32⟩
  | .hbm, ⟨66, _⟩ => ⟨S128x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S1x128x128, .f32⟩
  | .hbm, ⟨88, _⟩ => ⟨S128x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1x128x128, .f32⟩
  | .hbm, ⟨94, _⟩ => ⟨S128x128, .f32⟩
  | .hbm, ⟨95, _⟩ => ⟨S1x128x128, .f32⟩
  | .hbm, ⟨96, _⟩ => ⟨S128x128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S1x128, .f32⟩
  | .hbm, ⟨101, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S128x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_1 : Ref sig .tc := ⟨.hbm, 46, rfl⟩
abbrev main_v31 : Ref sig .tc := ⟨.hbm, 47, rfl⟩
abbrev main_v32 : Ref sig .tc := ⟨.hbm, 48, rfl⟩
abbrev main_c_2 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_4 : Ref sig .tc := ⟨.hbm, 74, rfl⟩
abbrev main_v56 : Ref sig .tc := ⟨.hbm, 75, rfl⟩
abbrev main_v57 : Ref sig .tc := ⟨.hbm, 76, rfl⟩
abbrev main_c_5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_stg8_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg8_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg8_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem8_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem8_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44
abbrev cc4_sem8_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S2000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  concatenates_S50000x128_S50000x128_S100000x128_d0 : Shape.Concatenates [S50000x128, S50000x128] S100000x128 0
  slices_S3x256x128_S3x128x128_0_0_0 : S3x256x128.Slices ![0, 0, 0] S3x128x128
  slices_S3x256x128_S3x128x128_0_128_0 : S3x256x128.Slices ![0, 128, 0] S3x128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x128.size a ≤ S100000x128.size a
  hwx3_8 : ∀ i : grid3.Coords, EltTy.bits .f32 = 32 ∨ (Rect.block (s := S100000x128) S2000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S2000x128.size a ≤ S100000x128.size a
  hwx4_8 : ∀ i : grid4.Coords, EltTy.bits .f32 = 32 ∨ (Rect.block (s := S100000x128) S2000x128.size (cc4_transform_8 i) (hinb4_8 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg4) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v30) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v40) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v48) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v50) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v54) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v55) S2000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v65) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v67) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v79) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v80) S2000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x256 : Shape := ⟨2, ![50000, 256]⟩
abbrev S100000x128 : Shape := ⟨2, ![100000, 128]⟩
abbrev S1600000 : Shape := ⟨1, ![1600000]⟩
abbrev S50000x128 : Shape := ⟨2, ![50000, 128]⟩
abbrev S256x128 : Shape := ⟨2, ![256, 128]⟩
abbrev S128 : Shape := ⟨1, ![128]⟩
abbrev S3x128x128 : Shape := ⟨3, ![3, 128, 128]⟩
abbrev S3x128 : Shape := ⟨2, ![3, 128]⟩
abbrev S3x256x128 : Shape := ⟨3, ![3, 256, 128]⟩
abbrev S1x128 : Shape := ⟨2, ![1, 128]⟩
abbrev S_ : Shape := ⟨0, ![]⟩
abbrev S100000 : Shape := ⟨1, ![100000]⟩
abbrev S100000x1 : Shape := ⟨2, ![100000, 1]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S100000x256 : Shape := ⟨2, ![100000, 256]⟩
abbrev S1x256x128 : Shape := ⟨3, ![1, 256, 128]⟩

abbrev nBuf : Space → Nat
  | .hbm => 192
  | .vmem => 0
  | .smem => 0
  | _ => 0

abbrev hbmTy0_0 (i : Nat) : BufTy := match i % 128 with
  | 0 => ⟨S50000x256, .f32⟩
  | 1 => ⟨S100000x128, .f32⟩
  | 2 => ⟨S1600000, .i32⟩
  | 3 => ⟨S1600000, .i32⟩
  | 4 => ⟨S50000x128, .f32⟩
  | 5 => ⟨S256x128, .f32⟩
  | 6 => ⟨S128, .f32⟩
  | 7 => ⟨S3x128x128, .f32⟩
  | 8 => ⟨S3x128x128, .f32⟩
  | 9 => ⟨S3x128, .f32⟩
  | 10 => ⟨S3x256x128, .f32⟩
  | 11 => ⟨S3x128, .f32⟩
  | 12 => ⟨S50000x128, .f32⟩
  | 13 => ⟨S1x128, .f32⟩
  | 14 => ⟨S50000x128, .f32⟩
  | 15 => ⟨S50000x128, .f32⟩
  | 16 => ⟨S100000x128, .f32⟩
  | 17 => ⟨S100000x128, .f32⟩
  | 18 => ⟨S_, .f32⟩
  | 19 => ⟨S100000, .f32⟩
  | 20 => ⟨S100000x1, .f32⟩
  | 21 => ⟨S100000x1, .f32⟩
  | 22 => ⟨S_, .f32⟩
  | 23 => ⟨S100000x1, .f32⟩
  | 24 => ⟨S100000x1, .f32⟩
  | 25 => ⟨S100000x128, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S1x128x128, .f32⟩
  | 41 => ⟨S128x128, .f32⟩
  | 42 => ⟨S100000x128, .f32⟩
  | 43 => ⟨S_, .f32⟩
  | 44 => ⟨S100000x128, .f32⟩
  | 45 => ⟨S100000x128, .i1⟩
  | 46 => ⟨S_, .f32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S100000x128, .f32⟩
  | 59 => ⟨S_, .f32⟩
  | 60 => ⟨S100000x128, .f32⟩
  | 61 => ⟨S100000x128, .i1⟩
  | 62 => ⟨S_, .f32⟩
  | 63 => ⟨S100000x128, .f32⟩
  | 64 => ⟨S100000x128, .f32⟩
  | 65 => ⟨S100000x128, .f32⟩
  | 66 => ⟨S100000x256, .f32⟩
  | 67 => ⟨S1x256x128, .f32⟩
  | 68 => ⟨S256x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .i1⟩
  | 78 => ⟨S_, .f32⟩
  | 79 => ⟨S100000x128, .f32⟩
  | 80 => ⟨S100000x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S1x128x128, .f32⟩
  | 96 => ⟨S128x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .f32⟩
  | 104 => ⟨S100000x128, .f32⟩
  | 105 => ⟨S1x128x128, .f32⟩
  | 106 => ⟨S128x128, .f32⟩
  | 107 => ⟨S100000x128, .f32⟩
  | 108 => ⟨S1x128, .f32⟩
  | 109 => ⟨S128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S100000x128, .f32⟩
  | 116 => ⟨S100000x128, .i1⟩
  | 117 => ⟨S_, .f32⟩
  | 118 => ⟨S100000x128, .f32⟩
  | 119 => ⟨S100000x128, .f32⟩
  | 120 => ⟨S100000x128, .f32⟩
  | 121 => ⟨S100000x256, .f32⟩
  | 122 => ⟨S1x256x128, .f32⟩
  | 123 => ⟨S256x128, .f32⟩
  | 124 => ⟨S100000x128, .f32⟩
  | 125 => ⟨S1x128, .f32⟩
  | 126 => ⟨S128, .f32⟩
  | 127 => ⟨S1x128, .f32⟩
  | _ => ⟨S50000x256, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .i1⟩
  | 5 => ⟨S_, .f32⟩
  | 6 => ⟨S100000x128, .f32⟩
  | 7 => ⟨S100000x128, .f32⟩
  | 8 => ⟨S100000x128, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x128, .f32⟩
  | 18 => ⟨S_, .f32⟩
  | 19 => ⟨S100000x128, .f32⟩
  | 20 => ⟨S1600000x1, .i32⟩
  | 21 => ⟨S100000x128, .f32⟩
  | 22 => ⟨S1x128x128, .f32⟩
  | 23 => ⟨S128x128, .f32⟩
  | 24 => ⟨S100000x128, .f32⟩
  | 25 => ⟨S_, .f32⟩
  | 26 => ⟨S100000x128, .f32⟩
  | 27 => ⟨S100000x128, .i1⟩
  | 28 => ⟨S_, .f32⟩
  | 29 => ⟨S100000x128, .f32⟩
  | 30 => ⟨S100000x128, .f32⟩
  | 31 => ⟨S100000x128, .f32⟩
  | 32 => ⟨S1x128x128, .f32⟩
  | 33 => ⟨S128x128, .f32⟩
  | 34 => ⟨S100000x128, .f32⟩
  | 35 => ⟨S1x128, .f32⟩
  | 36 => ⟨S128, .f32⟩
  | 37 => ⟨S1x128, .f32⟩
  | 38 => ⟨S100000x128, .f32⟩
  | 39 => ⟨S100000x128, .f32⟩
  | 40 => ⟨S100000x128, .f32⟩
  | 41 => ⟨S_, .f32⟩
  | 42 => ⟨S100000x128, .f32⟩
  | 43 => ⟨S100000x128, .i1⟩
  | 44 => ⟨S_, .f32⟩
  | 45 => ⟨S100000x128, .f32⟩
  | 46 => ⟨S100000x128, .f32⟩
  | 47 => ⟨S100000x128, .f32⟩
  | 48 => ⟨S100000x256, .f32⟩
  | 49 => ⟨S1x256x128, .f32⟩
  | 50 => ⟨S256x128, .f32⟩
  | 51 => ⟨S100000x128, .f32⟩
  | 52 => ⟨S1x128, .f32⟩
  | 53 => ⟨S128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .i1⟩
  | 60 => ⟨S_, .f32⟩
  | 61 => ⟨S100000x128, .f32⟩
  | 62 => ⟨S100000x128, .f32⟩
  | 63 => ⟨S100000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call3_cst : Ref sig .tc := ⟨.hbm, 75, rfl⟩
abbrev main_call3_v0 : Ref sig .tc := ⟨.hbm, 76, rfl⟩
abbrev main_call3_v1 : Ref sig .tc := ⟨.hbm, 77, rfl⟩
abbrev main_call3_cst_0 : Ref sig .tc := ⟨.hbm, 78, rfl⟩
abbrev main_call3_v2 : Ref sig .tc := ⟨.hbm, 79, rfl⟩
abbrev main_call3_v3 : Ref sig .tc := ⟨.hbm, 80, rfl⟩
abbrev main_v43 : Ref sig .tc := ⟨.hbm, 81, rfl⟩
abbrev main_c_2 : Ref sig .tc := ⟨.hbm, 82, rfl⟩
abbrev main_v44 : Ref sig .tc := ⟨.hbm, 83, rfl⟩
abbrev main_v45 : Ref sig .tc := ⟨.hbm, 84, rfl⟩
abbrev main_c_3 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_4 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call4_cst : Ref sig .tc := ⟨.hbm, 98, rfl⟩
abbrev main_call4_v0 : Ref sig .tc := ⟨.hbm, 99, rfl⟩
abbrev main_call4_v1 : Ref sig .tc := ⟨.hbm, 100, rfl⟩
abbrev main_call4_cst_0 : Ref sig .tc := ⟨.hbm, 101, rfl⟩
abbrev main_call4_v2 : Ref sig .tc := ⟨.hbm, 102, rfl⟩
abbrev main_call4_v3 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_call5_cst : Ref sig .tc := ⟨.hbm, 114, rfl⟩
abbrev main_call5_v0 : Ref sig .tc := ⟨.hbm, 115, rfl⟩
abbrev main_call5_v1 : Ref sig .tc := ⟨.hbm, 116, rfl⟩
abbrev main_call5_cst_0 : Ref sig .tc := ⟨.hbm, 117, rfl⟩
abbrev main_call5_v2 : Ref sig .tc := ⟨.hbm, 118, rfl⟩
abbrev main_call5_v3 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_call6_cst : Ref sig .tc := ⟨.hbm, 130, rfl⟩
abbrev main_call6_v0 : Ref sig .tc := ⟨.hbm, 131, rfl⟩
abbrev main_call6_v1 : Ref sig .tc := ⟨.hbm, 132, rfl⟩
abbrev main_call6_cst_0 : Ref sig .tc := ⟨.hbm, 133, rfl⟩
abbrev main_call6_v2 : Ref sig .tc := ⟨.hbm, 134, rfl⟩
abbrev main_call6_v3 : Ref sig .tc := ⟨.hbm, 135, rfl⟩
abbrev main_v77 : Ref sig .tc := ⟨.hbm, 136, rfl⟩
abbrev main_c_5 : Ref sig .tc := ⟨.hbm, 137, rfl⟩
abbrev main_v78 : Ref sig .tc := ⟨.hbm, 138, rfl⟩
abbrev main_v79 : Ref sig .tc := ⟨.hbm, 139, rfl⟩
abbrev main_c_6 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_7 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_call7_cst : Ref sig .tc := ⟨.hbm, 153, rfl⟩
abbrev main_call7_v0 : Ref sig .tc := ⟨.hbm, 154, rfl⟩
abbrev main_call7_v1 : Ref sig .tc := ⟨.hbm, 155, rfl⟩
abbrev main_call7_cst_0 : Ref sig .tc := ⟨.hbm, 156, rfl⟩
abbrev main_call7_v2 : Ref sig .tc := ⟨.hbm, 157, rfl⟩
abbrev main_call7_v3 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_call8_cst : Ref sig .tc := ⟨.hbm, 169, rfl⟩
abbrev main_call8_v0 : Ref sig .tc := ⟨.hbm, 170, rfl⟩
abbrev main_call8_v1 : Ref sig .tc := ⟨.hbm, 171, rfl⟩
abbrev main_call8_cst_0 : Ref sig .tc := ⟨.hbm, 172, rfl⟩
abbrev main_call8_v2 : Ref sig .tc := ⟨.hbm, 173, rfl⟩
abbrev main_call8_v3 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_call9_cst : Ref sig .tc := ⟨.hbm, 185, rfl⟩
abbrev main_call9_v0 : Ref sig .tc := ⟨.hbm, 186, rfl⟩
abbrev main_call9_v1 : Ref sig .tc := ⟨.hbm, 187, rfl⟩
abbrev main_call9_cst_0 : Ref sig .tc := ⟨.hbm, 188, rfl⟩
abbrev main_call9_v2 : Ref sig .tc := ⟨.hbm, 189, rfl⟩
abbrev main_call9_v3 : Ref sig .tc := ⟨.hbm, 190, rfl⟩
abbrev main_v111 : Ref sig .tc := ⟨.hbm, 191, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S100000x128_d0 : Shape.Concatenates [S50000x128, S50000x128] S100000x128 0
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  slices_S3x256x128_S1x256x128_0_0_0 : S3x256x128.Slices ![0, 0, 0] S1x256x128
  shapeCasts_S1x256x128_S256x128 : S1x256x128.ShapeCasts S256x128
  slices_S3x128x128_S1x128x128_1_0_0 : S3x128x128.Slices ![1, 0, 0] S1x128x128
  slices_S3x128_S1x128_1_0 : S3x128.Slices ![1, 0] S1x128
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x256x128_S1x256x128_2_0_0 : S3x256x128.Slices ![2, 0, 0] S1x256x128
  dot_S50000x256_S256x128_S50000x128_1_0_0_1_n_n_wf : DotDims.WF S50000x256 S256x128 S50000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KernelRun.lean ====
/-
  The kernel program's run with every buffer's final contents named.

  The program is five launches among stretches of host operations. Its run from any memory with zero counters ends, without
  a fault, with every unscoped buffer of each core holding the last boundary's contents: the fold of the host stretches
  and of each launch's write-backs over the launch memory. The result array and the twelve argument arrays are read off
  that one statement.
-/
import proofs.«124699_j23029614641915_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state has each unscoped
    buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Gcn.KernelRun

end
-- ==== Proof.Spec.lean ====
/-
  The function both programs compute, written row by row over the extended reals.

  A node's row of width 128 is first L2-normalised: each entry divided by the larger of the row's Euclidean norm and a
  small constant. The first 50000 nodes take their row from the user embedding table; the other 50000 take the affine
  image `feat · W + b` of a feature row of width 256. Then three rounds: rows are summed along the graph's edges by an
  aggregation that both programs spell with the same two host operations (so it stays an unopened function `Agg` of the
  whole array), and each node's aggregated row `a` and its embedding row `e` go through
      h = φ(a · Ws),   u = φ(h · Wd + bd + e),   out = φ(h · Wo_top + u · Wo_bottom + bo),
  where `φ x = x` for `x > 0` and `slope · x` otherwise, and `Wo_top`, `Wo_bottom` are the upper and lower 128 rows of a
  256-row matrix. The reference computes `out` as `φ([h | u] · Wo + bo`) with `[h | u]` the row of width 256: the sum
  over 256 terms is the two sums over 128 terms (`sum_halves`). The reference's `φ` tests `x ≥ 0`; the two tests differ
  only at `x = 0`, where both branches give `0` (`leaky_ge`).
-/
import Idealize.ShloMosaic.PureOps.Ideal
import Idealize.ShloMosaic.Lib.ValueIdx

noncomputable section

namespace Cert.Gcn

open Idealize.ShloMosaic Idealize.ShloMosaic.ValueIdx

/-- The floor under a row's norm (the word both programs carry). -/
abbrev eps : EReal := Ideal.ofBits .f32 0x2B8CBCCC#32
/-- The slope of `φ` on the non-positive side (the word both programs carry). -/
abbrev slope : EReal := Ideal.ofBits .f32 0x3C23D70A#32

/-- `φ`: the identity on the positive side, `slope · x` elsewhere. -/
def leaky (x : EReal) : EReal := if 0 < x then x else slope * x

/-- Testing `0 ≤ x` instead of `0 < x` changes nothing: at `x = 0` both branches are `0`. -/
theorem leaky_ge (x : EReal) : (if 0 ≤ x then x else slope * x) = leaky x := by
  unfold leaky
  by_cases h : 0 < x
  · rw [if_pos h, if_pos h.le]
  · rw [if_neg h]
    by_cases h0 : 0 ≤ x
    · have hx : x = 0 := le_antisymm (not_lt.mp h) h0
      subst hx
      rw [if_pos le_rfl, mul_zero]
    · rw [if_neg h0]

/-- A row divided by the larger of its Euclidean norm and `eps`. -/
def rowNorm (row : Fin 128 → EReal) (j : Fin 128) : EReal :=
  Ideal.div (row j) (max (Ideal.sqrt (∑ k : Fin 128, row k * row k)) eps)

/-- The affine image of a feature row. -/
def linRow (feat : Fin 256 → EReal) (W : Fin 256 → Fin 128 → EReal) (b : Fin 128 → EReal) (j : Fin 128) : EReal :=
  (∑ k : Fin 256, feat k * W k j) + b j

def hidRow (agg : Fin 128 → EReal) (ws : Fin 128 → Fin 128 → EReal) (l : Fin 128) : EReal :=
  leaky (∑ m : Fin 128, agg m * ws m l)

def updRow (h emb : Fin 128 → EReal) (dw : Fin 128 → Fin 128 → EReal) (db : Fin 128 → EReal) (l : Fin 128) : EReal :=
  leaky ((∑ m : Fin 128, h m * dw m l) + db l + emb l)

def outRow (h u : Fin 128 → EReal) (owh owu : Fin 128 → Fin 128 → EReal) (ob : Fin 128 → EReal) (j : Fin 128) : EReal :=
  leaky ((∑ l : Fin 128, h l * owh l j) + (∑ l : Fin 128, u l * owu l j) + ob j)

/-- One round on one node: from its aggregated row and its embedding row to its new row. -/
def layerRow (agg emb : Fin 128 → EReal) (ws dw : Fin 128 → Fin 128 → EReal) (db : Fin 128 → EReal)
    (owh owu : Fin 128 → Fin 128 → EReal) (ob : Fin 128 → EReal) (j : Fin 128) : EReal :=
  outRow (hidRow agg ws) (updRow (hidRow agg ws) emb dw db) owh owu ob j

/-- Row `a` of the upper half of a 256-row matrix. -/
def lo (a : Fin 128) : Fin 256 := ⟨a.val, by have := a.isLt; omega⟩
/-- Row `a` of the lower half of a 256-row matrix. -/
def hi (a : Fin 128) : Fin 256 := ⟨128 + a.val, by have := a.isLt; omega⟩

/-- A sum over 256 terms is the sum over the first 128 plus the sum over the last 128 (in any commutative monoid:
    no finiteness is needed on the extended reals). -/
theorem sum_halves {M : Type*} [AddCommMonoid M] (f : Fin 256 → M) :
    ∑ k : Fin 256, f k = (∑ l : Fin 128, f (lo l)) + ∑ l : Fin 128, f (hi l) := by
  have h := Fin.sum_univ_add (a := 128) (b := 128) (fun k : Fin (128 + 128) => f k)
  exact h

/-- The row of width 256 made of `h` then `u`. -/
def cat (h u : Fin 128 → EReal) (k : Fin 256) : EReal :=
  if hk : k.val < 128 then h ⟨k.val, hk⟩ else u ⟨k.val - 128, by have := k.isLt; omega⟩

theorem cat_lo (h u : Fin 128 → EReal) (l : Fin 128) : cat h u (lo l) = h l := by
  unfold cat lo
  rw [dif_pos l.isLt]
theorem cat_hi (h u : Fin 128 → EReal) (l : Fin 128) : cat h u (hi l) = u l := by
  unfold cat hi
  rw [dif_neg (by show ¬ 128 + l.val < 128; omega)]
  exact congrArg u (Fin.ext (by show 128 + l.val - 128 = l.val; omega))

/-- The reference's spelling of the last step — one product with the 256-row matrix — is `outRow`. -/
theorem outRow_of_cat (h u : Fin 128 → EReal) (ow : Fin 256 → Fin 128 → EReal) (ob : Fin 128 → EReal) (j : Fin 128) :
    leaky ((∑ k : Fin 256, cat h u k * ow k j) + ob j)
      = outRow h u (fun a b => ow (lo a) b) (fun a b => ow (hi a) b) ob j := by
  unfold outRow
  rw [sum_halves]
  simp only [cat_lo, cat_hi]

/-! ## The whole arrays -/

/-- The normalised node table: rows below 50000 from the embedding table `a4`, the others from the affine image of
    the feature table `a0` by `a5`, `a6`. -/
def x0At (a0 : FVec Ideal ⟨2, ![50000, 256]⟩ .f32) (a4 : FVec Ideal ⟨2, ![50000, 128]⟩ .f32)
    (a5 : FVec Ideal ⟨2, ![256, 128]⟩ .f32) (a6 : FVec Ideal ⟨1, ![128]⟩ .f32) (r : Fin 100000) (j : Fin 128) : EReal :=
  if h : r.val < 50000 then rowNorm (fun k => a4 (ix2 (⟨r.val, h⟩ : Fin 50000) k)) j
  else rowNorm (linRow (fun k => a0 (ix2 (⟨r.val - 50000, by have := r.isLt; omega⟩ : Fin 50000) k))
    (fun a b => a5 (ix2 a b)) (fun b => a6 (ix1 b))) j

def x0 (a0 : FVec Ideal ⟨2, ![50000, 256]⟩ .f32) (a4 : FVec Ideal ⟨2, ![50000, 128]⟩ .f32)
    (a5 : FVec Ideal ⟨2, ![256, 128]⟩ .f32) (a6 : FVec Ideal ⟨1, ![128]⟩ .f32) : FVec Ideal ⟨2, ![100000, 128]⟩ .f32 :=
  fun i => x0At a0 a4 a5 a6 (i 0) (i 1)

/-- Round `i` at node `r`: the weights are the `i`-th members of the stacked weight arrays. -/
def layerAt (i : Fin 3) (agg a1 : FVec Ideal ⟨2, ![100000, 128]⟩ .f32) (a7 a8 : FVec Ideal ⟨3, ![3, 128, 128]⟩ .f32)
    (a9 : FVec Ideal ⟨2, ![3, 128]⟩ .f32) (a10 : FVec Ideal ⟨3, ![3, 256, 128]⟩ .f32) (a11 : FVec Ideal ⟨2, ![3, 128]⟩ .f32)
    (r : Fin 100000) (j : Fin 128) : EReal :=
  layerRow (fun m => agg (ix2 r m)) (fun m => a1 (ix2 r m)) (fun a b => a7 (ix3 i a b)) (fun a b => a8 (ix3 i a b))
    (fun l => a9 (ix2 i l)) (fun a b => a10 (ix3 i (lo a) b)) (fun a b => a10 (ix3 i (hi a) b)) (fun l => a11 (ix2 i l)) j

def layer (i : Fin 3) (agg a1 : FVec Ideal ⟨2, ![100000, 128]⟩ .f32) (a7 a8 : FVec Ideal ⟨3, ![3, 128, 128]⟩ .f32)
    (a9 : FVec Ideal ⟨2, ![3, 128]⟩ .f32) (a10 : FVec Ideal ⟨3, ![3, 256, 128]⟩ .f32) (a11 : FVec Ideal ⟨2, ![3, 128]⟩ .f32) :
    FVec Ideal ⟨2, ![100000, 128]⟩ .f32 :=
  fun idx => layerAt i agg a1 a7 a8 a9 a10 a11 (idx 0) (idx 1)

/-- The result: three rounds over the normalised table, `Agg` the edge aggregation of a whole array. -/
def result (Agg : FVec Ideal ⟨2, ![100000, 128]⟩ .f32 → FVec Ideal ⟨2, ![100000, 128]⟩ .f32)
    (a0 : FVec Ideal ⟨2, ![50000, 256]⟩ .f32) (a1 : FVec Ideal ⟨2, ![100000, 128]⟩ .f32)
    (a4 : FVec Ideal ⟨2, ![50000, 128]⟩ .f32) (a5 : FVec Ideal ⟨2, ![256, 128]⟩ .f32) (a6 : FVec Ideal ⟨1, ![128]⟩ .f32)
    (a7 a8 : FVec Ideal ⟨3, ![3, 128, 128]⟩ .f32) (a9 : FVec Ideal ⟨2, ![3, 128]⟩ .f32)
    (a10 : FVec Ideal ⟨3, ![3, 256, 128]⟩ .f32) (a11 : FVec Ideal ⟨2, ![3, 128]⟩ .f32) : FVec Ideal ⟨2, ![100000, 128]⟩ .f32 :=
  layer 2 (Agg (layer 1 (Agg (layer 0 (Agg (x0 a0 a4 a5 a6)) a1 a7 a8 a9 a10 a11)) a1 a7 a8 a9 a10 a11)) a1 a7 a8 a9 a10 a11

end Cert.Gcn

end
-- ==== Proof.HostK.lean ====
/-
  The stretches of host operations between the kernel program's five regions, read as values.

  For ANY contents `W` of the buffers when a stretch begins, what the stretch leaves in the buffers the next region reads:
  the aggregated table is the edge sum `aggK` of the table before it (one scatter-add of gathered rows, the same two
  operations in each of the three stretches); each weight matrix or bias row is one member of a stack of three, cut out
  as a slice with a leading unit axis and then reshaped, so at an index it is the stack at that member; the 256-row output
  matrices are first cut into their upper and lower 128 rows (`lo`, `hi`). The argument arrays are never written.
-/
import proofs.«124699_j23029614641915_1_alg».proof.Proof.Gen.KernelIdeal.Launch
import proofs.«124699_j23029614641915_1_alg».proof.Proof.Spec
import Idealize.ShloMosaic.Lib.StableHlo.Run
import Idealize.ShloMosaic.Lib.ValueLayout
import Idealize.ShloMosaic.Lib.Pipeline.Value

noncomputable section

namespace Cert.Gcn.HostK

open Cert.KernelIdeal Cert.KernelIdeal.Gen Idealize.ShloMosaic Idealize.ShloMosaic.TcCoe Idealize.ShloMosaic.StableHlo
  Idealize.ShloMosaic.ValueIdx Cert.Gcn

/-- The sum along the graph's edges, as the program spells it: negative source indices wrapped by the table's length,
    the source rows gathered, and added into a table of zeros at the destination indices. -/
def aggK (a2 a3 : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a3)
    (Host.gather gather_S100000x128_S1600000x1_S1600000x128_1_0_n_n_0_1_1128 x
      (broadcastInDim S1600000x1 ![0] bcast_S1600000_S1600000x1_0
        (select (cmpi .slt a2 (broadcastInDim S1600000 ![] bcast_S_S1600000 (constantI S_ 32 0#32)))
          (addi a2 (broadcastInDim S1600000 ![] bcast_S_S1600000 (constantI S_ 32 100000#32))) a2)))

variable (W : Valuation τ sig (Elt Ideal))

variable {α : Type}

/-- Member `g` of a stack of three square matrices, cut out as a `[1, 128, 128]` slice from offset `g` on the leading
    axis, reads at `(0, a, b)` the stack at `(g, a, b)`. -/
theorem member3_apply (o : Nat) (X : S3x128x128.Idx → α) (h : S3x128x128.Slices ![o, 0, 0] S1x128x128) (g : Fin 3) (hg : g.val = o)
    (a b : Fin 128) : extractStridedSlice S1x128x128 ![o, 0, 0] X h (ix3 (0 : Fin 1) a b) = X (ix3 g a b) :=
  extractStridedSlice_apply _ _ _ _ _ (fun ax => by
    match ax with
    | ⟨0, _⟩ => exact hg.trans (Nat.add_zero _).symm
    | ⟨1, _⟩ => exact (Nat.zero_add _).symm
    | ⟨2, _⟩ => exact (Nat.zero_add _).symm)

/-- Member `g` of a stack of three rows, cut out as a `[1, 128]` slice, reads at `(0, l)` the stack at `(g, l)`. -/
theorem member2_apply (o : Nat) (X : S3x128.Idx → α) (h : S3x128.Slices ![o, 0] S1x128) (g : Fin 3) (hg : g.val = o)
    (l : Fin 128) : extractStridedSlice S1x128 ![o, 0] X h (ix2 (0 : Fin 1) l) = X (ix2 g l) :=
  extractStridedSlice_apply _ _ _ _ _ (fun ax => by
    match ax with
    | ⟨0, _⟩ => exact hg.trans (Nat.add_zero _).symm
    | ⟨1, _⟩ => exact (Nat.zero_add _).symm)

/-- The member cut out and its unit axis dropped: the square matrix `g` of the stack. -/
theorem mat_apply (o : Nat) (X : S3x128x128.Idx → α) (h : S3x128x128.Slices ![o, 0, 0] S1x128x128) (g : Fin 3) (hg : g.val = o)
    (a b : Fin 128) :
    shapeCast S128x128 (extractStridedSlice S1x128x128 ![o, 0, 0] X h) shapeCasts_S1x128x128_S128x128 (ix2 a b) = X (ix3 g a b) := by
  rw [shapeCast_1ab_ab_apply]
  exact member3_apply o X h g hg a b

/-- The row cut out, flattened to `[128]` and given its unit axis back: row `g` of the stack. -/
theorem row_apply (o : Nat) (X : S3x128.Idx → α) (h : S3x128.Slices ![o, 0] S1x128) (g : Fin 3) (hg : g.val = o) (l : Fin 128) :
    shapeCast S1x128 (fun i => shapeCast S128 (extractStridedSlice S1x128 ![o, 0] X h) shapeCasts_S1x128_S128 i) shapeCasts_S128_S1x128
      (ix2 (0 : Fin 1) l) = X (ix2 g l) := by
  rw [shapeCast_a_1a_apply]
  show shapeCast S128 (extractStridedSlice S1x128 ![o, 0] X h) shapeCasts_S1x128_S128 (ix1 l) = _
  rw [shapeCast_1a_a_apply]
  exact member2_apply o X h g hg l

/-! ## The stretch before the first region: the bias as a row -/

/-- The bias `[128]` given a leading unit axis. -/
theorem h0_v0 (l : Fin 128) :
    after (hostOps0 (F := Ideal)) W (main_v0 : DevRef τ sig) (ix2 (0 : Fin 1) l) = W (main_arg6 : DevRef τ sig) (ix1 l) := by
  have e : after (hostOps0 (F := Ideal)) W (main_v0 : DevRef τ sig)
      = fun i => shapeCast S1x128 (W (main_arg6 : DevRef τ sig)) shapeCasts_S128_S1x128 i := by
    simp only [after_cons, after_nil]
    rfl
  rw [e]
  exact shapeCast_a_1a_apply _ _ _ _

/-! ## The stretch before the first round -/

attribute [local irreducible] Host.gather Host.scatterAdd in
/-- The first round's aggregated table: the edge sum of the two normalised halves joined. -/
theorem h2_v15 :
    after (hostOps2 (F := Ideal)) W (main_v15 : DevRef τ sig)
      = aggK (W (main_arg2 : DevRef τ sig)) (W (main_arg3 : DevRef τ sig)) (concatenate S100000x128 0 [⟨S50000x128, W (main_v2 : DevRef τ sig)⟩, ⟨S50000x128, W (main_v1 : DevRef τ sig)⟩]
            concatenates_S50000x128_S50000x128_S100000x128_d0) := by
  simp only [after_cons, after_nil]
  rfl

/-- The upper 128 rows of each of the three 256-row matrices. -/
theorem h2_v4 (g : Fin 3) (a b : Fin 128) :
    after (hostOps2 (F := Ideal)) W (main_v4 : DevRef τ sig) (ix3 g a b) = W (main_arg10 : DevRef τ sig) (ix3 g (lo a) b) := by
  have e : after (hostOps2 (F := Ideal)) W (main_v4 : DevRef τ sig)
      = extractStridedSlice S3x128x128 ![0, 0, 0] (W (main_arg10 : DevRef τ sig)) slices_S3x256x128_S3x128x128_0_0_0 := by
    simp only [after_cons, after_nil]
    rfl
  rw [e]
  exact slice3_axis1_apply 0 _ _ g a b (lo a) (Nat.zero_add _).symm

/-- The lower 128 rows of each of the three 256-row matrices. -/
theorem h2_v5 (g : Fin 3) (a b : Fin 128) :
    after (hostOps2 (F := Ideal)) W (main_v5 : DevRef τ sig) (ix3 g a b) = W (main_arg10 : DevRef τ sig) (ix3 g (hi a) b) := by
  have e : after (hostOps2 (F := Ideal)) W (main_v5 : DevRef τ sig)
      = extractStridedSlice S3x128x128 ![0, 128, 0] (W (main_arg10 : DevRef τ sig)) slices_S3x256x128_S3x128x128_0_128_0 := by
    simp only [after_cons, after_nil]
    rfl
  rw [e]
  exact slice3_axis1_apply 128 _ _ g a b (hi a) rfl

/-- The first round's first weight matrix. -/
theorem h2_v17 (a b : Fin 128) :
    after (hostOps2 (F := Ideal)) W (main_v17 : DevRef τ sig) (ix2 a b) = W (main_arg7 : DevRef τ sig) (ix3 (0 : Fin 3) a b) := by
  have e : after (hostOps2 (F := Ideal)) W (main_v17 : DevRef τ sig)
      = fun i => shapeCast S128x128 (extractStridedSlice S1x128x128 ![0, 0, 0] (W (main_arg7 : DevRef τ sig)) slices_S3x128x128_S1x128x128_0_0_0) shapeCasts_S1x128x128_S128x128 i := by
    simp only [after_cons, after_nil]
    rfl
  rw [e]
  exact mat_apply 0 _ _ 0 rfl a b

/-- The first round's second weight matrix. -/
theorem h2_v19 (a b : Fin 128) :
    after (hostOps2 (F := Ideal)) W (main_v19 : DevRef τ sig) (ix2 a b) = W (main_arg8 : DevRef τ sig) (ix3 (0 : Fin 3) a b) := by
  have e : after (hostOps2 (F := Ideal)) W (main_v19 : DevRef τ sig)
      = fun i => shapeCast S128x128 (extractStridedSlice S1x128x128 ![0, 0, 0] (W (main_arg8 : DevRef τ sig)) slices_S3x128x128_S1x128x128_0_0_0) shapeCasts_S1x128x128_S128x128 i := by
    simp only [after_cons, after_nil]
    rfl
  rw [e]
  exact mat_apply 0 _ _ 0 rfl a b

/-- The first round's first bias row. -/
theorem h2_v28 (l : Fin 128) :
    after (hostOps2 (F := Ideal)) W (main_v28 : DevRef τ sig) (ix2 (0 : Fin 1) l) = W (main_arg9 : DevRef τ sig) (ix2 (0 : Fin 3) l) := by
  have e : after (hostOps2 (F := Ideal)) W (main_v28 : DevRef τ sig)
      = fun i => shapeCast S1x128 (fun i => shapeCast S128 (extractStridedSlice S1x128 ![0, 0] (W (main_arg9 : DevRef τ sig)) slices_S3x128_S1x128_0_0) shapeCasts_S1x128_S128 i) shapeCasts_S128_S1x128 i := by
    simp only [after_cons, after_nil]
    rfl
  rw [e]
  exact row_apply 0 _ _ 0 rfl l

/-- The first round's upper output matrix: member 0 of the upper halves. -/
theorem h2_v23 (a b : Fin 128) :
    after (hostOps2 (F := Ideal)) W (main_v23 : DevRef τ sig) (ix2 a b) = W (main_arg10 : DevRef τ sig) (ix3 (0 : Fin 3) (lo a) b) := by
  have e : after (hostOps2 (F := Ideal)) W (main_v23 : DevRef τ sig)
      = fun i => shapeCast S128x128 (extractStridedSlice S1x128x128 ![0, 0, 0] (extractStridedSlice S3x128x128 ![0, 0, 0] (W (main_arg10 : DevRef τ sig)) slices_S3x256x128_S3x128x128_0_0_0) slices_S3x128x128_S1x128x128_0_0_0) shapeCasts_S1x128x128_S128x128 i := by
    simp only [after_cons, after_nil]
    rfl
  rw [e]
  refine (mat_apply 0 _ _ 0 rfl a b).trans ?_
  exact slice3_axis1_apply 0 _ _ 0 a b (lo a) (Nat.zero_add _).symm

/-- The first round's lower output matrix: member 0 of the lower halves. -/
theorem h2_v25 (a b : Fin 128) :
    after (hostOps2 (F := Ideal)) W (main_v25 : DevRef τ sig) (ix2 a b) = W (main_arg10 : DevRef τ sig) (ix3 (0 : Fin 3) (hi a) b) := by
  have e : after (hostOps2 (F := Ideal)) W (main_v25 : DevRef τ sig)
      = fun i => shapeCast S128x128 (extractStridedSlice S1x128x128 ![0, 0, 0] (extractStridedSlice S3x128x128 ![0, 128, 0] (W (main_arg10 : DevRef τ sig)) slices_S3x256x128_S3x128x128_0_128_0) slices_S3x128x128_S1x128x128_0_0_0) shapeCasts_S1x128x128_S128x128 i := by
    simp only [after_cons, after_nil]
    rfl
  rw [e]
  refine (mat_apply 0 _ _ 0 rfl a b).trans ?_
  exact slice3_axis1_apply 128 _ _ 0 a b (hi a) rfl

/-- The first round's output bias row. -/
theorem h2_v29 (l : Fin 128) :
    after (hostOps2 (F := Ideal)) W (main_v29 : DevRef τ sig) (ix2 (0 : Fin 1) l) = W (main_arg11 : DevRef τ sig) (ix2 (0 : Fin 3) l) := by
  have e : after (hostOps2 (F := Ideal)) W (main_v29 : DevRef τ sig)
      = fun i => shapeCast S1x128 (fun i => shapeCast S128 (extractStridedSlice S1x128 ![0, 0] (W (main_arg11 : DevRef τ sig)) slices_S3x128_S1x128_0_0) shapeCasts_S1x128_S128 i) shapeCasts_S128_S1x128 i := by
    simp only [after_cons, after_nil]
    rfl
  rw [e]
  exact row_apply 0 _ _ 0 rfl l

/-! ## The stretch before the second round -/

attribute [local irreducible] Host.gather Host.scatterAdd in
/-- The second round's aggregated table: the edge sum of the table the round before left. -/
theorem h3_v40 :
    after (hostOps3 (F := Ideal)) W (main_v40 : DevRef τ sig)
      = aggK (W (main_arg2 : DevRef τ sig)) (W (main_arg3 : DevRef τ sig)) (W (main_v30 : DevRef τ sig)) := by
  simp only [after_cons, after_nil]
  rfl

/-- The second round's first weight matrix. -/
theorem h3_v42 (a b : Fin 128) :
    after (hostOps3 (F := Ideal)) W (main_v42 : DevRef τ sig) (ix2 a b) = W (main_arg7 : DevRef τ sig) (ix3 (1 : Fin 3) a b) := by
  have e : after (hostOps3 (F := Ideal)) W (main_v42 : DevRef τ sig)
      = fun i => shapeCast S128x128 (extractStridedSlice S1x128x128 ![1, 0, 0] (W (main_arg7 : DevRef τ sig)) slices_S3x128x128_S1x128x128_1_0_0) shapeCasts_S1x128x128_S128x128 i := by
    simp only [after_cons, after_nil]
    rfl
  rw [e]
  exact mat_apply 1 _ _ 1 rfl a b

/-- The second round's second weight matrix. -/
theorem h3_v44 (a b : Fin 128) :
    after (hostOps3 (F := Ideal)) W (main_v44 : DevRef τ sig) (ix2 a b) = W (main_arg8 : DevRef τ sig) (ix3 (1 : Fin 3) a b) := by
  have e : after (hostOps3 (F := Ideal)) W (main_v44 : DevRef τ sig)
      = fun i => shapeCast S128x128 (extractStridedSlice S1x128x128 ![1, 0, 0] (W (main_arg8 : DevRef τ sig)) slices_S3x128x128_S1x128x128_1_0_0) shapeCasts_S1x128x128_S128x128 i := by
    simp only [after_cons, after_nil]
    rfl
  rw [e]
  exact mat_apply 1 _ _ 1 rfl a b

/-- The second round's first bias row. -/
theorem h3_v53 (l : Fin 128) :
    after (hostOps3 (F := Ideal)) W (main_v53 : DevRef τ sig) (ix2 (0 : Fin 1) l) = W (main_arg9 : DevRef τ sig) (ix2 (1 : Fin 3) l) := by
  have e : after (hostOps3 (F := Ideal)) W (main_v53 : DevRef τ sig)
      = fun i => shapeCast S1x128 (fun i => shapeCast S128 (extractStridedSlice S1x128 ![1, 0] (W (main_arg9 : DevRef τ sig)) slices_S3x128_S1x128_1_0) shapeCasts_S1x128_S128 i) shapeCasts_S128_S1x128 i := by
    simp only [after_cons, after_nil]
    rfl
  rw [e]
  exact row_apply 1 _ _ 1 rfl l

/-- The second round's upper output matrix, from the upper halves cut before the first round. -/
theorem h3_v48 (a b : Fin 128) :
    after (hostOps3 (F := Ideal)) W (main_v48 : DevRef τ sig) (ix2 a b) = W (main_v4 : DevRef τ sig) (ix3 (1 : Fin 3) a b) := by
  have e : after (hostOps3 (F := Ideal)) W (main_v48 : DevRef τ sig)
      = fun i => shapeCast S128x128 (extractStridedSlice S1x128x128 ![1, 0, 0] (W (main_v4 : DevRef τ sig)) slices_S3x128x128_S1x128x128_1_0_0) shapeCasts_S1x128x128_S128x128 i := by
    simp only [after_cons, after_nil]
    rfl
  rw [e]
  exact mat_apply 1 _ _ 1 rfl a b

/-- The second round's lower output matrix, from the lower halves cut before the first round. -/
theorem h3_v50 (a b : Fin 128) :
    after (hostOps3 (F := Ideal)) W (main_v50 : DevRef τ sig) (ix2 a b) = W (main_v5 : DevRef τ sig) (ix3 (1 : Fin 3) a b) := by
  have e : after (hostOps3 (F := Ideal)) W (main_v50 : DevRef τ sig)
      = fun i => shapeCast S128x128 (extractStridedSlice S1x128x128 ![1, 0, 0] (W (main_v5 : DevRef τ sig)) slices_S3x128x128_S1x128x128_1_0_0) shapeCasts_S1x128x128_S128x128 i := by
    simp only [after_cons, after_nil]
    rfl
  rw [e]
  exact mat_apply 1 _ _ 1 rfl a b

/-- The second round's output bias row. -/
theorem h3_v54 (l : Fin 128) :
    after (hostOps3 (F := Ideal)) W (main_v54 : DevRef τ sig) (ix2 (0 : Fin 1) l) = W (main_arg11 : DevRef τ sig) (ix2 (1 : Fin 3) l) := by
  have e : after (hostOps3 (F := Ideal)) W (main_v54 : DevRef τ sig)
      = fun i => shapeCast S1x128 (fun i => shapeCast S128 (extractStridedSlice S1x128 ![1, 0] (W (main_arg11 : DevRef τ sig)) slices_S3x128_S1x128_1_0) shapeCasts_S1x128_S128 i) shapeCasts_S128_S1x128 i := by
    simp only [after_cons, after_nil]
    rfl
  rw [e]
  exact row_apply 1 _ _ 1 rfl l

/-! ## The stretch before the third round -/

attribute [local irreducible] Host.gather Host.scatterAdd in
/-- The third round's aggregated table: the edge sum of the table the round before left. -/
theorem h4_v65 :
    after (hostOps4 (F := Ideal)) W (main_v65 : DevRef τ sig)
      = aggK (W (main_arg2 : DevRef τ sig)) (W (main_arg3 : DevRef τ sig)) (W (main_v55 : DevRef τ sig)) := by
  simp only [after_cons, after_nil]
  rfl

/-- The third round's first weight matrix. -/
theorem h4_v67 (a b : Fin 128) :
    after (hostOps4 (F := Ideal)) W (main_v67 : DevRef τ sig) (ix2 a b) = W (main_arg7 : DevRef τ sig) (ix3 (2 : Fin 3) a b) := by
  have e : after (hostOps4 (F := Ideal)) W (main_v67 : DevRef τ sig)
      = fun i => shapeCast S128x128 (extractStridedSlice S1x128x128 ![2, 0, 0] (W (main_arg7 : DevRef τ sig)) slices_S3x128x128_S1x128x128_2_0_0) shapeCasts_S1x128x128_S128x128 i := by
    simp only [after_cons, after_nil]
    rfl
  rw [e]
  exact mat_apply 2 _ _ 2 rfl a b

/-- The third round's second weight matrix. -/
theorem h4_v69 (a b : Fin 128) :
    after (hostOps4 (F := Ideal)) W (main_v69 : DevRef τ sig) (ix2 a b) = W (main_arg8 : DevRef τ sig) (ix3 (2 : Fin 3) a b) := by
  have e : after (hostOps4 (F := Ideal)) W (main_v69 : DevRef τ sig)
      = fun i => shapeCast S128x128 (extractStridedSlice S1x128x128 ![2, 0, 0] (W (main_arg8 : DevRef τ sig)) slices_S3x128x128_S1x128x128_2_0_0) shapeCasts_S1x128x128_S128x128 i := by
    simp only [after_cons, after_nil]
    rfl
  rw [e]
  exact mat_apply 2 _ _ 2 rfl a b

/-- The third round's first bias row. -/
theorem h4_v78 (l : Fin 128) :
    after (hostOps4 (F := Ideal)) W (main_v78 : DevRef τ sig) (ix2 (0 : Fin 1) l) = W (main_arg9 : DevRef τ sig) (ix2 (2 : Fin 3) l) := by
  have e : after (hostOps4 (F := Ideal)) W (main_v78 : DevRef τ sig)
      = fun i => shapeCast S1x128 (fun i => shapeCast S128 (extractStridedSlice S1x128 ![2, 0] (W (main_arg9 : DevRef τ sig)) slices_S3x128_S1x128_2_0) shapeCasts_S1x128_S128 i) shapeCasts_S128_S1x128 i := by
    simp only [after_cons, after_nil]
    rfl
  rw [e]
  exact row_apply 2 _ _ 2 rfl l

/-- The third round's upper output matrix, from the upper halves cut before the first round. -/
theorem h4_v73 (a b : Fin 128) :
    after (hostOps4 (F := Ideal)) W (main_v73 : DevRef τ sig) (ix2 a b) = W (main_v4 : DevRef τ sig) (ix3 (2 : Fin 3) a b) := by
  have e : after (hostOps4 (F := Ideal)) W (main_v73 : DevRef τ sig)
      = fun i => shapeCast S128x128 (extractStridedSlice S1x128x128 ![2, 0, 0] (W (main_v4 : DevRef τ sig)) slices_S3x128x128_S1x128x128_2_0_0) shapeCasts_S1x128x128_S128x128 i := by
    simp only [after_cons, after_nil]
    rfl
  rw [e]
  exact mat_apply 2 _ _ 2 rfl a b

/-- The third round's lower output matrix, from the lower halves cut before the first round. -/
theorem h4_v75 (a b : Fin 128) :
    after (hostOps4 (F := Ideal)) W (main_v75 : DevRef τ sig) (ix2 a b) = W (main_v5 : DevRef τ sig) (ix3 (2 : Fin 3) a b) := by
  have e : after (hostOps4 (F := Ideal)) W (main_v75 : DevRef τ sig)
      = fun i => shapeCast S128x128 (extractStridedSlice S1x128x128 ![2, 0, 0] (W (main_v5 : DevRef τ sig)) slices_S3x128x128_S1x128x128_2_0_0) shapeCasts_S1x128x128_S128x128 i := by
    simp only [after_cons, after_nil]
    rfl
  rw [e]
  exact mat_apply 2 _ _ 2 rfl a b

/-- The third round's output bias row. -/
theorem h4_v79 (l : Fin 128) :
    after (hostOps4 (F := Ideal)) W (main_v79 : DevRef τ sig) (ix2 (0 : Fin 1) l) = W (main_arg11 : DevRef τ sig) (ix2 (2 : Fin 3) l) := by
  have e : after (hostOps4 (F := Ideal)) W (main_v79 : DevRef τ sig)
      = fun i => shapeCast S1x128 (fun i => shapeCast S128 (extractStridedSlice S1x128 ![2, 0] (W (main_arg11 : DevRef τ sig)) slices_S3x128_S1x128_2_0) shapeCasts_S1x128_S128 i) shapeCasts_S128_S1x128 i := by
    simp only [after_cons, after_nil]
    rfl
  rw [e]
  exact row_apply 2 _ _ 2 rfl l

/-! ## What the stretches leave alone: the argument arrays, and the two halves once cut -/

theorem h0_arg0 : after (hostOps0 (F := Ideal)) W (main_arg0 : DevRef τ sig) = W (main_arg0 : DevRef τ sig) := by
  simp only [after_cons, after_nil]
  rfl
theorem h0_arg1 : after (hostOps0 (F := Ideal)) W (main_arg1 : DevRef τ sig) = W (main_arg1 : DevRef τ sig) := by
  simp only [after_cons, after_nil]
  rfl
theorem h0_arg2 : after (hostOps0 (F := Ideal)) W (main_arg2 : DevRef τ sig) = W (main_arg2 : DevRef τ sig) := by
  simp only [after_cons, after_nil]
  rfl
theorem h0_arg3 : after (hostOps0 (F := Ideal)) W (main_arg3 : DevRef τ sig) = W (main_arg3 : DevRef τ sig) := by
  simp only [after_cons, after_nil]
  rfl
theorem h0_arg4 : after (hostOps0 (F := Ideal)) W (main_arg4 : DevRef τ sig) = W (main_arg4 : DevRef τ sig) := by
  simp only [after_cons, after_nil]
  rfl
theorem h0_arg5 : after (hostOps0 (F := Ideal)) W (main_arg5 : DevRef τ sig) = W (main_arg5 : DevRef τ sig) := by
  simp only [after_cons, after_nil]
  rfl
theorem h0_arg6 : after (hostOps0 (F := Ideal)) W (main_arg6 : DevRef τ sig) = W (main_arg6 : DevRef τ sig) := by
  simp only [after_cons, after_nil]
  rfl
theorem h0_arg7 : after (hostOps0 (F := Ideal)) W (main_arg7 : DevRef τ sig) = W (main_arg7 : DevRef τ sig) := by
  simp only [after_cons, after_nil]
  rfl
theorem h0_arg8 : after (hostOps0 (F := Ideal)) W (main_arg8 : DevRef τ sig) = W (main_arg8 : DevRef τ sig) := by
  simp only [after_cons, after_nil]
  rfl
theorem h0_arg9 : after (hostOps0 (F := Ideal)) W (main_arg9 : DevRef τ sig) = W (main_arg9 : DevRef τ sig) := by
  simp only [after_cons, after_nil]
  rfl
theorem h0_arg10 : after (hostOps0 (F := Ideal)) W (main_arg10 : DevRef τ sig) = W (main_arg10 : DevRef τ sig) := by
  simp only [after_cons, after_nil]
  rfl
theorem h0_arg11 : after (hostOps0 (F := Ideal)) W (main_arg11 : DevRef τ sig) = W (main_arg11 : DevRef τ sig) := by
  simp only [after_cons, after_nil]
  rfl

theorem h2_arg0 : after (hostOps2 (F := Ideal)) W (main_arg0 : DevRef τ sig) = W (main_arg0 : DevRef τ sig) := by
  simp only [after_cons, after_nil]
  rfl
theorem h2_arg1 : after (hostOps2 (F := Ideal)) W (main_arg1 : DevRef τ sig) = W (main_arg1 : DevRef τ sig) := by
  simp only [after_cons, after_nil]
  rfl
theorem h2_arg2 : after (hostOps2 (F := Ideal)) W (main_arg2 : DevRef τ sig) = W (main_arg2 : DevRef τ sig) := by
  simp only [after_cons, after_nil]
  rfl
theorem h2_arg3 : after (hostOps2 (F := Ideal)) W (main_arg3 : DevRef τ sig) = W (main_arg3 : DevRef τ sig) := by
  simp only [after_cons, after_nil]
  rfl
theorem h2_arg4 : after (hostOps2 (F := Ideal)) W (main_arg4 : DevRef τ sig) = W (main_arg4 : DevRef τ sig) := by
  simp only [after_cons, after_nil]
  rfl
theorem h2_arg5 : after (hostOps2 (F := Ideal)) W (main_arg5 : DevRef τ sig) = W (main_arg5 : DevRef τ sig) := by
  simp only [after_cons, after_nil]
  rfl
theorem h2_arg6 : after (hostOps2 (F := Ideal)) W (main_arg6 : DevRef τ sig) = W (main_arg6 : DevRef τ sig) := by
  simp only [after_cons, after_nil]
  rfl
theorem h2_arg7 : after (hostOps2 (F := Ideal)) W (main_arg7 : DevRef τ sig) = W (main_arg7 : DevRef τ sig) := by
  simp only [after_cons, after_nil]
  rfl
theorem h2_arg8 : after (hostOps2 (F := Ideal)) W (main_arg8 : DevRef τ sig) = W (main_arg8 : DevRef τ sig) := by
  simp only [after_cons, after_nil]
  rfl
theorem h2_arg9 : after (hostOps2 (F := Ideal)) W (main_arg9 : DevRef τ sig) = W (main_arg9 : DevRef τ sig) := by
  simp only [after_cons, after_nil]
  rfl
theorem h2_arg10 : after (hostOps2 (F := Ideal)) W (main_arg10 : DevRef τ sig) = W (main_arg10 : DevRef τ sig) := by
  simp only [after_cons, after_nil]
  rfl
theorem h2_arg11 : after (hostOps2 (F := Ideal)) W (main_arg11 : DevRef τ sig) = W (main_arg11 : DevRef τ sig) := by
  simp only [after_cons, after_nil]
  rfl

theorem h3_arg0 : after (hostOps3 (F := Ideal)) W (main_arg0 : DevRef τ sig) = W (main_arg0 : DevRef τ sig) := by
  simp only [after_cons, after_nil]
  rfl
theorem h3_arg1 : after (hostOps3 (F := Ideal)) W (main_arg1 : DevRef τ sig) = W (main_arg1 : DevRef τ sig) := by
  simp only [after_cons, after_nil]
  rfl
theorem h3_arg2 : after (hostOps3 (F := Ideal)) W (main_arg2 : DevRef τ sig) = W (main_arg2 : DevRef τ sig) := by
  simp only [after_cons, after_nil]
  rfl
theorem h3_arg3 : after (hostOps3 (F := Ideal)) W (main_arg3 : DevRef τ sig) = W (main_arg3 : DevRef τ sig) := by
  simp only [after_cons, after_nil]
  rfl
theorem h3_arg4 : after (hostOps3 (F := Ideal)) W (main_arg4 : DevRef τ sig) = W (main_arg4 : DevRef τ sig) := by
  simp only [after_cons, after_nil]
  rfl
theorem h3_arg5 : after (hostOps3 (F := Ideal)) W (main_arg5 : DevRef τ sig) = W (main_arg5 : DevRef τ sig) := by
  simp only [after_cons, after_nil]
  rfl
theorem h3_arg6 : after (hostOps3 (F := Ideal)) W (main_arg6 : DevRef τ sig) = W (main_arg6 : DevRef τ sig) := by
  simp only [after_cons, after_nil]
  rfl
theorem h3_arg7 : after (hostOps3 (F := Ideal)) W (main_arg7 : DevRef τ sig) = W (main_arg7 : DevRef τ sig) := by
  simp only [after_cons, after_nil]
  rfl
theorem h3_arg8 : after (hostOps3 (F := Ideal)) W (main_arg8 : DevRef τ sig) = W (main_arg8 : DevRef τ sig) := by
  simp only [after_cons, after_nil]
  rfl
theorem h3_arg9 : after (hostOps3 (F := Ideal)) W (main_arg9 : DevRef τ sig) = W (main_arg9 : DevRef τ sig) := by
  simp only [after_cons, after_nil]
  rfl
theorem h3_arg10 : after (hostOps3 (F := Ideal)) W (main_arg10 : DevRef τ sig) = W (main_arg10 : DevRef τ sig) := by
  simp only [after_cons, after_nil]
  rfl
theorem h3_arg11 : after (hostOps3 (F := Ideal)) W (main_arg11 : DevRef τ sig) = W (main_arg11 : DevRef τ sig) := by
  simp only [after_cons, after_nil]
  rfl
theorem h3_v4 : after (hostOps3 (F := Ideal)) W (main_v4 : DevRef τ sig) = W (main_v4 : DevRef τ sig) := by
  simp only [after_cons, after_nil]
  rfl
theorem h3_v5 : after (hostOps3 (F := Ideal)) W (main_v5 : DevRef τ sig) = W (main_v5 : DevRef τ sig) := by
  simp only [after_cons, after_nil]
  rfl

theorem h4_arg0 : after (hostOps4 (F := Ideal)) W (main_arg0 : DevRef τ sig) = W (main_arg0 : DevRef τ sig) := by
  simp only [after_cons, after_nil]
  rfl
theorem h4_arg1 : after (hostOps4 (F := Ideal)) W (main_arg1 : DevRef τ sig) = W (main_arg1 : DevRef τ sig) := by
  simp only [after_cons, after_nil]
  rfl
theorem h4_arg2 : after (hostOps4 (F := Ideal)) W (main_arg2 : DevRef τ sig) = W (main_arg2 : DevRef τ sig) := by
  simp only [after_cons, after_nil]
  rfl
theorem h4_arg3 : after (hostOps4 (F := Ideal)) W (main_arg3 : DevRef τ sig) = W (main_arg3 : DevRef τ sig) := by
  simp only [after_cons, after_nil]
  rfl
theorem h4_arg4 : after (hostOps4 (F := Ideal)) W (main_arg4 : DevRef τ sig) = W (main_arg4 : DevRef τ sig) := by
  simp only [after_cons, after_nil]
  rfl
theorem h4_arg5 : after (hostOps4 (F := Ideal)) W (main_arg5 : DevRef τ sig) = W (main_arg5 : DevRef τ sig) := by
  simp only [after_cons, after_nil]
  rfl
theorem h4_arg6 : after (hostOps4 (F := Ideal)) W (main_arg6 : DevRef τ sig) = W (main_arg6 : DevRef τ sig) := by
  simp only [after_cons, after_nil]
  rfl
theorem h4_arg7 : after (hostOps4 (F := Ideal)) W (main_arg7 : DevRef τ sig) = W (main_arg7 : DevRef τ sig) := by
  simp only [after_cons, after_nil]
  rfl
theorem h4_arg8 : after (hostOps4 (F := Ideal)) W (main_arg8 : DevRef τ sig) = W (main_arg8 : DevRef τ sig) := by
  simp only [after_cons, after_nil]
  rfl
theorem h4_arg9 : after (hostOps4 (F := Ideal)) W (main_arg9 : DevRef τ sig) = W (main_arg9 : DevRef τ sig) := by
  simp only [after_cons, after_nil]
  rfl
theorem h4_arg10 : after (hostOps4 (F := Ideal)) W (main_arg10 : DevRef τ sig) = W (main_arg10 : DevRef τ sig) := by
  simp only [after_cons, after_nil]
  rfl
theorem h4_arg11 : after (hostOps4 (F := Ideal)) W (main_arg11 : DevRef τ sig) = W (main_arg11 : DevRef τ sig) := by
  simp only [after_cons, after_nil]
  rfl
theorem h4_v4 : after (hostOps4 (F := Ideal)) W (main_v4 : DevRef τ sig) = W (main_v4 : DevRef τ sig) := by
  simp only [after_cons, after_nil]
  rfl
theorem h4_v5 : after (hostOps4 (F := Ideal)) W (main_v5 : DevRef τ sig) = W (main_v5 : DevRef τ sig) := by
  simp only [after_cons, after_nil]
  rfl

end Cert.Gcn.HostK

end
-- ==== Proof.ChainKept.lean ====
/-
  The argument arrays through the kernel program's run.

  No host operation and no launch writes an argument array (a launch either reads it through an input window, whose array
  it leaves as entered, or does not touch it), so at every boundary between stretches and launches each argument array
  still holds its launch contents.
-/
import proofs.«124699_j23029614641915_1_alg».proof.Proof.Gen.KernelIdeal.Frame
import proofs.«124699_j23029614641915_1_alg».proof.Proof.HostK

set_option maxRecDepth 16384

noncomputable section

namespace Cert.Gcn.Chain

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- Every argument array of core `c` holds its launch contents in the valuation `X`. -/
structure Kept (c : Dev nD) (X : Valuation τ sig (Elt Ideal)) : Prop where
  a0 : X (Proc.devRef .tc main_arg0) = m ((c : Thread nD τ).loc main_arg0)
  a1 : X (Proc.devRef .tc main_arg1) = m ((c : Thread nD τ).loc main_arg1)
  a2 : X (Proc.devRef .tc main_arg2) = m ((c : Thread nD τ).loc main_arg2)
  a3 : X (Proc.devRef .tc main_arg3) = m ((c : Thread nD τ).loc main_arg3)
  a4 : X (Proc.devRef .tc main_arg4) = m ((c : Thread nD τ).loc main_arg4)
  a5 : X (Proc.devRef .tc main_arg5) = m ((c : Thread nD τ).loc main_arg5)
  a6 : X (Proc.devRef .tc main_arg6) = m ((c : Thread nD τ).loc main_arg6)
  a7 : X (Proc.devRef .tc main_arg7) = m ((c : Thread nD τ).loc main_arg7)
  a8 : X (Proc.devRef .tc main_arg8) = m ((c : Thread nD τ).loc main_arg8)
  a9 : X (Proc.devRef .tc main_arg9) = m ((c : Thread nD τ).loc main_arg9)
  a10 : X (Proc.devRef .tc main_arg10) = m ((c : Thread nD τ).loc main_arg10)
  a11 : X (Proc.devRef .tc main_arg11) = m ((c : Thread nD τ).loc main_arg11)

theorem kept0 (c : Dev nD) : Kept m c (W0 m ρ c) :=
  ⟨rfl, rfl, rfl, rfl, rfl, rfl, rfl, rfl, rfl, rfl, rfl, rfl⟩

theorem kept1 (c : Dev nD) : Kept m c (W1 m ρ c) :=
  have h := kept0 m ρ c
  {
    a0 := (HostK.h0_arg0 (W0 m ρ c)).trans h.a0
    a1 := (HostK.h0_arg1 (W0 m ρ c)).trans h.a1
    a2 := (HostK.h0_arg2 (W0 m ρ c)).trans h.a2
    a3 := (HostK.h0_arg3 (W0 m ρ c)).trans h.a3
    a4 := (HostK.h0_arg4 (W0 m ρ c)).trans h.a4
    a5 := (HostK.h0_arg5 (W0 m ρ c)).trans h.a5
    a6 := (HostK.h0_arg6 (W0 m ρ c)).trans h.a6
    a7 := (HostK.h0_arg7 (W0 m ρ c)).trans h.a7
    a8 := (HostK.h0_arg8 (W0 m ρ c)).trans h.a8
    a9 := (HostK.h0_arg9 (W0 m ρ c)).trans h.a9
    a10 := (HostK.h0_arg10 (W0 m ρ c)).trans h.a10
    a11 := (HostK.h0_arg11 (W0 m ρ c)).trans h.a11 }

theorem kept2 (c : Dev nD) : Kept m c (W2 m ρ c) :=
  have h := kept1 m ρ c
  {
    a0 := ((W2_arr m ρ c 0).trans (((dat0 (V1 m ρ) c).arrAt_in 0 rfl _).trans (A_eq0 (V1 m ρ) c 0))).trans h.a0
    a1 := (W2_of_ne m ρ c main_arg1 (by decide)).trans h.a1
    a2 := (W2_of_ne m ρ c main_arg2 (by decide)).trans h.a2
    a3 := (W2_of_ne m ρ c main_arg3 (by decide)).trans h.a3
    a4 := (W2_of_ne m ρ c main_arg4 (by decide)).trans h.a4
    a5 := ((W2_arr m ρ c 1).trans (((dat0 (V1 m ρ) c).arrAt_in 1 rfl _).trans (A_eq0 (V1 m ρ) c 1))).trans h.a5
    a6 := (W2_of_ne m ρ c main_arg6 (by decide)).trans h.a6
    a7 := (W2_of_ne m ρ c main_arg7 (by decide)).trans h.a7
    a8 := (W2_of_ne m ρ c main_arg8 (by decide)).trans h.a8
    a9 := (W2_of_ne m ρ c main_arg9 (by decide)).trans h.a9
    a10 := (W2_of_ne m ρ c main_arg10 (by decide)).trans h.a10
    a11 := (W2_of_ne m ρ c main_arg11 (by decide)).trans h.a11 }

theorem kept3 (c : Dev nD) : Kept m c (W3 m ρ c) :=
  have h := kept2 m ρ c
  {
    a0 := (W3_of_ne m ρ c main_arg0 (by decide)).trans h.a0
    a1 := (W3_of_ne m ρ c main_arg1 (by decide)).trans h.a1
    a2 := (W3_of_ne m ρ c main_arg2 (by decide)).trans h.a2
    a3 := (W3_of_ne m ρ c main_arg3 (by decide)).trans h.a3
    a4 := ((W3_arr m ρ c 0).trans (((dat1 (V2 m ρ) c).arrAt_in 0 rfl _).trans (A_eq1 (V2 m ρ) c 0))).trans h.a4
    a5 := (W3_of_ne m ρ c main_arg5 (by decide)).trans h.a5
    a6 := (W3_of_ne m ρ c main_arg6 (by decide)).trans h.a6
    a7 := (W3_of_ne m ρ c main_arg7 (by decide)).trans h.a7
    a8 := (W3_of_ne m ρ c main_arg8 (by decide)).trans h.a8
    a9 := (W3_of_ne m ρ c main_arg9 (by decide)).trans h.a9
    a10 := (W3_of_ne m ρ c main_arg10 (by decide)).trans h.a10
    a11 := (W3_of_ne m ρ c main_arg11 (by decide)).trans h.a11 }

theorem kept4 (c : Dev nD) : Kept m c (W4 m ρ c) :=
  have h := kept3 m ρ c
  {
    a0 := (HostK.h2_arg0 (W3 m ρ c)).trans h.a0
    a1 := (HostK.h2_arg1 (W3 m ρ c)).trans h.a1
    a2 := (HostK.h2_arg2 (W3 m ρ c)).trans h.a2
    a3 := (HostK.h2_arg3 (W3 m ρ c)).trans h.a3
    a4 := (HostK.h2_arg4 (W3 m ρ c)).trans h.a4
    a5 := (HostK.h2_arg5 (W3 m ρ c)).trans h.a5
    a6 := (HostK.h2_arg6 (W3 m ρ c)).trans h.a6
    a7 := (HostK.h2_arg7 (W3 m ρ c)).trans h.a7
    a8 := (HostK.h2_arg8 (W3 m ρ c)).trans h.a8
    a9 := (HostK.h2_arg9 (W3 m ρ c)).trans h.a9
    a10 := (HostK.h2_arg10 (W3 m ρ c)).trans h.a10
    a11 := (HostK.h2_arg11 (W3 m ρ c)).trans h.a11 }

theorem kept5 (c : Dev nD) : Kept m c (W5 m ρ c) :=
  have h := kept4 m ρ c
  {
    a0 := (W5_of_ne m ρ c main_arg0 (by decide)).trans h.a0
    a1 := ((W5_arr m ρ c 1).trans (((dat2 (V4 m ρ) c).arrAt_in 1 rfl _).trans (A_eq2 (V4 m ρ) c 1))).trans h.a1
    a2 := (W5_of_ne m ρ c main_arg2 (by decide)).trans h.a2
    a3 := (W5_of_ne m ρ c main_arg3 (by decide)).trans h.a3
    a4 := (W5_of_ne m ρ c main_arg4 (by decide)).trans h.a4
    a5 := (W5_of_ne m ρ c main_arg5 (by decide)).trans h.a5
    a6 := (W5_of_ne m ρ c main_arg6 (by decide)).trans h.a6
    a7 := (W5_of_ne m ρ c main_arg7 (by decide)).trans h.a7
    a8 := (W5_of_ne m ρ c main_arg8 (by decide)).trans h.a8
    a9 := (W5_of_ne m ρ c main_arg9 (by decide)).trans h.a9
    a10 := (W5_of_ne m ρ c main_arg10 (by decide)).trans h.a10
    a11 := (W5_of_ne m ρ c main_arg11 (by decide)).trans h.a11 }

theorem kept6 (c : Dev nD) : Kept m c (W6 m ρ c) :=
  have h := kept5 m ρ c
  {
    a0 := (HostK.h3_arg0 (W5 m ρ c)).trans h.a0
    a1 := (HostK.h3_arg1 (W5 m ρ c)).trans h.a1
    a2 := (HostK.h3_arg2 (W5 m ρ c)).trans h.a2
    a3 := (HostK.h3_arg3 (W5 m ρ c)).trans h.a3
    a4 := (HostK.h3_arg4 (W5 m ρ c)).trans h.a4
    a5 := (HostK.h3_arg5 (W5 m ρ c)).trans h.a5
    a6 := (HostK.h3_arg6 (W5 m ρ c)).trans h.a6
    a7 := (HostK.h3_arg7 (W5 m ρ c)).trans h.a7
    a8 := (HostK.h3_arg8 (W5 m ρ c)).trans h.a8
    a9 := (HostK.h3_arg9 (W5 m ρ c)).trans h.a9
    a10 := (HostK.h3_arg10 (W5 m ρ c)).trans h.a10
    a11 := (HostK.h3_arg11 (W5 m ρ c)).trans h.a11 }

theorem kept7 (c : Dev nD) : Kept m c (W7 m ρ c) :=
  have h := kept6 m ρ c
  {
    a0 := (W7_of_ne m ρ c main_arg0 (by decide)).trans h.a0
    a1 := ((W7_arr m ρ c 1).trans (((dat3 (V6 m ρ) c).arrAt_in 1 rfl _).trans (A_eq3 (V6 m ρ) c 1))).trans h.a1
    a2 := (W7_of_ne m ρ c main_arg2 (by decide)).trans h.a2
    a3 := (W7_of_ne m ρ c main_arg3 (by decide)).trans h.a3
    a4 := (W7_of_ne m ρ c main_arg4 (by decide)).trans h.a4
    a5 := (W7_of_ne m ρ c main_arg5 (by decide)).trans h.a5
    a6 := (W7_of_ne m ρ c main_arg6 (by decide)).trans h.a6
    a7 := (W7_of_ne m ρ c main_arg7 (by decide)).trans h.a7
    a8 := (W7_of_ne m ρ c main_arg8 (by decide)).trans h.a8
    a9 := (W7_of_ne m ρ c main_arg9 (by decide)).trans h.a9
    a10 := (W7_of_ne m ρ c main_arg10 (by decide)).trans h.a10
    a11 := (W7_of_ne m ρ c main_arg11 (by decide)).trans h.a11 }

theorem kept8 (c : Dev nD) : Kept m c (W8 m ρ c) :=
  have h := kept7 m ρ c
  {
    a0 := (HostK.h4_arg0 (W7 m ρ c)).trans h.a0
    a1 := (HostK.h4_arg1 (W7 m ρ c)).trans h.a1
    a2 := (HostK.h4_arg2 (W7 m ρ c)).trans h.a2
    a3 := (HostK.h4_arg3 (W7 m ρ c)).trans h.a3
    a4 := (HostK.h4_arg4 (W7 m ρ c)).trans h.a4
    a5 := (HostK.h4_arg5 (W7 m ρ c)).trans h.a5
    a6 := (HostK.h4_arg6 (W7 m ρ c)).trans h.a6
    a7 := (HostK.h4_arg7 (W7 m ρ c)).trans h.a7
    a8 := (HostK.h4_arg8 (W7 m ρ c)).trans h.a8
    a9 := (HostK.h4_arg9 (W7 m ρ c)).trans h.a9
    a10 := (HostK.h4_arg10 (W7 m ρ c)).trans h.a10
    a11 := (HostK.h4_arg11 (W7 m ρ c)).trans h.a11 }

end Cert.Gcn.Chain

end
-- ==== Proof.KernelTerm.lean ====
/-
  The kernel program's intermediate arrays as functions of the arrays before them, index by index.

  `normArr X` is `X` with every row L2-normalised; `normLinArr A W b` the normalised affine image of the feature
  table; `layerArr` one round applied to every node, the weights given as matrices and the biases as single rows.
-/
import proofs.«124699_j23029614641915_1_alg».proof.Proof.Spec

noncomputable section

namespace Cert.Gcn

open Idealize.ShloMosaic Idealize.ShloMosaic.ValueIdx

/-- Every row of an `n × 128` array normalised. -/
def normArr {n : ℕ} (X : FVec Ideal ⟨2, ![n, 128]⟩ .f32) : FVec Ideal ⟨2, ![n, 128]⟩ .f32 :=
  fun i => rowNorm (fun k => X (ix2 (i 0) k)) (i 1)

/-- Every row of `A · W + b` normalised, `b` given as a single row. -/
def normLinArr {n : ℕ} (A : FVec Ideal ⟨2, ![n, 256]⟩ .f32) (W : FVec Ideal ⟨2, ![256, 128]⟩ .f32)
    (b : FVec Ideal ⟨2, ![1, 128]⟩ .f32) : FVec Ideal ⟨2, ![n, 128]⟩ .f32 :=
  fun i => rowNorm (linRow (fun k => A (ix2 (i 0) k)) (fun a c => W (ix2 a c)) (fun c => b (ix2 (0 : Fin 1) c))) (i 1)

/-- One round on every node: aggregated rows `G`, embedding rows `E`, the weights as matrices, the biases as rows. -/
def layerArr {n : ℕ} (G E : FVec Ideal ⟨2, ![n, 128]⟩ .f32) (ws dw : FVec Ideal ⟨2, ![128, 128]⟩ .f32)
    (db : FVec Ideal ⟨2, ![1, 128]⟩ .f32) (owh owu : FVec Ideal ⟨2, ![128, 128]⟩ .f32) (ob : FVec Ideal ⟨2, ![1, 128]⟩ .f32) :
    FVec Ideal ⟨2, ![n, 128]⟩ .f32 :=
  fun i => layerRow (fun m => G (ix2 (i 0) m)) (fun m => E (ix2 (i 0) m)) (fun a c => ws (ix2 a c)) (fun a c => dw (ix2 a c))
    (fun l => db (ix2 (0 : Fin 1) l)) (fun a c => owh (ix2 a c)) (fun a c => owu (ix2 a c)) (fun l => ob (ix2 (0 : Fin 1) l)) (i 1)

end Cert.Gcn

end
-- ==== Proof.Arr0.lean ====
/-
  The first launch: the feature table, 2000 rows at a time, through `feat · W + b` and the row normalisation.

  Point `t` of the 25 reads rows `2000 t … 2000 t + 1999` of the feature table, the whole weight matrix and the whole
  bias row, and writes the same rows of the output: the output array ends holding every feature row's normalised image.
-/
import proofs.«124699_j23029614641915_1_alg».proof.Proof.Gen.KernelIdeal.Frame
import proofs.«124699_j23029614641915_1_alg».proof.Proof.KernelTerm
import Idealize.ShloMosaic.Lib.Pipeline.Value

set_option maxRecDepth 16384

noncomputable section

namespace Cert.Gcn.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The row windows sit at block row `t`; the weight and bias windows at block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the array-level function: the body's value at row `p` of the block reads row
    `2000 t + p` of each row window's array and the whole of the others. -/
theorem flushed0 (c : Dev nD)
    (hpay : ∀ (x0 : Vec Ideal S2000x256 .f32) (x1 : Vec Ideal S256x128 .f32) (x2 : Vec Ideal S1x128 .f32) (p : Fin 2000) (q : Fin 128),
      Gen.out0_3 (F := Ideal) x0 x1 x2 (ix2 p q)
        = rowNorm (linRow (fun k => x0 (ix2 p k)) (fun a b => x1 (ix2 a b)) (fun b => x2 (ix2 (0 : Fin 1) b))) q) (t : Fin cfg0.N) :
    (dat0 (F := Ideal) V c).flushed 3 t
      = ((cfg0.win 3).blk t).view.read (Elt Ideal) (normLinArr (V c main_arg0) (V c main_arg5) (V c main_v0)) := by
  show (cfg0.win 3).cut (grid0.coords t) ((dat0 V c).after 3 t) = _
  rw [after0_3]
  obtain ⟨e0, e1, e2, e3, e4, e5, e6, e7⟩ := idx0 t
  funext y
  obtain ⟨p, q, rfl⟩ : ∃ (p : Fin 2000) (q : Fin 128), y = ix2 p q := ⟨y 0, y 1, eq_ix2 y⟩
  refine (hpay (iblk0 V c 0 t) (iblk0 V c 1 t) (iblk0 V c 2 t) p q).trans ?_
  have ht : t.val < 25 := lt_of_lt_of_eq t.isLt N_0
  have hr : t.val * 2000 + p.val < 50000 := by have := p.isLt; omega
  have ha0 : ∀ k : Fin 256, iblk0 V c 0 t (ix2 p k) = V c main_arg0 (ix2 (⟨t.val * 2000 + p.val, hr⟩ : Fin 50000) k) := by
    intro k
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  have ha1 : ∀ (a : Fin 256) (b : Fin 128), iblk0 V c 1 t (ix2 a b) = V c main_arg5 (ix2 a b) := by
    intro a b
    show V c main_arg5 (((cfg0.win 1).blk t).view.emb (ix2 a b)) = _
    refine congrArg (V c main_arg5) (funext fun ax => Fin.ext ?_)
    match ax with
    | ⟨0, _⟩ => show win0_1.index t (0 : Fin 2) * 256 + 1 * a.val = a.val; omega
    | ⟨1, _⟩ => show win0_1.index t (1 : Fin 2) * 128 + 1 * b.val = b.val; omega
  have ha2 : ∀ (b : Fin 128), iblk0 V c 2 t (ix2 (0 : Fin 1) b) = V c main_v0 (ix2 (0 : Fin 1) b) := by
    intro b
    show V c main_v0 (((cfg0.win 2).blk t).view.emb (ix2 (0 : Fin 1) b)) = _
    refine congrArg (V c main_v0) (funext fun ax => Fin.ext ?_)
    match ax with
    | ⟨0, _⟩ => show win0_2.index t (0 : Fin 2) * 1 + 1 * 0 = 0; omega
    | ⟨1, _⟩ => show win0_2.index t (1 : Fin 2) * 128 + 1 * b.val = b.val; omega
  have hb : View.read (Elt Ideal) ((cfg0.win 3).blk t).view (normLinArr (V c main_arg0) (V c main_arg5) (V c main_v0)) (ix2 p q)
      = normLinArr (V c main_arg0) (V c main_arg5) (V c main_v0) (ix2 (⟨t.val * 2000 + p.val, hr⟩ : Fin 50000) q) := by
    show normLinArr (V c main_arg0) (V c main_arg5) (V c main_v0) (((cfg0.win 3).blk t).view.emb (ix2 p q)) = _
    refine congrArg (normLinArr (V c main_arg0) (V c main_arg5) (V c main_v0)) (funext fun a => Fin.ext ?_)
    match a with
    | ⟨0, _⟩ => show win0_3.index t (0 : Fin 2) * 2000 + 1 * p.val = t.val * 2000 + p.val; omega
    | ⟨1, _⟩ => show win0_3.index t (1 : Fin 2) * 128 + 1 * q.val = q.val; omega
  rw [hb]
  simp only [ha0, ha1, ha2]
  rfl

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v1).slice (win0_3.rect t)).set ↔ _
  rw [View.set_slice_whole, Rect.mem_set_unit]
  exact Iff.rfl

/-- Row `r` lies in the block of point `r / 2000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 2000 < cfg0.N := lt_of_lt_of_eq (by omega : (i 0).val / 2000 < 25) N_0.symm
  refine ⟨⟨(i 0).val / 2000, hN⟩, flush0_3 _, ?_⟩
  rw [mem_blk0]
  obtain ⟨e0, e1, e2, e3, e4, e5, e6, e7⟩ := idx0 ⟨(i 0).val / 2000, hN⟩
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, hN⟩ (1 : Fin 2) * 128 ≤ (i 1).val ∧ (i 1).val < win0_3.index ⟨(i 0).val / 2000, hN⟩ (1 : Fin 2) * 128 + 128
    rw [e7]; omega

/-- The output array of the launch after its run: every feature row's affine image, normalised. -/
theorem arr0 (c : Dev nD)
    (hpay : ∀ (x0 : Vec Ideal S2000x256 .f32) (x1 : Vec Ideal S256x128 .f32) (x2 : Vec Ideal S1x128 .f32) (p : Fin 2000) (q : Fin 128),
      Gen.out0_3 (F := Ideal) x0 x1 x2 (ix2 p q)
        = rowNorm (linRow (fun k => x0 (ix2 p k)) (fun a b => x1 (ix2 a b)) (fun b => x2 (ix2 (0 : Fin 1) b))) q) :
    (dat0 (F := Ideal) V c).arrAt 3 cfg0.N = normLinArr (V c main_arg0) (V c main_arg5) (V c main_v0) :=
  (dat0 (F := Ideal) V c).arrAt_eq_of_cover 3 (normLinArr (V c main_arg0) (V c main_arg5) (V c main_v0)) (fun t _ => flushed0 V c hpay t) cover0

end Cert.Gcn.Arr

end
-- ==== Proof.Arr1.lean ====
/-
  The second launch: the user embedding table, 2000 rows at a time, each row normalised.

  Point `t` of the 25 reads rows `2000 t … 2000 t + 1999` of the table and writes the same rows of the output, so the
  output array ends holding the table with every row normalised.
-/
import proofs.«124699_j23029614641915_1_alg».proof.Proof.Gen.KernelIdeal.Frame
import proofs.«124699_j23029614641915_1_alg».proof.Proof.KernelTerm
import Idealize.ShloMosaic.Lib.Pipeline.Value

set_option maxRecDepth 16384

noncomputable section

namespace Cert.Gcn.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Both windows of the launch sit at block row `t`, block column `0`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the array-level function: the body's value at row `p` of the block reads row
    `2000 t + p` of each row window's array and the whole of the others. -/
theorem flushed1 (c : Dev nD)
    (hpay : ∀ (x0 : Vec Ideal S2000x128 .f32) (p : Fin 2000) (q : Fin 128),
      Gen.out1_1 (F := Ideal) x0 (ix2 p q) = rowNorm (fun k => x0 (ix2 p k)) q) (t : Fin cfg1.N) :
    (dat1 (F := Ideal) V c).flushed 1 t = ((cfg1.win 1).blk t).view.read (Elt Ideal) (normArr (V c main_arg4)) := by
  show (cfg1.win 1).cut (grid1.coords t) ((dat1 V c).after 1 t) = _
  rw [after1_1]
  obtain ⟨e0, e1, e2, e3⟩ := idx1 t
  funext y
  obtain ⟨p, q, rfl⟩ : ∃ (p : Fin 2000) (q : Fin 128), y = ix2 p q := ⟨y 0, y 1, eq_ix2 y⟩
  refine (hpay (iblk1 V c 0 t) p q).trans ?_
  have ht : t.val < 25 := lt_of_lt_of_eq t.isLt N_1
  have hr : t.val * 2000 + p.val < 50000 := by have := p.isLt; omega
  have ha : ∀ k : Fin 128, iblk1 V c 0 t (ix2 p k) = V c main_arg4 (ix2 (⟨t.val * 2000 + p.val, hr⟩ : Fin 50000) k) := by
    intro k
    show V c main_arg4 (((cfg1.win 0).blk t).view.emb (ix2 p k)) = _
    refine congrArg (V c main_arg4) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have hb : View.read (Elt Ideal) ((cfg1.win 1).blk t).view (normArr (V c main_arg4)) (ix2 p q)
      = normArr (V c main_arg4) (ix2 (⟨t.val * 2000 + p.val, hr⟩ : Fin 50000) q) := by
    show normArr (V c main_arg4) (((cfg1.win 1).blk t).view.emb (ix2 p q)) = _
    refine congrArg (normArr (V c main_arg4)) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * q.val = q.val; omega
  rw [hb]
  simp only [ha]
  rfl

/-- An index of the output array is in point `t`'s block iff each coordinate is in the block's range on its axis. -/
theorem mem_blk1 (t : Fin cfg1.N) (i : S50000x128.Idx) :
    i ∈ ((cfg1.win 1).blk t).view.set ↔ ∀ a : Fin 2, win1_1.index t a * S2000x128.size a ≤ (i a).val ∧ (i a).val < win1_1.index t a * S2000x128.size a + S2000x128.size a := by
  show i ∈ ((View.whole main_v2).slice (win1_1.rect t)).set ↔ _
  rw [View.set_slice_whole, Rect.mem_set_unit]
  exact Iff.rfl

/-- Row `r` lies in the block of point `r / 2000`. -/
theorem cover1 (i : S50000x128.Idx) : ∃ t : Fin cfg1.N, (cfg1.win 1).flush t = true ∧ i ∈ ((cfg1.win 1).blk t).view.set := by
  have hi0 : (i 0).val < 50000 := (i 0).isLt
  have hi1 : (i 1).val < 128 := (i 1).isLt
  have hN : (i 0).val / 2000 < cfg1.N := lt_of_lt_of_eq (by omega : (i 0).val / 2000 < 25) N_1.symm
  refine ⟨⟨(i 0).val / 2000, hN⟩, flush1_1 _, ?_⟩
  rw [mem_blk1]
  obtain ⟨e0, e1, e2, e3⟩ := idx1 ⟨(i 0).val / 2000, hN⟩
  intro a
  match a with
  | ⟨0, _⟩ =>
    show win1_1.index ⟨(i 0).val / 2000, hN⟩ (0 : Fin 2) * 2000 ≤ (i 0).val ∧ (i 0).val < win1_1.index ⟨(i 0).val / 2000, hN⟩ (0 : Fin 2) * 2000 + 2000
    rw [e2]; show (i 0).val / 2000 * 2000 ≤ (i 0).val ∧ (i 0).val < (i 0).val / 2000 * 2000 + 2000; omega
  | ⟨1, _⟩ =>
    show win1_1.index ⟨(i 0).val / 2000, hN⟩ (1 : Fin 2) * 128 ≤ (i 1).val ∧ (i 1).val < win1_1.index ⟨(i 0).val / 2000, hN⟩ (1 : Fin 2) * 128 + 128
    rw [e3]; omega

/-- The output array of the launch after its run: the table it was given, every row normalised. -/
theorem arr1 (c : Dev nD)
    (hpay : ∀ (x0 : Vec Ideal S2000x128 .f32) (p : Fin 2000) (q : Fin 128),
      Gen.out1_1 (F := Ideal) x0 (ix2 p q) = rowNorm (fun k => x0 (ix2 p k)) q) :
    (dat1 (F := Ideal) V c).arrAt 1 cfg1.N = normArr (V c main_arg4) :=
  (dat1 (F := Ideal) V c).arrAt_eq_of_cover 1 (normArr (V c main_arg4)) (fun t _ => flushed1 V c hpay t) cover1

end Cert.Gcn.Arr

end
-- ==== Proof.Arr2.lean ====
/-
  Launch 3 of five: one round of the network on every node, 2000 nodes at a time.

  Point `t` of the 50 reads rows `2000 t … 2000 t + 1999` of the aggregated array and of the embedding table, the whole of the
  four weight matrices and the two bias rows, and writes the same rows of the output: the output array ends holding the
  round's result for every node.
-/
import proofs.«124699_j23029614641915_1_alg».proof.Proof.Gen.KernelIdeal.Frame
import proofs.«124699_j23029614641915_1_alg».proof.Proof.KernelTerm
import Idealize.ShloMosaic.Lib.Pipeline.Value

set_option maxRecDepth 16384
-- a buffer's type is found by a match on its index in the signature: late buffers cost more steps
set_option maxHeartbeats 4000000

noncomputable section

namespace Cert.Gcn.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three row windows sit at block row `t`; the weight and bias windows at block `(0, 0)`. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- What point `t` writes back is block `t` of the array-level function: the body's value at row `p` of the block reads row
    `2000 t + p` of each row window's array and the whole of the others. -/
theorem flushed2 (c : Dev nD)
    (hpay : ∀ (x0 x1 : Vec Ideal S2000x128 .f32) (x2 x3 : Vec Ideal S128x128 .f32) (x4 : Vec Ideal S1x128 .f32) (x5 x6 : Vec Ideal S128x128 .f32) (x7 : Vec Ideal S1x128 .f32) (p : Fin 2000) (q : Fin 128),
      Gen.out2_8 (F := Ideal) x0 x1 x2 x3 x4 x5 x6 x7 (ix2 p q)
        = layerRow (fun m => x0 (ix2 p m)) (fun m => x1 (ix2 p m)) (fun a b => x2 (ix2 a b)) (fun a b => x3 (ix2 a b)) (fun l => x4 (ix2 (0 : Fin 1) l))
            (fun a b => x5 (ix2 a b)) (fun a b => x6 (ix2 a b)) (fun l => x7 (ix2 (0 : Fin 1) l)) q) (t : Fin cfg2.N) :
    (dat2 (F := Ideal) V c).flushed 8 t
      = ((cfg2.win 8).blk t).view.read (Elt Ideal) (layerArr (V c main_v15) (V c main_arg1) (V c main_v17) (V c main_v19) (V c main_v28) (V c main_v23) (V c main_v25) (V c main_v29)) := by
  show (cfg2.win 8).cut (grid2.coords t) ((dat2 V c).after 8 t) = _
  rw [after2_8]
  obtain ⟨e0, e1, e2, e3, e4, e5, e6, e7, e8, e9, e10, e11, e12, e13, e14, e15, e16, e17⟩ := idx2 t
  funext y
  obtain ⟨p, q, rfl⟩ : ∃ (p : Fin 2000) (q : Fin 128), y = ix2 p q := ⟨y 0, y 1, eq_ix2 y⟩
  refine (hpay (iblk2 V c 0 t) (iblk2 V c 1 t) (iblk2 V c 2 t) (iblk2 V c 3 t) (iblk2 V c 4 t) (iblk2 V c 5 t) (iblk2 V c 6 t) (iblk2 V c 7 t) p q).trans ?_
  have ht : t.val < 50 := lt_of_lt_of_eq t.isLt N_2
  have hr : t.val * 2000 + p.val < 100000 := by have := p.isLt; omega
  have ha0 : ∀ m : Fin 128, iblk2 V c 0 t (ix2 p m) = V c main_v15 (ix2 (⟨t.val * 2000 + p.val, hr⟩ : Fin 100000) m) := by
    intro m
    show V c main_v15 (((cfg2.win 0).blk t).view.emb (ix2 p m)) = _
    refine congrArg (V c main_v15) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * m.val = m.val; omega
  have ha1 : ∀ m : Fin 128, iblk2 V c 1 t (ix2 p m) = V c main_arg1 (ix2 (⟨t.val * 2000 + p.val, hr⟩ : Fin 100000) m) := by
    intro m
    show V c main_arg1 (((cfg2.win 1).blk t).view.emb (ix2 p m)) = _
    refine congrArg (V c main_arg1) (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * m.val = m.val; omega
  have ha2 : ∀ (a b : Fin 128), iblk2 V c 2 t (ix2 a b) = V c main_v17 (ix2 a b) := by
    intro a b
    show V c main_v17 (((cfg2.win 2).blk t).view.emb (ix2 a b)) = _
    refine congrArg (V c main_v17) (funext fun ax => Fin.ext ?_)
    match ax with
    | ⟨0, _⟩ => show win2_2.index t (0 : Fin 2) * 128 + 1 * a.val = a.val; omega
    | ⟨1, _⟩ => show win2_2.index t (1 : Fin 2) * 128 + 1 * b.val = b.val; omega
  have ha3 : ∀ (a b : Fin 128), iblk2 V c 3 t (ix2 a b) = V c main_v19 (ix2 a b) := by
    intro a b
    show V c main_v19 (((cfg2.win 3).blk t).view.emb (ix2 a b)) = _
    refine congrArg (V c main_v19) (funext fun ax => Fin.ext ?_)
    match ax with
    | ⟨0, _⟩ => show win2_3.index t (0 : Fin 2) * 128 + 1 * a.val = a.val; omega
    | ⟨1, _⟩ => show win2_3.index t (1 : Fin 2) * 128 + 1 * b.val = b.val; omega
  have ha4 : ∀ (b : Fin 128), iblk2 V c 4 t (ix2 (0 : Fin 1) b) = V c main_v28 (ix2 (0 : Fin 1) b) := by
    intro b
    show V c main_v28 (((cfg2.win 4).blk t).view.emb (ix2 (0 : Fin 1) b)) = _
    refine congrArg (V c main_v28) (funext fun ax => Fin.ext ?_)
    match ax with
    | ⟨0, _⟩ => show win2_4.index t (0 : Fin 2) * 1 + 1 * 0 = 0; omega
    | ⟨1, _⟩ => show win2_4.index t (1 : Fin 2) * 128 + 1 * b.val = b.val; omega
  have ha5 : ∀ (a b : Fin 128), iblk2 V c 5 t (ix2 a b) = V c main_v23 (ix2 a b) := by
    intro a b
    show V c main_v23 (((cfg2.win 5).blk t).view.emb (ix2 a b)) = _
    refine congrArg (V c main_v23) (funext fun ax => Fin.ext ?_)
    match ax with
    | ⟨0, _⟩ => show win2_5.index t (0 : Fin 2) * 128 + 1 * a.val = a.val; omega
    | ⟨1, _⟩ => show win2_5.index t (1 : Fin 2) * 128 + 1 * b.val = b.val; omega
  have ha6 : ∀ (a b : Fin 128), iblk2 V c 6 t (ix2 a b) = V c main_v25 (ix2 a b) := by
    intro a b
    show V c main_v25 (((cfg2.win 6).blk t).view.emb (ix2 a b)) = _
    refine congrArg (V c main_v25) (funext fun ax => Fin.ext ?_)
    match ax with
    | ⟨0, _⟩ => show win2_6.index t (0 : Fin 2) * 128 + 1 * a.val = a.val; omega
    | ⟨1, _⟩ => show win2_6.index t (1 : Fin 2) * 128 + 1 * b.val = b.val; omega
  have ha7 : ∀ (b : Fin 128), iblk2 V c 7 t (ix2 (0 : Fin 1) b) = V c main_v29 (ix2 (0 : Fin 1) b) := by
    intro b
    show V c main_v29 (((cfg2.win 7).blk t).view.emb (ix2 (0 : Fin 1) b)) = _
    refine congrArg (V c main_v29) (funext fun ax => Fin.ext ?_)
    match ax with
    | ⟨0, _⟩ => show win2_7.index t (0 : Fin 2) * 1 + 1 * 0 = 0; omega
    | ⟨1, _⟩ => show win2_7.index t (1 : Fin 2) * 128 + 1 * b.val = b.val; omega
  have hb : View.read (Elt Ideal) ((cfg2.win 8).blk t).view (layerArr (V c main_v15) (V c main_arg1) (V c main_v17) (V c main_v19) (V c main_v28) (V c main_v23) (V c main_v25) (V c main_v29)) (ix2 p q)
      = (layerArr (V c main_v15) (V c main_arg1) (V c main_v17) (V c main_v19) (V c main_v28) (V c main_v23) (V c main_v25) (V c main_v29)) (ix2 (⟨t.val * 2000 + p.val, hr⟩ : Fin 100000) q) := by
    show (layerArr (V c main_v15) (V c main_arg1) (V c main_v17) (V c main_v19) (V c main_v28) (V c main_v23) (V c main_v25) (V c main_v29)) (((cfg2.win 8).blk t).view.emb (ix2 p q)) = _
    refine congrArg (layerArr (V c main_v15) (V c main_arg1) (V c main_v17) (V c main_v19) (V c main_v28) (V c main_v23) (V c main_v25) (V c main_v29)) (funext fun a => Fin.ext ?_)
    match a with
    | ⟨0, _⟩ => show win2_8.index t (0 : Fin 2) * 2000 + 1 * p.val = t.val * 2000 + p.val; omega
    | ⟨1, _⟩ => show win2_8.index t (1 : Fin 2) * 128 + 1 * q.val = q.val; omega
  rw [hb]
  simp only [ha0, ha1, ha2, ha3, ha4, ha5, ha6, ha7]
  rfl

/-- An index of the output array is in point `t`'s block iff each coordinate is in the block's range on its axis. -/
theorem mem_blk2 (t : Fin cfg2.N) (i : S100000x128.Idx) :
    i ∈ ((cfg2.win 8).blk t).view.set ↔ ∀ a : Fin 2, win2_8.index t a * S2000x128.size a ≤ (i a).val ∧ (i a).val < win2_8.index t a * S2000x128.size a + S2000x128.size a := by
  show i ∈ ((View.whole main_v30).slice (win2_8.rect t)).set ↔ _
  rw [View.set_slice_whole, Rect.mem_set_unit]
  exact Iff.rfl

/-- Row `r` lies in the block of point `r / 2000`. -/
theorem cover2 (i : S100000x128.Idx) : ∃ t : Fin cfg2.N, (cfg2.win 8).flush t = true ∧ i ∈ ((cfg2.win 8).blk t).view.set := by
  have hi0 : (i 0).val < 100000 := (i 0).isLt
  have hi1 : (i 1).val < 128 := (i 1).isLt
  have hN : (i 0).val / 2000 < cfg2.N := lt_of_lt_of_eq (by omega : (i 0).val / 2000 < 50) N_2.symm
  refine ⟨⟨(i 0).val / 2000, hN⟩, flush2_8 _, ?_⟩
  rw [mem_blk2]
  obtain ⟨e0, e1, e2, e3, e4, e5, e6, e7, e8, e9, e10, e11, e12, e13, e14, e15, e16, e17⟩ := idx2 ⟨(i 0).val / 2000, hN⟩
  intro a
  match a with
  | ⟨0, _⟩ =>
    show win2_8.index ⟨(i 0).val / 2000, hN⟩ (0 : Fin 2) * 2000 ≤ (i 0).val ∧ (i 0).val < win2_8.index ⟨(i 0).val / 2000, hN⟩ (0 : Fin 2) * 2000 + 2000
    rw [e16]; show (i 0).val / 2000 * 2000 ≤ (i 0).val ∧ (i 0).val < (i 0).val / 2000 * 2000 + 2000; omega
  | ⟨1, _⟩ =>
    show win2_8.index ⟨(i 0).val / 2000, hN⟩ (1 : Fin 2) * 128 ≤ (i 1).val ∧ (i 1).val < win2_8.index ⟨(i 0).val / 2000, hN⟩ (1 : Fin 2) * 128 + 128
    rw [e17]; omega

/-- The output array of the launch after its run: the round applied to every node. -/
theorem arr2 (c : Dev nD)
    (hpay : ∀ (x0 x1 : Vec Ideal S2000x128 .f32) (x2 x3 : Vec Ideal S128x128 .f32) (x4 : Vec Ideal S1x128 .f32) (x5 x6 : Vec Ideal S128x128 .f32) (x7 : Vec Ideal S1x128 .f32) (p : Fin 2000) (q : Fin 128),
      Gen.out2_8 (F := Ideal) x0 x1 x2 x3 x4 x5 x6 x7 (ix2 p q)
        = layerRow (fun m => x0 (ix2 p m)) (fun m => x1 (ix2 p m)) (fun a b => x2 (ix2 a b)) (fun a b => x3 (ix2 a b)) (fun l => x4 (ix2 (0 : Fin 1) l))
            (fun a b => x5 (ix2 a b)) (fun a b => x6 (ix2 a b)) (fun l => x7 (ix2 (0 : Fin 1) l)) q) :
    (dat2 (F := Ideal) V c).arrAt 8 cfg2.N = layerArr (V c main_v15) (V c main_arg1) (V c main_v17) (V c main_v19) (V c main_v28) (V c main_v23) (V c main_v25) (V c main_v29) :=
  (dat2 (F := Ideal) V c).arrAt_eq_of_cover 8 (layerArr (V c main_v15) (V c main_arg1) (V c main_v17) (V c main_v19) (V c main_v28) (V c main_v23) (V c main_v25) (V c main_v29)) (fun t _ => flushed2 V c hpay t) cover2

end Cert.Gcn.Arr

end
-- ==== Proof.Arr3.lean ====
/-
  Launch 4 of five: one round of the network on every node, 2000 nodes at a time.

  Point `t` of the 50 reads rows `2000 t … 2000 t + 1999` of the aggregated array and of the embedding table, the whole of the
  four weight matrices and the two bias rows, and writes the same rows of the output: the output array ends holding the
  round's result for every node.
-/
import proofs.«124699_j23029614641915_1_alg».proof.Proof.Gen.KernelIdeal.Frame
import proofs.«124699_j23029614641915_1_alg».proof.Proof.KernelTerm
import Idealize.ShloMosaic.Lib.Pipeline.Value

set_option maxRecDepth 16384
-- a buffer's type is found by a match on its index in the signature: late buffers cost more steps
set_option maxHeartbeats 4000000

noncomputable section

namespace Cert.Gcn.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three row windows sit at block row `t`; the weight and bias windows at block `(0, 0)`. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

/-- What point `t` writes back is block `t` of the array-level function: the body's value at row `p` of the block reads row
    `2000 t + p` of each row window's array and the whole of the others. -/
theorem flushed3 (c : Dev nD)
    (hpay : ∀ (x0 x1 : Vec Ideal S2000x128 .f32) (x2 x3 : Vec Ideal S128x128 .f32) (x4 : Vec Ideal S1x128 .f32) (x5 x6 : Vec Ideal S128x128 .f32) (x7 : Vec Ideal S1x128 .f32) (p : Fin 2000) (q : Fin 128),
      Gen.out3_8 (F := Ideal) x0 x1 x2 x3 x4 x5 x6 x7 (ix2 p q)
        = layerRow (fun m => x0 (ix2 p m)) (fun m => x1 (ix2 p m)) (fun a b => x2 (ix2 a b)) (fun a b => x3 (ix2 a b)) (fun l => x4 (ix2 (0 : Fin 1) l))
            (fun a b => x5 (ix2 a b)) (fun a b => x6 (ix2 a b)) (fun l => x7 (ix2 (0 : Fin 1) l)) q) (t : Fin cfg3.N) :
    (dat3 (F := Ideal) V c).flushed 8 t
      = ((cfg3.win 8).blk t).view.read (Elt Ideal) (layerArr (V c main_v40) (V c main_arg1) (V c main_v42) (V c main_v44) (V c main_v53) (V c main_v48) (V c main_v50) (V c main_v54)) := by
  show (cfg3.win 8).cut (grid3.coords t) ((dat3 V c).after 8 t) = _
  rw [after3_8]
  obtain ⟨e0, e1, e2, e3, e4, e5, e6, e7, e8, e9, e10, e11, e12, e13, e14, e15, e16, e17⟩ := idx3 t
  funext y
  obtain ⟨p, q, rfl⟩ : ∃ (p : Fin 2000) (q : Fin 128), y = ix2 p q := ⟨y 0, y 1, eq_ix2 y⟩
  refine (hpay (iblk3 V c 0 t) (iblk3 V c 1 t) (iblk3 V c 2 t) (iblk3 V c 3 t) (iblk3 V c 4 t) (iblk3 V c 5 t) (iblk3 V c 6 t) (iblk3 V c 7 t) p q).trans ?_
  have ht : t.val < 50 := lt_of_lt_of_eq t.isLt N_3
  have hr : t.val * 2000 + p.val < 100000 := by have := p.isLt; omega
  have ha0 : ∀ m : Fin 128, iblk3 V c 0 t (ix2 p m) = V c main_v40 (ix2 (⟨t.val * 2000 + p.val, hr⟩ : Fin 100000) m) := by
    intro m
    show V c main_v40 (((cfg3.win 0).blk t).view.emb (ix2 p m)) = _
    refine congrArg (V c main_v40) (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * m.val = m.val; omega
  have ha1 : ∀ m : Fin 128, iblk3 V c 1 t (ix2 p m) = V c main_arg1 (ix2 (⟨t.val * 2000 + p.val, hr⟩ : Fin 100000) m) := by
    intro m
    show V c main_arg1 (((cfg3.win 1).blk t).view.emb (ix2 p m)) = _
    refine congrArg (V c main_arg1) (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * m.val = m.val; omega
  have ha2 : ∀ (a b : Fin 128), iblk3 V c 2 t (ix2 a b) = V c main_v42 (ix2 a b) := by
    intro a b
    show V c main_v42 (((cfg3.win 2).blk t).view.emb (ix2 a b)) = _
    refine congrArg (V c main_v42) (funext fun ax => Fin.ext ?_)
    match ax with
    | ⟨0, _⟩ => show win3_2.index t (0 : Fin 2) * 128 + 1 * a.val = a.val; omega
    | ⟨1, _⟩ => show win3_2.index t (1 : Fin 2) * 128 + 1 * b.val = b.val; omega
  have ha3 : ∀ (a b : Fin 128), iblk3 V c 3 t (ix2 a b) = V c main_v44 (ix2 a b) := by
    intro a b
    show V c main_v44 (((cfg3.win 3).blk t).view.emb (ix2 a b)) = _
    refine congrArg (V c main_v44) (funext fun ax => Fin.ext ?_)
    match ax with
    | ⟨0, _⟩ => show win3_3.index t (0 : Fin 2) * 128 + 1 * a.val = a.val; omega
    | ⟨1, _⟩ => show win3_3.index t (1 : Fin 2) * 128 + 1 * b.val = b.val; omega
  have ha4 : ∀ (b : Fin 128), iblk3 V c 4 t (ix2 (0 : Fin 1) b) = V c main_v53 (ix2 (0 : Fin 1) b) := by
    intro b
    show V c main_v53 (((cfg3.win 4).blk t).view.emb (ix2 (0 : Fin 1) b)) = _
    refine congrArg (V c main_v53) (funext fun ax => Fin.ext ?_)
    match ax with
    | ⟨0, _⟩ => show win3_4.index t (0 : Fin 2) * 1 + 1 * 0 = 0; omega
    | ⟨1, _⟩ => show win3_4.index t (1 : Fin 2) * 128 + 1 * b.val = b.val; omega
  have ha5 : ∀ (a b : Fin 128), iblk3 V c 5 t (ix2 a b) = V c main_v48 (ix2 a b) := by
    intro a b
    show V c main_v48 (((cfg3.win 5).blk t).view.emb (ix2 a b)) = _
    refine congrArg (V c main_v48) (funext fun ax => Fin.ext ?_)
    match ax with
    | ⟨0, _⟩ => show win3_5.index t (0 : Fin 2) * 128 + 1 * a.val = a.val; omega
    | ⟨1, _⟩ => show win3_5.index t (1 : Fin 2) * 128 + 1 * b.val = b.val; omega
  have ha6 : ∀ (a b : Fin 128), iblk3 V c 6 t (ix2 a b) = V c main_v50 (ix2 a b) := by
    intro a b
    show V c main_v50 (((cfg3.win 6).blk t).view.emb (ix2 a b)) = _
    refine congrArg (V c main_v50) (funext fun ax => Fin.ext ?_)
    match ax with
    | ⟨0, _⟩ => show win3_6.index t (0 : Fin 2) * 128 + 1 * a.val = a.val; omega
    | ⟨1, _⟩ => show win3_6.index t (1 : Fin 2) * 128 + 1 * b.val = b.val; omega
  have ha7 : ∀ (b : Fin 128), iblk3 V c 7 t (ix2 (0 : Fin 1) b) = V c main_v54 (ix2 (0 : Fin 1) b) := by
    intro b
    show V c main_v54 (((cfg3.win 7).blk t).view.emb (ix2 (0 : Fin 1) b)) = _
    refine congrArg (V c main_v54) (funext fun ax => Fin.ext ?_)
    match ax with
    | ⟨0, _⟩ => show win3_7.index t (0 : Fin 2) * 1 + 1 * 0 = 0; omega
    | ⟨1, _⟩ => show win3_7.index t (1 : Fin 2) * 128 + 1 * b.val = b.val; omega
  have hb : View.read (Elt Ideal) ((cfg3.win 8).blk t).view (layerArr (V c main_v40) (V c main_arg1) (V c main_v42) (V c main_v44) (V c main_v53) (V c main_v48) (V c main_v50) (V c main_v54)) (ix2 p q)
      = (layerArr (V c main_v40) (V c main_arg1) (V c main_v42) (V c main_v44) (V c main_v53) (V c main_v48) (V c main_v50) (V c main_v54)) (ix2 (⟨t.val * 2000 + p.val, hr⟩ : Fin 100000) q) := by
    show (layerArr (V c main_v40) (V c main_arg1) (V c main_v42) (V c main_v44) (V c main_v53) (V c main_v48) (V c main_v50) (V c main_v54)) (((cfg3.win 8).blk t).view.emb (ix2 p q)) = _
    refine congrArg (layerArr (V c main_v40) (V c main_arg1) (V c main_v42) (V c main_v44) (V c main_v53) (V c main_v48) (V c main_v50) (V c main_v54)) (funext fun a => Fin.ext ?_)
    match a with
    | ⟨0, _⟩ => show win3_8.index t (0 : Fin 2) * 2000 + 1 * p.val = t.val * 2000 + p.val; omega
    | ⟨1, _⟩ => show win3_8.index t (1 : Fin 2) * 128 + 1 * q.val = q.val; omega
  rw [hb]
  simp only [ha0, ha1, ha2, ha3, ha4, ha5, ha6, ha7]
  rfl

/-- An index of the output array is in point `t`'s block iff each coordinate is in the block's range on its axis. -/
theorem mem_blk3 (t : Fin cfg3.N) (i : S100000x128.Idx) :
    i ∈ ((cfg3.win 8).blk t).view.set ↔ ∀ a : Fin 2, win3_8.index t a * S2000x128.size a ≤ (i a).val ∧ (i a).val < win3_8.index t a * S2000x128.size a + S2000x128.size a := by
  show i ∈ ((View.whole main_v55).slice (win3_8.rect t)).set ↔ _
  rw [View.set_slice_whole, Rect.mem_set_unit]
  exact Iff.rfl

/-- Row `r` lies in the block of point `r / 2000`. -/
theorem cover3 (i : S100000x128.Idx) : ∃ t : Fin cfg3.N, (cfg3.win 8).flush t = true ∧ i ∈ ((cfg3.win 8).blk t).view.set := by
  have hi0 : (i 0).val < 100000 := (i 0).isLt
  have hi1 : (i 1).val < 128 := (i 1).isLt
  have hN : (i 0).val / 2000 < cfg3.N := lt_of_lt_of_eq (by omega : (i 0).val / 2000 < 50) N_3.symm
  refine ⟨⟨(i 0).val / 2000, hN⟩, flush3_8 _, ?_⟩
  rw [mem_blk3]
  obtain ⟨e0, e1, e2, e3, e4, e5, e6, e7, e8, e9, e10, e11, e12, e13, e14, e15, e16, e17⟩ := idx3 ⟨(i 0).val / 2000, hN⟩
  intro a
  match a with
  | ⟨0, _⟩ =>
    show win3_8.index ⟨(i 0).val / 2000, hN⟩ (0 : Fin 2) * 2000 ≤ (i 0).val ∧ (i 0).val < win3_8.index ⟨(i 0).val / 2000, hN⟩ (0 : Fin 2) * 2000 + 2000
    rw [e16]; show (i 0).val / 2000 * 2000 ≤ (i 0).val ∧ (i 0).val < (i 0).val / 2000 * 2000 + 2000; omega
  | ⟨1, _⟩ =>
    show win3_8.index ⟨(i 0).val / 2000, hN⟩ (1 : Fin 2) * 128 ≤ (i 1).val ∧ (i 1).val < win3_8.index ⟨(i 0).val / 2000, hN⟩ (1 : Fin 2) * 128 + 128
    rw [e17]; omega

/-- The output array of the launch after its run: the round applied to every node. -/
theorem arr3 (c : Dev nD)
    (hpay : ∀ (x0 x1 : Vec Ideal S2000x128 .f32) (x2 x3 : Vec Ideal S128x128 .f32) (x4 : Vec Ideal S1x128 .f32) (x5 x6 : Vec Ideal S128x128 .f32) (x7 : Vec Ideal S1x128 .f32) (p : Fin 2000) (q : Fin 128),
      Gen.out3_8 (F := Ideal) x0 x1 x2 x3 x4 x5 x6 x7 (ix2 p q)
        = layerRow (fun m => x0 (ix2 p m)) (fun m => x1 (ix2 p m)) (fun a b => x2 (ix2 a b)) (fun a b => x3 (ix2 a b)) (fun l => x4 (ix2 (0 : Fin 1) l))
            (fun a b => x5 (ix2 a b)) (fun a b => x6 (ix2 a b)) (fun l => x7 (ix2 (0 : Fin 1) l)) q) :
    (dat3 (F := Ideal) V c).arrAt 8 cfg3.N = layerArr (V c main_v40) (V c main_arg1) (V c main_v42) (V c main_v44) (V c main_v53) (V c main_v48) (V c main_v50) (V c main_v54) :=
  (dat3 (F := Ideal) V c).arrAt_eq_of_cover 8 (layerArr (V c main_v40) (V c main_arg1) (V c main_v42) (V c main_v44) (V c main_v53) (V c main_v48) (V c main_v50) (V c main_v54)) (fun t _ => flushed3 V c hpay t) cover3

end Cert.Gcn.Arr

end
-- ==== Proof.Arr4.lean ====
/-
  Launch 5 of five: one round of the network on every node, 2000 nodes at a time.

  Point `t` of the 50 reads rows `2000 t … 2000 t + 1999` of the aggregated array and of the embedding table, the whole of the
  four weight matrices and the two bias rows, and writes the same rows of the output: the output array ends holding the
  round's result for every node.
-/
import proofs.«124699_j23029614641915_1_alg».proof.Proof.Gen.KernelIdeal.Frame
import proofs.«124699_j23029614641915_1_alg».proof.Proof.KernelTerm
import Idealize.ShloMosaic.Lib.Pipeline.Value

set_option maxRecDepth 16384
-- a buffer's type is found by a match on its index in the signature: late buffers cost more steps
set_option maxHeartbeats 4000000

noncomputable section

namespace Cert.Gcn.Arr

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three row windows sit at block row `t`; the weight and bias windows at block `(0, 0)`. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- What point `t` writes back is block `t` of the array-level function: the body's value at row `p` of the block reads row
    `2000 t + p` of each row window's array and the whole of the others. -/
theorem flushed4 (c : Dev nD)
    (hpay : ∀ (x0 x1 : Vec Ideal S2000x128 .f32) (x2 x3 : Vec Ideal S128x128 .f32) (x4 : Vec Ideal S1x128 .f32) (x5 x6 : Vec Ideal S128x128 .f32) (x7 : Vec Ideal S1x128 .f32) (p : Fin 2000) (q : Fin 128),
      Gen.out4_8 (F := Ideal) x0 x1 x2 x3 x4 x5 x6 x7 (ix2 p q)
        = layerRow (fun m => x0 (ix2 p m)) (fun m => x1 (ix2 p m)) (fun a b => x2 (ix2 a b)) (fun a b => x3 (ix2 a b)) (fun l => x4 (ix2 (0 : Fin 1) l))
            (fun a b => x5 (ix2 a b)) (fun a b => x6 (ix2 a b)) (fun l => x7 (ix2 (0 : Fin 1) l)) q) (t : Fin cfg4.N) :
    (dat4 (F := Ideal) V c).flushed 8 t
      = ((cfg4.win 8).blk t).view.read (Elt Ideal) (layerArr (V c main_v65) (V c main_arg1) (V c main_v67) (V c main_v69) (V c main_v78) (V c main_v73) (V c main_v75) (V c main_v79)) := by
  show (cfg4.win 8).cut (grid4.coords t) ((dat4 V c).after 8 t) = _
  rw [after4_8]
  obtain ⟨e0, e1, e2, e3, e4, e5, e6, e7, e8, e9, e10, e11, e12, e13, e14, e15, e16, e17⟩ := idx4 t
  funext y
  obtain ⟨p, q, rfl⟩ : ∃ (p : Fin 2000) (q : Fin 128), y = ix2 p q := ⟨y 0, y 1, eq_ix2 y⟩
  refine (hpay (iblk4 V c 0 t) (iblk4 V c 1 t) (iblk4 V c 2 t) (iblk4 V c 3 t) (iblk4 V c 4 t) (iblk4 V c 5 t) (iblk4 V c 6 t) (iblk4 V c 7 t) p q).trans ?_
  have ht : t.val < 50 := lt_of_lt_of_eq t.isLt N_4
  have hr : t.val * 2000 + p.val < 100000 := by have := p.isLt; omega
  have ha0 : ∀ m : Fin 128, iblk4 V c 0 t (ix2 p m) = V c main_v65 (ix2 (⟨t.val * 2000 + p.val, hr⟩ : Fin 100000) m) := by
    intro m
    show V c main_v65 (((cfg4.win 0).blk t).view.emb (ix2 p m)) = _
    refine congrArg (V c main_v65) (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * m.val = m.val; omega
  have ha1 : ∀ m : Fin 128, iblk4 V c 1 t (ix2 p m) = V c main_arg1 (ix2 (⟨t.val * 2000 + p.val, hr⟩ : Fin 100000) m) := by
    intro m
    show V c main_arg1 (((cfg4.win 1).blk t).view.emb (ix2 p m)) = _
    refine congrArg (V c main_arg1) (funext fun a => Fin.ext ?_)
    match a with
    | ⟨0, _⟩ => show win4_1.index t (0 : Fin 2) * 2000 + 1 * p.val = t.val * 2000 + p.val; omega
    | ⟨1, _⟩ => show win4_1.index t (1 : Fin 2) * 128 + 1 * m.val = m.val; omega
  have ha2 : ∀ (a b : Fin 128), iblk4 V c 2 t (ix2 a b) = V c main_v67 (ix2 a b) := by
    intro a b
    show V c main_v67 (((cfg4.win 2).blk t).view.emb (ix2 a b)) = _
    refine congrArg (V c main_v67) (funext fun ax => Fin.ext ?_)
    match ax with
    | ⟨0, _⟩ => show win4_2.index t (0 : Fin 2) * 128 + 1 * a.val = a.val; omega
    | ⟨1, _⟩ => show win4_2.index t (1 : Fin 2) * 128 + 1 * b.val = b.val; omega
  have ha3 : ∀ (a b : Fin 128), iblk4 V c 3 t (ix2 a b) = V c main_v69 (ix2 a b) := by
    intro a b
    show V c main_v69 (((cfg4.win 3).blk t).view.emb (ix2 a b)) = _
    refine congrArg (V c main_v69) (funext fun ax => Fin.ext ?_)
    match ax with
    | ⟨0, _⟩ => show win4_3.index t (0 : Fin 2) * 128 + 1 * a.val = a.val; omega
    | ⟨1, _⟩ => show win4_3.index t (1 : Fin 2) * 128 + 1 * b.val = b.val; omega
  have ha4 : ∀ (b : Fin 128), iblk4 V c 4 t (ix2 (0 : Fin 1) b) = V c main_v78 (ix2 (0 : Fin 1) b) := by
    intro b
    show V c main_v78 (((cfg4.win 4).blk t).view.emb (ix2 (0 : Fin 1) b)) = _
    refine congrArg (V c main_v78) (funext fun ax => Fin.ext ?_)
    match ax with
    | ⟨0, _⟩ => show win4_4.index t (0 : Fin 2) * 1 + 1 * 0 = 0; omega
    | ⟨1, _⟩ => show win4_4.index t (1 : Fin 2) * 128 + 1 * b.val = b.val; omega
  have ha5 : ∀ (a b : Fin 128), iblk4 V c 5 t (ix2 a b) = V c main_v73 (ix2 a b) := by
    intro a b
    show V c main_v73 (((cfg4.win 5).blk t).view.emb (ix2 a b)) = _
    refine congrArg (V c main_v73) (funext fun ax => Fin.ext ?_)
    match ax with
    | ⟨0, _⟩ => show win4_5.index t (0 : Fin 2) * 128 + 1 * a.val = a.val; omega
    | ⟨1, _⟩ => show win4_5.index t (1 : Fin 2) * 128 + 1 * b.val = b.val; omega
  have ha6 : ∀ (a b : Fin 128), iblk4 V c 6 t (ix2 a b) = V c main_v75 (ix2 a b) := by
    intro a b
    show V c main_v75 (((cfg4.win 6).blk t).view.emb (ix2 a b)) = _
    refine congrArg (V c main_v75) (funext fun ax => Fin.ext ?_)
    match ax with
    | ⟨0, _⟩ => show win4_6.index t (0 : Fin 2) * 128 + 1 * a.val = a.val; omega
    | ⟨1, _⟩ => show win4_6.index t (1 : Fin 2) * 128 + 1 * b.val = b.val; omega
  have ha7 : ∀ (b : Fin 128), iblk4 V c 7 t (ix2 (0 : Fin 1) b) = V c main_v79 (ix2 (0 : Fin 1) b) := by
    intro b
    show V c main_v79 (((cfg4.win 7).blk t).view.emb (ix2 (0 : Fin 1) b)) = _
    refine congrArg (V c main_v79) (funext fun ax => Fin.ext ?_)
    match ax with
    | ⟨0, _⟩ => show win4_7.index t (0 : Fin 2) * 1 + 1 * 0 = 0; omega
    | ⟨1, _⟩ => show win4_7.index t (1 : Fin 2) * 128 + 1 * b.val = b.val; omega
  have hb : View.read (Elt Ideal) ((cfg4.win 8).blk t).view (layerArr (V c main_v65) (V c main_arg1) (V c main_v67) (V c main_v69) (V c main_v78) (V c main_v73) (V c main_v75) (V c main_v79)) (ix2 p q)
      = (layerArr (V c main_v65) (V c main_arg1) (V c main_v67) (V c main_v69) (V c main_v78) (V c main_v73) (V c main_v75) (V c main_v79)) (ix2 (⟨t.val * 2000 + p.val, hr⟩ : Fin 100000) q) := by
    show (layerArr (V c main_v65) (V c main_arg1) (V c main_v67) (V c main_v69) (V c main_v78) (V c main_v73) (V c main_v75) (V c main_v79)) (((cfg4.win 8).blk t).view.emb (ix2 p q)) = _
    refine congrArg (layerArr (V c main_v65) (V c main_arg1) (V c main_v67) (V c main_v69) (V c main_v78) (V c main_v73) (V c main_v75) (V c main_v79)) (funext fun a => Fin.ext ?_)
    match a with
    | ⟨0, _⟩ => show win4_8.index t (0 : Fin 2) * 2000 + 1 * p.val = t.val * 2000 + p.val; omega
    | ⟨1, _⟩ => show win4_8.index t (1 : Fin 2) * 128 + 1 * q.val = q.val; omega
  rw [hb]
  simp only [ha0, ha1, ha2, ha3, ha4, ha5, ha6, ha7]
  rfl

/-- An index of the output array is in point `t`'s block iff each coordinate is in the block's range on its axis. -/
theorem mem_blk4 (t : Fin cfg4.N) (i : S100000x128.Idx) :
    i ∈ ((cfg4.win 8).blk t).view.set ↔ ∀ a : Fin 2, win4_8.index t a * S2000x128.size a ≤ (i a).val ∧ (i a).val < win4_8.index t a * S2000x128.size a + S2000x128.size a := by
  show i ∈ ((View.whole main_v80).slice (win4_8.rect t)).set ↔ _
  rw [View.set_slice_whole, Rect.mem_set_unit]
  exact Iff.rfl

/-- Row `r` lies in the block of point `r / 2000`. -/
theorem cover4 (i : S100000x128.Idx) : ∃ t : Fin cfg4.N, (cfg4.win 8).flush t = true ∧ i ∈ ((cfg4.win 8).blk t).view.set := by
  have hi0 : (i 0).val < 100000 := (i 0).isLt
  have hi1 : (i 1).val < 128 := (i 1).isLt
  have hN : (i 0).val / 2000 < cfg4.N := lt_of_lt_of_eq (by omega : (i 0).val / 2000 < 50) N_4.symm
  refine ⟨⟨(i 0).val / 2000, hN⟩, flush4_8 _, ?_⟩
  rw [mem_blk4]
  obtain ⟨e0, e1, e2, e3, e4, e5, e6, e7, e8, e9, e10, e11, e12, e13, e14, e15, e16, e17⟩ := idx4 ⟨(i 0).val / 2000, hN⟩
  intro a
  match a with
  | ⟨0, _⟩ =>
    show win4_8.index ⟨(i 0).val / 2000, hN⟩ (0 : Fin 2) * 2000 ≤ (i 0).val ∧ (i 0).val < win4_8.index ⟨(i 0).val / 2000, hN⟩ (0 : Fin 2) * 2000 + 2000
    rw [e16]; show (i 0).val / 2000 * 2000 ≤ (i 0).val ∧ (i 0).val < (i 0).val / 2000 * 2000 + 2000; omega
  | ⟨1, _⟩ =>
    show win4_8.index ⟨(i 0).val / 2000, hN⟩ (1 : Fin 2) * 128 ≤ (i 1).val ∧ (i 1).val < win4_8.index ⟨(i 0).val / 2000, hN⟩ (1 : Fin 2) * 128 + 128
    rw [e17]; omega

/-- The output array of the launch after its run: the round applied to every node. -/
theorem arr4 (c : Dev nD)
    (hpay : ∀ (x0 x1 : Vec Ideal S2000x128 .f32) (x2 x3 : Vec Ideal S128x128 .f32) (x4 : Vec Ideal S1x128 .f32) (x5 x6 : Vec Ideal S128x128 .f32) (x7 : Vec Ideal S1x128 .f32) (p : Fin 2000) (q : Fin 128),
      Gen.out4_8 (F := Ideal) x0 x1 x2 x3 x4 x5 x6 x7 (ix2 p q)
        = layerRow (fun m => x0 (ix2 p m)) (fun m => x1 (ix2 p m)) (fun a b => x2 (ix2 a b)) (fun a b => x3 (ix2 a b)) (fun l => x4 (ix2 (0 : Fin 1) l))
            (fun a b => x5 (ix2 a b)) (fun a b => x6 (ix2 a b)) (fun l => x7 (ix2 (0 : Fin 1) l)) q) :
    (dat4 (F := Ideal) V c).arrAt 8 cfg4.N = layerArr (V c main_v65) (V c main_arg1) (V c main_v67) (V c main_v69) (V c main_v78) (V c main_v73) (V c main_v75) (V c main_v79) :=
  (dat4 (F := Ideal) V c).arrAt_eq_of_cover 8 (layerArr (V c main_v65) (V c main_arg1) (V c main_v67) (V c main_v69) (V c main_v78) (V c main_v73) (V c main_v75) (V c main_v79)) (fun t _ => flushed4 V c hpay t) cover4

end Cert.Gcn.Arr

end
-- ==== Proof.ConcatRows.lean ====
/-
  The normalised node table as the kernel program builds it: the normalised user rows stacked on the normalised item rows.

  Stacking two `50000 × 128` arrays along the rows gives, at row `r`, row `r` of the first for `r < 50000` and row
  `r - 50000` of the second otherwise: exactly the case split in the specification's table.
-/
import proofs.«124699_j23029614641915_1_alg».proof.Proof.KernelTerm
import Idealize.ShloMosaic.Lib.Pipeline.Value

noncomputable section

namespace Cert.Gcn

open Idealize.ShloMosaic Idealize.ShloMosaic.ValueIdx

/-- The stack of the normalised user rows on the normalised item rows is the specification's node table, the bias given
    as a single row whose entries are the bias vector's. -/
theorem concat_rows_eq_x0
    (h : Shape.Concatenates [(⟨2, ![50000, 128]⟩ : Shape), ⟨2, ![50000, 128]⟩] ⟨2, ![100000, 128]⟩ 0)
    (a0 : FVec Ideal ⟨2, ![50000, 256]⟩ .f32) (a4 : FVec Ideal ⟨2, ![50000, 128]⟩ .f32)
    (a5 : FVec Ideal ⟨2, ![256, 128]⟩ .f32) (a6 : FVec Ideal ⟨1, ![128]⟩ .f32) (b : FVec Ideal ⟨2, ![1, 128]⟩ .f32)
    (hb : ∀ l : Fin 128, b (ix2 (0 : Fin 1) l) = a6 (ix1 l)) :
    concatenate ⟨2, ![100000, 128]⟩ 0 [⟨⟨2, ![50000, 128]⟩, normArr a4⟩, ⟨⟨2, ![50000, 128]⟩, normLinArr a0 a5 b⟩] h
      = x0 a0 a4 a5 a6 := by
  funext i
  obtain ⟨r, j, rfl⟩ : ∃ (r : Fin 100000) (j : Fin 128), i = ix2 r j := ⟨i 0, i 1, eq_ix2 i⟩
  show _ = x0At a0 a4 a5 a6 r j
  unfold x0At
  by_cases hr : r.val < 50000
  · rw [dif_pos hr]
    have hiL : ∀ (b : Fin (⟨2, ![50000, 128]⟩ : Shape).rank),
        ((ix2 (⟨r.val, hr⟩ : Fin 50000) j : (⟨2, ![50000, 128]⟩ : Shape).Idx) b).val
          = ((ix2 r j : (⟨2, ![100000, 128]⟩ : Shape).Idx) (b.cast (rfl : (2 : ℕ) = 2))).val := by
      intro b
      match b with
      | ⟨0, _⟩ => rfl
      | ⟨1, _⟩ => rfl
    exact (concatenate_pair_apply_left 0 _ _ h (ix2 r j) rfl (ix2 (⟨r.val, hr⟩ : Fin 50000) j) hiL).trans rfl
  · rw [dif_neg hr]
    have hr' : r.val - 50000 < 50000 := by have := r.isLt; omega
    obtain ⟨s, hs⟩ : ∃ s : Fin 50000, s = (⟨r.val - 50000, hr'⟩ : Fin 50000) := ⟨_, rfl⟩
    have hsv : s.val + 50000 = r.val := by rw [hs]; show r.val - 50000 + 50000 = r.val; omega
    rw [← hs]
    have hiR : ∀ (b : Fin (⟨2, ![50000, 128]⟩ : Shape).rank), b.cast (rfl : (2 : ℕ) = 2) ≠ (0 : Fin 2) →
        ((ix2 s j : (⟨2, ![50000, 128]⟩ : Shape).Idx) b).val
          = ((ix2 r j : (⟨2, ![100000, 128]⟩ : Shape).Idx) (b.cast rfl)).val := by
      intro b hb
      match b with
      | ⟨0, _⟩ => exact absurd rfl hb
      | ⟨1, _⟩ => rfl
    refine (concatenate_pair_apply_right 0 _ _ h (ix2 r j) rfl rfl (ix2 s j) hiR hsv).trans ?_
    show rowNorm (linRow (fun k => a0 (ix2 s k)) (fun a c => a5 (ix2 a c)) (fun c => b (ix2 (0 : Fin 1) c))) j = _
    simp only [hb]

end Cert.Gcn

end
-- ==== Proof.LayerArr.lean ====
/-
  A round given its weights as matrices and bias rows is the specification's round `i` when those matrices and rows are the
  `i`-th members of the stacked weight arrays (the last matrix in its upper and lower halves).
-/
import proofs.«124699_j23029614641915_1_alg».proof.Proof.KernelTerm

noncomputable section

namespace Cert.Gcn

open Idealize.ShloMosaic Idealize.ShloMosaic.ValueIdx

/-- With the matrices and rows read as members of the stacks, the round on every node is the specification's round `i`. -/
theorem layerArr_eq_layer (i : Fin 3) (G E : FVec Ideal ⟨2, ![100000, 128]⟩ .f32)
    (ws dw : FVec Ideal ⟨2, ![128, 128]⟩ .f32) (db : FVec Ideal ⟨2, ![1, 128]⟩ .f32)
    (owh owu : FVec Ideal ⟨2, ![128, 128]⟩ .f32) (ob : FVec Ideal ⟨2, ![1, 128]⟩ .f32)
    (a7 a8 : FVec Ideal ⟨3, ![3, 128, 128]⟩ .f32) (a9 : FVec Ideal ⟨2, ![3, 128]⟩ .f32)
    (a10 : FVec Ideal ⟨3, ![3, 256, 128]⟩ .f32) (a11 : FVec Ideal ⟨2, ![3, 128]⟩ .f32)
    (h7 : ∀ a b : Fin 128, ws (ix2 a b) = a7 (ix3 i a b)) (h8 : ∀ a b : Fin 128, dw (ix2 a b) = a8 (ix3 i a b))
    (h9 : ∀ l : Fin 128, db (ix2 (0 : Fin 1) l) = a9 (ix2 i l))
    (h10l : ∀ a b : Fin 128, owh (ix2 a b) = a10 (ix3 i (lo a) b)) (h10h : ∀ a b : Fin 128, owu (ix2 a b) = a10 (ix3 i (hi a) b))
    (h11 : ∀ l : Fin 128, ob (ix2 (0 : Fin 1) l) = a11 (ix2 i l)) :
    layerArr G E ws dw db owh owu ob = layer i G E a7 a8 a9 a10 a11 := by
  funext idx
  unfold layerArr layer layerAt
  simp only [h7, h8, h9, h10l, h10h, h11]

end Cert.Gcn

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.PayNorm.lean ====
/-
  The two normalising kernel bodies read at an index, over the extended reals.

  The first body forms the affine image `feat · W + b` of a block of 2000 feature rows of width 256 (the product from a
  zero accumulator, the row `b` repeated over the 2000 rows) and divides each row by the larger of its Euclidean norm and
  a small constant; the second body does the same division on the block it is given. Read at row `p`, column `q`, each
  is `rowNorm` of the row: the lane sum of the squares is the sum over the row, the column of norms broadcast along the
  row reads the norm of row `p`, and narrowing to the shorter float format is the identity on the extended reals.
-/
import proofs.«124699_j23029614641915_1_alg».proof.Proof.Gen.KernelIdeal.Frame
import proofs.«124699_j23029614641915_1_alg».proof.Proof.Spec
import proofs.«124699_j23029614641915_1_alg».proof.Proof.LibColumn
import proofs.«124699_j23029614641915_1_alg».proof.Proof.LibPlainProduct

noncomputable section

namespace Cert.Gcn.Pay

open Cert.KernelIdeal Cert.KernelIdeal.Gen Idealize.ShloMosaic Idealize.ShloMosaic.ValueIdx Cert.Gcn

/-- The offsets of a whole-buffer access are zero on both axes. -/
private theorem zeros2 : (![0, 0] : Fin 2 → Nat) = fun _ => 0 := funext fun a => by fin_cases a <;> rfl

/-- A block divided, row by row, by the larger of the row's Euclidean norm and the floor: at `(p, q)` it is `rowNorm` of
    row `p` at `q`. -/
theorem norm_apply (y : FVec Ideal S2000x128 .f32) (p : Fin 2000) (q : Fin 128) :
    divf y (broadcastTo S2000x128
      (maximumf (sqrt (shapeCast S2000x1
          (multiReduction (F := Ideal) .add [1] S2000 (mulf y y) 0x00000000#32 reduces_S2000x128_S2000 (.inl rfl) rfl)
          shapeCasts_S2000_S2000x1))
        (broadcast S2000x1 (Scalar.ofBits (F := Ideal) .f32 0x2B8CBCCC#32)))
      broadcasts_S2000x1_S2000x128) (ix2 p q) = rowNorm (fun k => y (ix2 p k)) q := by
  rw [divf_apply, ColumnIdx.broadcastTo_a1_ab_apply, maximumf_apply, broadcast_apply]
  show Ideal.div (y (ix2 p q)) (max (Ideal.sqrt (shapeCast S2000x1 _ shapeCasts_S2000_S2000x1 (ix2 p (0 : Fin 1)))) eps) = _
  rw [ColumnIdx.shapeCast_a_a1_apply]
  exact congrArg (fun s => Ideal.div (y (ix2 p q)) (max (Ideal.sqrt s) eps))
    (ColumnIdx.rowSum_apply (mulf y y) reduces_S2000x128_S2000 (.inl rfl) rfl p)

/-- The second body's block at `(p, q)`: the normalised row `p` of its input block. -/
theorem out1_1_apply (x0 : Vec Ideal S2000x128 .f32) (p : Fin 2000) (q : Fin 128) :
    Gen.out1_1 (F := Ideal) x0 (ix2 p q) = rowNorm (fun k => x0 (ix2 p k)) q := by
  unfold Gen.out1_1
  rw [View.canon_unit_zero zeros2]
  simp only [View.ld_unit_zero (S := S2000x128) zeros2]
  exact norm_apply x0 p q

/-- The affine image of a block of feature rows at `(p, q)`: the sum over the 256 features plus the bias at `q`. -/
theorem lin_apply (x0 : Vec Ideal S2000x256 .f32) (x1 : Vec Ideal S256x128 .f32) (x2 : Vec Ideal S1x128 .f32) (p : Fin 2000) (q : Fin 128) :
    addf (matmul dot_S2000x256_S256x128_S2000x128_1_0_0_1_n_n none (truncf .bf16 x0 bitsLt_bf16_f32) (truncf .bf16 x1 bitsLt_bf16_f32)
        (constant (F := Ideal) S2000x128 .f32 0x00000000#32))
      (broadcastTo S2000x128 (shapeCast S1x128 x2 shapeCasts_S1x128_S1x128) broadcasts_S1x128_S2000x128) (ix2 p q)
    = linRow (fun k => x0 (ix2 p k)) (fun a b => x1 (ix2 a b)) (fun b => x2 (ix2 (0 : Fin 1) b)) q := by
  rw [addf_apply, PlainProduct.matmul_at dot_S2000x256_S256x128_S2000x128_1_0_0_1_n_n rfl, constant_apply, Ideal.ofBits_zero_f32, zero_add,
    broadcastTo_1b_ab_apply, shapeCast_self]
  rfl

/-- The first body's block at `(p, q)`: the normalised affine image of feature row `p`. -/
theorem out0_3_apply (x0 : Vec Ideal S2000x256 .f32) (x1 : Vec Ideal S256x128 .f32) (x2 : Vec Ideal S1x128 .f32) (p : Fin 2000) (q : Fin 128) :
    Gen.out0_3 (F := Ideal) x0 x1 x2 (ix2 p q)
      = rowNorm (linRow (fun k => x0 (ix2 p k)) (fun a b => x1 (ix2 a b)) (fun b => x2 (ix2 (0 : Fin 1) b))) q := by
  unfold Gen.out0_3
  rw [View.canon_unit_zero zeros2]
  simp only [View.ld_unit_zero (S := S2000x256) zeros2, View.ld_unit_zero (S := S256x128) zeros2, View.ld_unit_zero (S := S1x128) zeros2]
  unfold Gen.k0_pay1
  refine (norm_apply _ p q).trans ?_
  exact congrArg (fun r => rowNorm r q) (funext fun k => lin_apply x0 x1 x2 p k)

end Cert.Gcn.Pay

end
-- ==== Proof.PayLayer.lean ====
/-
  The three layer bodies read at an index, over the extended reals.

  The three rounds run the same body on a block of 2000 rows: from the aggregated block `agg` and the embedding block
  `emb`,
      h = φ (agg · ws),   u = φ (h · dw + db + emb),   out = φ (h · owh + u · owu + ob),
  every product from a zero accumulator, the rows `db` and `ob` repeated over the 2000 rows, and `φ x` spelled as a choice
  between `x` and `slope · x` on the test `x > 0`. The body is written once below as a term (`outB`); each round's printed
  body unfolds to it. Read at row `p`, column `q` it is `layerRow` of row `p`: each product is the sum over the contracted
  index, the test `x > 0` decides `leaky`, and narrowing to the shorter float format is the identity on the extended reals.
-/
import proofs.«124699_j23029614641915_1_alg».proof.Proof.Gen.KernelIdeal.Frame
import proofs.«124699_j23029614641915_1_alg».proof.Proof.Spec
import proofs.«124699_j23029614641915_1_alg».proof.Proof.LibPlainProduct
import Idealize.ShloMosaic.Lib.ValueLayout

noncomputable section

namespace Cert.Gcn.Pay

open Cert.KernelIdeal Cert.KernelIdeal.Gen Idealize.ShloMosaic Idealize.ShloMosaic.ValueIdx Cert.Gcn

/-- The activation spelled with a comparison against a broadcast zero and a product by a broadcast slope. -/
def act (x : FVec Ideal S2000x128 .f32) : FVec Ideal S2000x128 .f32 :=
  select (cmpf .ogt x (broadcast S2000x128 (Scalar.ofBits (F := Ideal) .f32 0x00000000#32))) x
    (mulf (broadcast S2000x128 (Scalar.ofBits (F := Ideal) .f32 0x3C23D70A#32)) x)

/-- A block of rows times a square matrix, from a zero accumulator. -/
def mm (A : FVec Ideal S2000x128 .bf16) (B : Vec Ideal S128x128 .f32) : FVec Ideal S2000x128 .f32 :=
  matmul dot_S2000x128_S128x128_S2000x128_1_0_0_1_n_n none A
    (truncf .bf16 (shapeCast S128x128 B shapeCasts_S128x128_S128x128) bitsLt_bf16_f32)
    (constant (F := Ideal) S2000x128 .f32 0x00000000#32)

/-- One row [1,128] repeated over the 2000 rows. -/
def rowB (b : Vec Ideal S1x128 .f32) : FVec Ideal S2000x128 .f32 :=
  broadcastTo S2000x128 (shapeCast S1x128 b shapeCasts_S1x128_S1x128) broadcasts_S1x128_S2000x128

/-- h = φ (agg · ws). -/
def hidB (agg : Vec Ideal S2000x128 .f32) (ws : Vec Ideal S128x128 .f32) : FVec Ideal S2000x128 .bf16 :=
  truncf .bf16 (act (mm (truncf .bf16 (shapeCast S2000x128 agg shapeCasts_S2000x128_S2000x128) bitsLt_bf16_f32) ws)) bitsLt_bf16_f32

/-- u = φ (h · dw + db + emb). -/
def updB (agg emb : Vec Ideal S2000x128 .f32) (ws dw : Vec Ideal S128x128 .f32) (db : Vec Ideal S1x128 .f32) :
    FVec Ideal S2000x128 .bf16 :=
  truncf .bf16 (act (addf (addf (mm (hidB agg ws) dw) (rowB db)) emb)) bitsLt_bf16_f32

/-- out = φ (h · owh + u · owu + ob). -/
def outB (agg emb : Vec Ideal S2000x128 .f32) (ws dw : Vec Ideal S128x128 .f32) (db : Vec Ideal S1x128 .f32)
    (owh owu : Vec Ideal S128x128 .f32) (ob : Vec Ideal S1x128 .f32) : FVec Ideal S2000x128 .f32 :=
  act (addf (addf (mm (hidB agg ws) owh) (mm (updB agg emb ws dw db) owu)) (rowB ob))

theorem act_apply (x : FVec Ideal S2000x128 .f32) (i : S2000x128.Idx) : act x i = leaky (x i) := by
  unfold act
  rw [select_apply, cmpf_apply, broadcast_apply, mulf_apply, broadcast_apply]
  show Scalar.select (Ideal.cmp .ogt (x i) (Ideal.ofBits .f32 0x00000000#32)) (x i) (slope * x i) = _
  rw [Ideal.ofBits_zero_f32]
  unfold leaky
  by_cases h : 0 < x i
  · rw [if_pos h]
    show Scalar.select (BitVec.ofBool (decide (0 < x i))) _ _ = _
    rw [decide_eq_true h]
    exact select_one _ _
  · rw [if_neg h]
    show Scalar.select (BitVec.ofBool (decide (0 < x i))) _ _ = _
    rw [decide_eq_false h]
    exact select_zero _ _

theorem mm_apply (A : FVec Ideal S2000x128 .bf16) (B : Vec Ideal S128x128 .f32) (p : Fin 2000) (q : Fin 128) :
    mm A B (ix2 p q) = ∑ c : Fin 128, A (ix2 p c) * B (ix2 c q) := by
  unfold mm
  rw [PlainProduct.matmul_at dot_S2000x128_S128x128_S2000x128_1_0_0_1_n_n rfl, constant_apply, Ideal.ofBits_zero_f32, zero_add,
    shapeCast_self]
  rfl

theorem rowB_apply (b : Vec Ideal S1x128 .f32) (p : Fin 2000) (q : Fin 128) : rowB b (ix2 p q) = b (ix2 (0 : Fin 1) q) := by
  unfold rowB
  rw [broadcastTo_1b_ab_apply, shapeCast_self]

theorem hidB_apply (agg : Vec Ideal S2000x128 .f32) (ws : Vec Ideal S128x128 .f32) (p : Fin 2000) (l : Fin 128) :
    hidB agg ws (ix2 p l) = hidRow (fun m => agg (ix2 p m)) (fun a b => ws (ix2 a b)) l := by
  unfold hidB
  rw [truncf_apply, act_apply, mm_apply, shapeCast_self]
  rfl

theorem updB_apply (agg emb : Vec Ideal S2000x128 .f32) (ws dw : Vec Ideal S128x128 .f32) (db : Vec Ideal S1x128 .f32)
    (p : Fin 2000) (l : Fin 128) :
    updB agg emb ws dw db (ix2 p l)
      = updRow (hidRow (fun m => agg (ix2 p m)) (fun a b => ws (ix2 a b))) (fun m => emb (ix2 p m)) (fun a b => dw (ix2 a b))
          (fun l => db (ix2 (0 : Fin 1) l)) l := by
  unfold updB
  rw [truncf_apply, act_apply, addf_apply, addf_apply, mm_apply, rowB_apply]
  simp only [hidB_apply]
  rfl

theorem outB_apply (agg emb : Vec Ideal S2000x128 .f32) (ws dw : Vec Ideal S128x128 .f32) (db : Vec Ideal S1x128 .f32)
    (owh owu : Vec Ideal S128x128 .f32) (ob : Vec Ideal S1x128 .f32) (p : Fin 2000) (q : Fin 128) :
    outB agg emb ws dw db owh owu ob (ix2 p q)
      = layerRow (fun m => agg (ix2 p m)) (fun m => emb (ix2 p m)) (fun a b => ws (ix2 a b)) (fun a b => dw (ix2 a b))
          (fun l => db (ix2 (0 : Fin 1) l)) (fun a b => owh (ix2 a b)) (fun a b => owu (ix2 a b)) (fun l => ob (ix2 (0 : Fin 1) l)) q := by
  unfold outB
  rw [act_apply, addf_apply, addf_apply, mm_apply, mm_apply, rowB_apply]
  simp only [hidB_apply, updB_apply]
  rfl

/-- The offsets of a whole-buffer access are zero on both axes. -/
private theorem zeros2 : (![0, 0] : Fin 2 → Nat) = fun _ => 0 := funext fun a => by fin_cases a <;> rfl

/-- The block the first round's body leaves, at `(p, q)`: `layerRow` of row `p` of its aggregated block and of its embedding
    block, with the round's weights. -/
theorem out2_8_apply (x0 x1 : Vec Ideal S2000x128 .f32) (x2 x3 : Vec Ideal S128x128 .f32) (x4 : Vec Ideal S1x128 .f32)
    (x5 x6 : Vec Ideal S128x128 .f32) (x7 : Vec Ideal S1x128 .f32) (p : Fin 2000) (q : Fin 128) :
    Gen.out2_8 (F := Ideal) x0 x1 x2 x3 x4 x5 x6 x7 (ix2 p q)
      = layerRow (fun m => x0 (ix2 p m)) (fun m => x1 (ix2 p m)) (fun a b => x2 (ix2 a b)) (fun a b => x3 (ix2 a b))
          (fun l => x4 (ix2 (0 : Fin 1) l)) (fun a b => x5 (ix2 a b)) (fun a b => x6 (ix2 a b)) (fun l => x7 (ix2 (0 : Fin 1) l)) q := by
  unfold Gen.out2_8
  rw [View.canon_unit_zero zeros2]
  simp only [View.ld_unit_zero (S := S2000x128) zeros2, View.ld_unit_zero (S := S128x128) zeros2, View.ld_unit_zero (S := S1x128) zeros2]
  exact outB_apply x0 x1 x2 x3 x4 x5 x6 x7 p q

/-- The block the second round's body leaves, at `(p, q)`: `layerRow` of row `p` of its aggregated block and of its embedding
    block, with the round's weights. -/
theorem out3_8_apply (x0 x1 : Vec Ideal S2000x128 .f32) (x2 x3 : Vec Ideal S128x128 .f32) (x4 : Vec Ideal S1x128 .f32)
    (x5 x6 : Vec Ideal S128x128 .f32) (x7 : Vec Ideal S1x128 .f32) (p : Fin 2000) (q : Fin 128) :
    Gen.out3_8 (F := Ideal) x0 x1 x2 x3 x4 x5 x6 x7 (ix2 p q)
      = layerRow (fun m => x0 (ix2 p m)) (fun m => x1 (ix2 p m)) (fun a b => x2 (ix2 a b)) (fun a b => x3 (ix2 a b))
          (fun l => x4 (ix2 (0 : Fin 1) l)) (fun a b => x5 (ix2 a b)) (fun a b => x6 (ix2 a b)) (fun l => x7 (ix2 (0 : Fin 1) l)) q := by
  unfold Gen.out3_8
  rw [View.canon_unit_zero zeros2]
  simp only [View.ld_unit_zero (S := S2000x128) zeros2, View.ld_unit_zero (S := S128x128) zeros2, View.ld_unit_zero (S := S1x128) zeros2]
  exact outB_apply x0 x1 x2 x3 x4 x5 x6 x7 p q

/-- The block the third round's body leaves, at `(p, q)`: `layerRow` of row `p` of its aggregated block and of its embedding
    block, with the round's weights. -/
theorem out4_8_apply (x0 x1 : Vec Ideal S2000x128 .f32) (x2 x3 : Vec Ideal S128x128 .f32) (x4 : Vec Ideal S1x128 .f32)
    (x5 x6 : Vec Ideal S128x128 .f32) (x7 : Vec Ideal S1x128 .f32) (p : Fin 2000) (q : Fin 128) :
    Gen.out4_8 (F := Ideal) x0 x1 x2 x3 x4 x5 x6 x7 (ix2 p q)
      = layerRow (fun m => x0 (ix2 p m)) (fun m => x1 (ix2 p m)) (fun a b => x2 (ix2 a b)) (fun a b => x3 (ix2 a b))
          (fun l => x4 (ix2 (0 : Fin 1) l)) (fun a b => x5 (ix2 a b)) (fun a b => x6 (ix2 a b)) (fun l => x7 (ix2 (0 : Fin 1) l)) q := by
  unfold Gen.out4_8
  rw [View.canon_unit_zero zeros2]
  simp only [View.ld_unit_zero (S := S2000x128) zeros2, View.ld_unit_zero (S := S128x128) zeros2, View.ld_unit_zero (S := S1x128) zeros2]
  exact outB_apply x0 x1 x2 x3 x4 x5 x6 x7 p q

end Cert.Gcn.Pay

end
-- ==== Proof.ChainValue.lean ====
/-
  The kernel program's result array as a function of the argument arrays.

  Boundary by boundary: the first two launches leave the normalised item rows and the normalised user rows; the host
  stacks them into the node table and aggregates it along the edges; each of the three layer launches reads the aggregated
  array, the embedding table and the round's weights — which the host cut out of the stacked weight arrays, the last
  matrix as its upper and its lower 128 rows — and leaves the round's result, which the host aggregates again. So the
  last launch's output is the specification's three rounds over the normalised table.
-/
import proofs.«124699_j23029614641915_1_alg».proof.Proof.ChainKept
import proofs.«124699_j23029614641915_1_alg».proof.Proof.Arr0
import proofs.«124699_j23029614641915_1_alg».proof.Proof.Arr1
import proofs.«124699_j23029614641915_1_alg».proof.Proof.Arr2
import proofs.«124699_j23029614641915_1_alg».proof.Proof.Arr3
import proofs.«124699_j23029614641915_1_alg».proof.Proof.Arr4
import proofs.«124699_j23029614641915_1_alg».proof.Proof.ConcatRows
import proofs.«124699_j23029614641915_1_alg».proof.Proof.LayerArr
import proofs.«124699_j23029614641915_1_alg».proof.Proof.PayNorm
import proofs.«124699_j23029614641915_1_alg».proof.Proof.PayLayer

set_option maxRecDepth 16384
-- a buffer's type is found by a match on its index in the signature: late buffers cost more steps
set_option maxHeartbeats 4000000

noncomputable section

namespace Cert.Gcn.Chain

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

/-! ## The normalised node table -/

/-- The bias row the first launch reads is the bias vector. -/
theorem v0_at (l : Fin 128) : W1 m ρ c (Proc.devRef .tc main_v0) (ix2 (0 : Fin 1) l) = (m ((c : Thread nD τ).loc main_arg6)) (ix1 l) :=
  (HostK.h0_v0 (W0 m ρ c) l).trans (congrFun (kept0 m ρ c).a6 (ix1 l))

/-- The first launch leaves the normalised item rows. -/
theorem v1_eq : W2 m ρ c (Proc.devRef .tc main_v1) = normLinArr (m ((c : Thread nD τ).loc main_arg0)) (m ((c : Thread nD τ).loc main_arg5)) (W1 m ρ c (Proc.devRef .tc main_v0)) := by
  refine (W2_arr m ρ c 3).trans ((Arr.arr0 (V1 m ρ) c Pay.out0_3_apply).trans ?_)
  show normLinArr (W1 m ρ c (Proc.devRef .tc main_arg0)) (W1 m ρ c (Proc.devRef .tc main_arg5)) (W1 m ρ c (Proc.devRef .tc main_v0)) = _
  rw [(kept1 m ρ c).a0, (kept1 m ρ c).a5]

/-- The second launch leaves the normalised user rows, and keeps the first launch's output. -/
theorem v2_eq : W3 m ρ c (Proc.devRef .tc main_v2) = normArr (m ((c : Thread nD τ).loc main_arg4)) := by
  refine (W3_arr m ρ c 1).trans ((Arr.arr1 (V2 m ρ) c Pay.out1_1_apply).trans ?_)
  show normArr (W2 m ρ c (Proc.devRef .tc main_arg4)) = _
  rw [(kept2 m ρ c).a4]
theorem v1_kept : W3 m ρ c (Proc.devRef .tc main_v1) = W2 m ρ c (Proc.devRef .tc main_v1) :=
  W3_of_ne m ρ c main_v1 (by decide)

/-- The host stacks the two and aggregates: the first round's input. -/
theorem v15_eq : W4 m ρ c (Proc.devRef .tc main_v15) = HostK.aggK (m ((c : Thread nD τ).loc main_arg2)) (m ((c : Thread nD τ).loc main_arg3)) (x0 (m ((c : Thread nD τ).loc main_arg0)) (m ((c : Thread nD τ).loc main_arg4)) (m ((c : Thread nD τ).loc main_arg5)) (m ((c : Thread nD τ).loc main_arg6))) := by
  refine (HostK.h2_v15 (W3 m ρ c)).trans ?_
  rw [(kept3 m ρ c).a2, (kept3 m ρ c).a3, v2_eq m ρ c, v1_kept m ρ c, v1_eq m ρ c]
  exact congrArg (HostK.aggK (m ((c : Thread nD τ).loc main_arg2)) (m ((c : Thread nD τ).loc main_arg3))) (concat_rows_eq_x0 _ _ _ _ _ _ (v0_at m ρ c))

/-- The upper and lower halves of the last weight array, as the host cut them once. -/
theorem v4_at (g : Fin 3) (a b : Fin 128) : W4 m ρ c (Proc.devRef .tc main_v4) (ix3 g a b) = (m ((c : Thread nD τ).loc main_arg10)) (ix3 g (lo a) b) :=
  (HostK.h2_v4 (W3 m ρ c) g a b).trans (congrFun (kept3 m ρ c).a10 _)
theorem v5_at (g : Fin 3) (a b : Fin 128) : W4 m ρ c (Proc.devRef .tc main_v5) (ix3 g a b) = (m ((c : Thread nD τ).loc main_arg10)) (ix3 g (hi a) b) :=
  (HostK.h2_v5 (W3 m ρ c) g a b).trans (congrFun (kept3 m ρ c).a10 _)
theorem v4_W5 : W5 m ρ c (Proc.devRef .tc main_v4) = W4 m ρ c (Proc.devRef .tc main_v4) := W5_of_ne m ρ c main_v4 (by decide)
theorem v5_W5 : W5 m ρ c (Proc.devRef .tc main_v5) = W4 m ρ c (Proc.devRef .tc main_v5) := W5_of_ne m ρ c main_v5 (by decide)
theorem v4_W6 : W6 m ρ c (Proc.devRef .tc main_v4) = W4 m ρ c (Proc.devRef .tc main_v4) := (HostK.h3_v4 (W5 m ρ c)).trans (v4_W5 m ρ c)
theorem v5_W6 : W6 m ρ c (Proc.devRef .tc main_v5) = W4 m ρ c (Proc.devRef .tc main_v5) := (HostK.h3_v5 (W5 m ρ c)).trans (v5_W5 m ρ c)
theorem v4_W7 : W7 m ρ c (Proc.devRef .tc main_v4) = W4 m ρ c (Proc.devRef .tc main_v4) := (W7_of_ne m ρ c main_v4 (by decide)).trans (v4_W6 m ρ c)
theorem v5_W7 : W7 m ρ c (Proc.devRef .tc main_v5) = W4 m ρ c (Proc.devRef .tc main_v5) := (W7_of_ne m ρ c main_v5 (by decide)).trans (v5_W6 m ρ c)

/-! ## The three rounds -/

/-- Round 1's weights as the host cut them: member 0 of each stacked array. -/
theorem ws0_at (a b : Fin 128) : W4 m ρ c (Proc.devRef .tc main_v17) (ix2 a b) = (m ((c : Thread nD τ).loc main_arg7)) (ix3 (0 : Fin 3) a b) :=
  (HostK.h2_v17 (W3 m ρ c) a b).trans (congrFun (kept3 m ρ c).a7 _)
theorem dw0_at (a b : Fin 128) : W4 m ρ c (Proc.devRef .tc main_v19) (ix2 a b) = (m ((c : Thread nD τ).loc main_arg8)) (ix3 (0 : Fin 3) a b) :=
  (HostK.h2_v19 (W3 m ρ c) a b).trans (congrFun (kept3 m ρ c).a8 _)
theorem db0_at (l : Fin 128) : W4 m ρ c (Proc.devRef .tc main_v28) (ix2 (0 : Fin 1) l) = (m ((c : Thread nD τ).loc main_arg9)) (ix2 (0 : Fin 3) l) :=
  (HostK.h2_v28 (W3 m ρ c) l).trans (congrFun (kept3 m ρ c).a9 _)
theorem ob0_at (l : Fin 128) : W4 m ρ c (Proc.devRef .tc main_v29) (ix2 (0 : Fin 1) l) = (m ((c : Thread nD τ).loc main_arg11)) (ix2 (0 : Fin 3) l) :=
  (HostK.h2_v29 (W3 m ρ c) l).trans (congrFun (kept3 m ρ c).a11 _)
theorem owh0_at (a b : Fin 128) : W4 m ρ c (Proc.devRef .tc main_v23) (ix2 a b) = (m ((c : Thread nD τ).loc main_arg10)) (ix3 (0 : Fin 3) (lo a) b) :=
  (HostK.h2_v23 (W3 m ρ c) a b).trans (congrFun (kept3 m ρ c).a10 _)
theorem owu0_at (a b : Fin 128) : W4 m ρ c (Proc.devRef .tc main_v25) (ix2 a b) = (m ((c : Thread nD τ).loc main_arg10)) (ix3 (0 : Fin 3) (hi a) b) :=
  (HostK.h2_v25 (W3 m ρ c) a b).trans (congrFun (kept3 m ρ c).a10 _)
/-- Launch 3 leaves round 1's result. -/
theorem out0_eq : W5 m ρ c (Proc.devRef .tc main_v30) = layer 0 (HostK.aggK (m ((c : Thread nD τ).loc main_arg2)) (m ((c : Thread nD τ).loc main_arg3)) (x0 (m ((c : Thread nD τ).loc main_arg0)) (m ((c : Thread nD τ).loc main_arg4)) (m ((c : Thread nD τ).loc main_arg5)) (m ((c : Thread nD τ).loc main_arg6)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W5_arr m ρ c 8).trans ((Arr.arr2 (V4 m ρ) c Pay.out2_8_apply).trans ?_)
  refine (layerArr_eq_layer (0 : Fin 3) _ _ _ _ _ _ _ _ (m ((c : Thread nD τ).loc main_arg7)) (m ((c : Thread nD τ).loc main_arg8)) (m ((c : Thread nD τ).loc main_arg9)) (m ((c : Thread nD τ).loc main_arg10)) (m ((c : Thread nD τ).loc main_arg11))
    (ws0_at m ρ c) (dw0_at m ρ c) (db0_at m ρ c) (owh0_at m ρ c) (owu0_at m ρ c) (ob0_at m ρ c)).trans ?_
  show layer (0 : Fin 3) (W4 m ρ c (Proc.devRef .tc main_v15)) (W4 m ρ c (Proc.devRef .tc main_arg1)) _ _ _ _ _ = _
  rw [v15_eq m ρ c, (kept4 m ρ c).a1]

/-- Round 2's weights as the host cut them: member 1 of each stacked array. -/
theorem ws1_at (a b : Fin 128) : W6 m ρ c (Proc.devRef .tc main_v42) (ix2 a b) = (m ((c : Thread nD τ).loc main_arg7)) (ix3 (1 : Fin 3) a b) :=
  (HostK.h3_v42 (W5 m ρ c) a b).trans (congrFun (kept5 m ρ c).a7 _)
theorem dw1_at (a b : Fin 128) : W6 m ρ c (Proc.devRef .tc main_v44) (ix2 a b) = (m ((c : Thread nD τ).loc main_arg8)) (ix3 (1 : Fin 3) a b) :=
  (HostK.h3_v44 (W5 m ρ c) a b).trans (congrFun (kept5 m ρ c).a8 _)
theorem db1_at (l : Fin 128) : W6 m ρ c (Proc.devRef .tc main_v53) (ix2 (0 : Fin 1) l) = (m ((c : Thread nD τ).loc main_arg9)) (ix2 (1 : Fin 3) l) :=
  (HostK.h3_v53 (W5 m ρ c) l).trans (congrFun (kept5 m ρ c).a9 _)
theorem ob1_at (l : Fin 128) : W6 m ρ c (Proc.devRef .tc main_v54) (ix2 (0 : Fin 1) l) = (m ((c : Thread nD τ).loc main_arg11)) (ix2 (1 : Fin 3) l) :=
  (HostK.h3_v54 (W5 m ρ c) l).trans (congrFun (kept5 m ρ c).a11 _)
theorem owh1_at (a b : Fin 128) : W6 m ρ c (Proc.devRef .tc main_v48) (ix2 a b) = (m ((c : Thread nD τ).loc main_arg10)) (ix3 (1 : Fin 3) (lo a) b) :=
  (HostK.h3_v48 (W5 m ρ c) a b).trans ((congrFun (v4_W5 m ρ c) _).trans (v4_at m ρ c 1 a b))
theorem owu1_at (a b : Fin 128) : W6 m ρ c (Proc.devRef .tc main_v50) (ix2 a b) = (m ((c : Thread nD τ).loc main_arg10)) (ix3 (1 : Fin 3) (hi a) b) :=
  (HostK.h3_v50 (W5 m ρ c) a b).trans ((congrFun (v5_W5 m ρ c) _).trans (v5_at m ρ c 1 a b))
/-- The host aggregates the previous round's result. -/
theorem agg1_eq : W6 m ρ c (Proc.devRef .tc main_v40) = HostK.aggK (m ((c : Thread nD τ).loc main_arg2)) (m ((c : Thread nD τ).loc main_arg3)) (layer 0 (HostK.aggK (m ((c : Thread nD τ).loc main_arg2)) (m ((c : Thread nD τ).loc main_arg3)) (x0 (m ((c : Thread nD τ).loc main_arg0)) (m ((c : Thread nD τ).loc main_arg4)) (m ((c : Thread nD τ).loc main_arg5)) (m ((c : Thread nD τ).loc main_arg6)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))) := by
  refine (HostK.h3_v40 (W5 m ρ c)).trans ?_
  rw [(kept5 m ρ c).a2, (kept5 m ρ c).a3, out0_eq m ρ c]
/-- Launch 4 leaves round 2's result. -/
theorem out1_eq : W7 m ρ c (Proc.devRef .tc main_v55) = layer 1 (HostK.aggK (m ((c : Thread nD τ).loc main_arg2)) (m ((c : Thread nD τ).loc main_arg3)) (layer 0 (HostK.aggK (m ((c : Thread nD τ).loc main_arg2)) (m ((c : Thread nD τ).loc main_arg3)) (x0 (m ((c : Thread nD τ).loc main_arg0)) (m ((c : Thread nD τ).loc main_arg4)) (m ((c : Thread nD τ).loc main_arg5)) (m ((c : Thread nD τ).loc main_arg6)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W7_arr m ρ c 8).trans ((Arr.arr3 (V6 m ρ) c Pay.out3_8_apply).trans ?_)
  refine (layerArr_eq_layer (1 : Fin 3) _ _ _ _ _ _ _ _ (m ((c : Thread nD τ).loc main_arg7)) (m ((c : Thread nD τ).loc main_arg8)) (m ((c : Thread nD τ).loc main_arg9)) (m ((c : Thread nD τ).loc main_arg10)) (m ((c : Thread nD τ).loc main_arg11))
    (ws1_at m ρ c) (dw1_at m ρ c) (db1_at m ρ c) (owh1_at m ρ c) (owu1_at m ρ c) (ob1_at m ρ c)).trans ?_
  show layer (1 : Fin 3) (W6 m ρ c (Proc.devRef .tc main_v40)) (W6 m ρ c (Proc.devRef .tc main_arg1)) _ _ _ _ _ = _
  rw [agg1_eq m ρ c, (kept6 m ρ c).a1]

/-- Round 3's weights as the host cut them: member 2 of each stacked array. -/
theorem ws2_at (a b : Fin 128) : W8 m ρ c (Proc.devRef .tc main_v67) (ix2 a b) = (m ((c : Thread nD τ).loc main_arg7)) (ix3 (2 : Fin 3) a b) :=
  (HostK.h4_v67 (W7 m ρ c) a b).trans (congrFun (kept7 m ρ c).a7 _)
theorem dw2_at (a b : Fin 128) : W8 m ρ c (Proc.devRef .tc main_v69) (ix2 a b) = (m ((c : Thread nD τ).loc main_arg8)) (ix3 (2 : Fin 3) a b) :=
  (HostK.h4_v69 (W7 m ρ c) a b).trans (congrFun (kept7 m ρ c).a8 _)
theorem db2_at (l : Fin 128) : W8 m ρ c (Proc.devRef .tc main_v78) (ix2 (0 : Fin 1) l) = (m ((c : Thread nD τ).loc main_arg9)) (ix2 (2 : Fin 3) l) :=
  (HostK.h4_v78 (W7 m ρ c) l).trans (congrFun (kept7 m ρ c).a9 _)
theorem ob2_at (l : Fin 128) : W8 m ρ c (Proc.devRef .tc main_v79) (ix2 (0 : Fin 1) l) = (m ((c : Thread nD τ).loc main_arg11)) (ix2 (2 : Fin 3) l) :=
  (HostK.h4_v79 (W7 m ρ c) l).trans (congrFun (kept7 m ρ c).a11 _)
theorem owh2_at (a b : Fin 128) : W8 m ρ c (Proc.devRef .tc main_v73) (ix2 a b) = (m ((c : Thread nD τ).loc main_arg10)) (ix3 (2 : Fin 3) (lo a) b) :=
  (HostK.h4_v73 (W7 m ρ c) a b).trans ((congrFun (v4_W7 m ρ c) _).trans (v4_at m ρ c 2 a b))
theorem owu2_at (a b : Fin 128) : W8 m ρ c (Proc.devRef .tc main_v75) (ix2 a b) = (m ((c : Thread nD τ).loc main_arg10)) (ix3 (2 : Fin 3) (hi a) b) :=
  (HostK.h4_v75 (W7 m ρ c) a b).trans ((congrFun (v5_W7 m ρ c) _).trans (v5_at m ρ c 2 a b))
/-- The host aggregates the previous round's result. -/
theorem agg2_eq : W8 m ρ c (Proc.devRef .tc main_v65) = HostK.aggK (m ((c : Thread nD τ).loc main_arg2)) (m ((c : Thread nD τ).loc main_arg3)) (layer 1 (HostK.aggK (m ((c : Thread nD τ).loc main_arg2)) (m ((c : Thread nD τ).loc main_arg3)) (layer 0 (HostK.aggK (m ((c : Thread nD τ).loc main_arg2)) (m ((c : Thread nD τ).loc main_arg3)) (x0 (m ((c : Thread nD τ).loc main_arg0)) (m ((c : Thread nD τ).loc main_arg4)) (m ((c : Thread nD τ).loc main_arg5)) (m ((c : Thread nD τ).loc main_arg6)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11))) := by
  refine (HostK.h4_v65 (W7 m ρ c)).trans ?_
  rw [(kept7 m ρ c).a2, (kept7 m ρ c).a3, out1_eq m ρ c]
/-- Launch 5 leaves round 3's result. -/
theorem out2_eq : W9 m ρ c (Proc.devRef .tc main_v80) = layer 2 (HostK.aggK (m ((c : Thread nD τ).loc main_arg2)) (m ((c : Thread nD τ).loc main_arg3)) (layer 1 (HostK.aggK (m ((c : Thread nD τ).loc main_arg2)) (m ((c : Thread nD τ).loc main_arg3)) (layer 0 (HostK.aggK (m ((c : Thread nD τ).loc main_arg2)) (m ((c : Thread nD τ).loc main_arg3)) (x0 (m ((c : Thread nD τ).loc main_arg0)) (m ((c : Thread nD τ).loc main_arg4)) (m ((c : Thread nD τ).loc main_arg5)) (m ((c : Thread nD τ).loc main_arg6)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)))) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W9_arr m ρ c 8).trans ((Arr.arr4 (V8 m ρ) c Pay.out4_8_apply).trans ?_)
  refine (layerArr_eq_layer (2 : Fin 3) _ _ _ _ _ _ _ _ (m ((c : Thread nD τ).loc main_arg7)) (m ((c : Thread nD τ).loc main_arg8)) (m ((c : Thread nD τ).loc main_arg9)) (m ((c : Thread nD τ).loc main_arg10)) (m ((c : Thread nD τ).loc main_arg11))
    (ws2_at m ρ c) (dw2_at m ρ c) (db2_at m ρ c) (owh2_at m ρ c) (owu2_at m ρ c) (ob2_at m ρ c)).trans ?_
  show layer (2 : Fin 3) (W8 m ρ c (Proc.devRef .tc main_v65)) (W8 m ρ c (Proc.devRef .tc main_arg1)) _ _ _ _ _ = _
  rw [agg2_eq m ρ c, (kept8 m ρ c).a1]

/-- The result array after the run: the specification's three rounds over the normalised node table. -/
theorem result_eq : W9 m ρ c (Proc.devRef .tc main_v80)
    = result (HostK.aggK (m ((c : Thread nD τ).loc main_arg2)) (m ((c : Thread nD τ).loc main_arg3))) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  out2_eq m ρ c

end Cert.Gcn.Chain

end
-- ==== Proof.RefOps0.lean ====
/-
  The first piece of the reference, as four stretches of operations in order: the normalised node table (the
  embedding rows stacked on the affine image of the feature rows, every row divided by the larger of its Euclidean
  norm and a small constant); the first edge aggregation (rows gathered at the edges' sources, summed at their
  targets); the first round (two linear maps with their leaky rectifiers, bias and residual, the concatenation and the
  update map); and the second aggregation up to its gathered rows. A program given as pieces run in order is its
  pieces' operation lists appended: the piece equals the straight line over the four lists in a row, the callees'
  bodies standing at their calls. Every operation touches only buffers of the device.
-/
import proofs.«124699_j23029614641915_1_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-! The first window of the reference, as four stretches of operations. -/

/-- The input projection, its bias, the stacking of the two node sets, and the row normalisation (the squared row sums' root, floored, divides each row): fifteen operations. -/
abbrev sA : List (HloOp τ sig (Elt F)) :=
  [ binary main_arg0 main_arg5 main_v0 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg6 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    binary main_arg4 main_v3 main_v4 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)),
    TRef.binary (.of main_v4 : TRef sig ⟨S100000x128, .f32⟩) (.of main_v4 : TRef sig ⟨S100000x128, .f32⟩) main_call0.v0 mulf,
    TRef.nullary main_call0.cst (constant S_ .f32 0x00000000#32),
    TRef.binary main_call0.v0 main_call0.cst main_call0.v1 (fun x v => Host.reduceAdd x v reducesTo_S100000x128_S100000_d1 h_S_),
    TRef.unary main_call0.v1 main_call0.v2 (broadcastInDim S100000x1 ![0] bcast_S100000_S100000x1_0),
    TRef.unary main_call0.v2 main_call0.v3 Host.sqrt,
    nullary main_cst (constant S_ .f32 0x2B8CBCCC#32),
    unary main_cst main_v6 (broadcastInDim S100000x1 ![] bcast_S_S100000x1 : (⟨S_, .f32⟩ : BufTy).Contents (Elt F) → (⟨S100000x1, .f32⟩ : BufTy).Contents (Elt F)),
    binary main_v5 main_v6 main_v7 (maximumf : (⟨S100000x1, .f32⟩ : BufTy).Contents (Elt F) → (⟨S100000x1, .f32⟩ : BufTy).Contents (Elt F) → (⟨S100000x1, .f32⟩ : BufTy).Contents (Elt F)),
    unary main_v7 main_v8 (broadcastInDim S100000x128 ![0, 1] bcast_S100000x1_S100000x128_0_1 : (⟨S100000x1, .f32⟩ : BufTy).Contents (Elt F) → (⟨S100000x128, .f32⟩ : BufTy).Contents (Elt F)),
    binary main_v4 main_v8 main_v9 (Host.divf : (⟨S100000x128, .f32⟩ : BufTy).Contents (Elt F) → (⟨S100000x128, .f32⟩ : BufTy).Contents (Elt F) → (⟨S100000x128, .f32⟩ : BufTy).Contents (Elt F)) ]

theorem sA_sub : (sA : List (HloOp τ sig (Elt F))).Forall fun op => op.bufs ⊆ tcRefs τ sig :=
  ⟨binary_bufs_sub .., unary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The first aggregation: the source indices wrapped into range, the rows gathered along them and summed into the target rows: thirteen operations. -/
abbrev sB0 : List (HloOp τ sig (Elt F)) :=
  [ nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_arg2 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v12 (broadcastInDim S1600000 ![] bcast_S_S1600000 : (⟨S_, .i32⟩ : BufTy).Contents (Elt F) → (⟨S1600000, .i32⟩ : BufTy).Contents (Elt F)),
    binary main_arg2 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_arg2 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_v9 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_1 (constant S_ .f32 0x00000000#32),
    unary main_cst_1 main_v17 (broadcastInDim S100000x128 ![] bcast_S_S100000x128 : (⟨S_, .f32⟩ : BufTy).Contents (Elt F) → (⟨S100000x128, .f32⟩ : BufTy).Contents (Elt F)),
    unary main_arg3 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem sB0_sub : (sB0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- The first layer after its aggregation: the two linear maps with their leaky rectifiers, the bias and the residual, the concatenation and the update map: forty-two operations. -/
abbrev sC0 : List (HloOp τ sig (Elt F)) :=
  [ unary main_arg7 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v20 main_v21 rfl shapeCasts_S1x128x128_S128x128,
    binary main_v19 main_v21 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v22 : TRef sig ⟨S100000x128, .f32⟩) main_call1.v0 main_call1.v1 (cmpf .oge),
    TRef.nullary main_call1.cst_0 (constant S_ .f32 0x3C23D70A#32),
    TRef.unary main_call1.cst_0 main_call1.v2 (broadcastInDim S100000x128 ![] bcast_S_S100000x128),
    TRef.binary main_call1.v2 (.of main_v22 : TRef sig ⟨S100000x128, .f32⟩) main_call1.v3 mulf,
    TRef.ternary main_call1.v1 (.of main_v22 : TRef sig ⟨S100000x128, .f32⟩) main_call1.v3 main_call1.call0.v0 select,
    unary main_arg8 main_v24 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v24 main_v25 rfl shapeCasts_S1x128x128_S128x128,
    binary main_v23 main_v25 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v27 ((extractStridedSlice S1x128 ![0, 0] · slices_S3x128_S1x128_0_0) : (⟨S3x128, .f32⟩ : BufTy).Contents (Elt F) → (⟨S1x128, .f32⟩ : BufTy).Contents (Elt F)),
    reshape main_v27 main_v28 rfl shapeCasts_S1x128_S128,
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S100000x128 ![0, 1] bcast_S1x128_S100000x128_0_1 : (⟨S1x128, .f32⟩ : BufTy).Contents (Elt F) → (⟨S100000x128, .f32⟩ : BufTy).Contents (Elt F)),
    binary main_v26 main_v30 main_v31 (addf : (⟨S100000x128, .f32⟩ : BufTy).Contents (Elt F) → (⟨S100000x128, .f32⟩ : BufTy).Contents (Elt F) → (⟨S100000x128, .f32⟩ : BufTy).Contents (Elt F)),
    binary main_v31 main_arg1 main_v32 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v32 : TRef sig ⟨S100000x128, .f32⟩) main_call2.v0 main_call2.v1 (cmpf .oge),
    TRef.nullary main_call2.cst_0 (constant S_ .f32 0x3C23D70A#32),
    TRef.unary main_call2.cst_0 main_call2.v2 (broadcastInDim S100000x128 ![] bcast_S_S100000x128),
    TRef.binary main_call2.v2 (.of main_v32 : TRef sig ⟨S100000x128, .f32⟩) main_call2.v3 mulf,
    TRef.ternary main_call2.v1 (.of main_v32 : TRef sig ⟨S100000x128, .f32⟩) main_call2.v3 main_call2.call0.v0 select,
    binary main_v23 main_v33 main_v34 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg10 main_v35 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v35 main_v36 rfl shapeCasts_S1x256x128_S256x128,
    binary main_v34 main_v36 main_v37 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg11 main_v38 ((extractStridedSlice S1x128 ![0, 0] · slices_S3x128_S1x128_0_0) : (⟨S3x128, .f32⟩ : BufTy).Contents (Elt F) → (⟨S1x128, .f32⟩ : BufTy).Contents (Elt F)),
    reshape main_v38 main_v39 rfl shapeCasts_S1x128_S128,
    unary main_v39 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v37 main_v41 main_v42 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v42 : TRef sig ⟨S100000x128, .f32⟩) main_call3.v0 main_call3.v1 (cmpf .oge),
    TRef.nullary main_call3.cst_0 (constant S_ .f32 0x3C23D70A#32),
    TRef.unary main_call3.cst_0 main_call3.v2 (broadcastInDim S100000x128 ![] bcast_S_S100000x128),
    TRef.binary main_call3.v2 (.of main_v42 : TRef sig ⟨S100000x128, .f32⟩) main_call3.v3 mulf,
    TRef.ternary main_call3.v1 (.of main_v42 : TRef sig ⟨S100000x128, .f32⟩) main_call3.v3 main_call3.call0.v0 select ]

theorem sC0_sub : (sC0 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- The second aggregation up to its gathered rows and its zero accumulator: twelve operations. -/
abbrev sB1a : List (HloOp τ sig (Elt F)) :=
  [ nullary main_c_2 (constantI S_ 32 0#32),
    unary main_c_2 main_v44 (broadcastInDim S1600000 ![] bcast_S_S1600000 : (⟨S_, .i32⟩ : BufTy).Contents (Elt F) → (⟨S1600000, .i32⟩ : BufTy).Contents (Elt F)),
    binary main_arg2 main_v44 main_v45 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v46 (broadcastInDim S1600000 ![] bcast_S_S1600000 : (⟨S_, .i32⟩ : BufTy).Contents (Elt F) → (⟨S1600000, .i32⟩ : BufTy).Contents (Elt F)),
    binary main_arg2 main_v46 main_v47 (addi : (⟨S1600000, .i32⟩ : BufTy).Contents (Elt F) → (⟨S1600000, .i32⟩ : BufTy).Contents (Elt F) → (⟨S1600000, .i32⟩ : BufTy).Contents (Elt F)),
    ternary main_v45 main_v47 main_arg2 main_v48 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v48 main_v49 (broadcastInDim S1600000x1 ![0] bcast_S1600000_S1600000x1_0 : (⟨S1600000, .i32⟩ : BufTy).Contents (Elt F) → (⟨S1600000x1, .i32⟩ : BufTy).Contents (Elt F)),
    binary main_v43 main_v49 main_v50 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v51 (broadcastInDim S100000x128 ![] bcast_S_S100000x128 : (⟨S_, .f32⟩ : BufTy).Contents (Elt F) → (⟨S100000x128, .f32⟩ : BufTy).Contents (Elt F)),
    unary main_arg3 main_v52 (broadcastInDim S1600000x1 ![0] bcast_S1600000_S1600000x1_0 : (⟨S1600000, .i32⟩ : BufTy).Contents (Elt F) → (⟨S1600000x1, .i32⟩ : BufTy).Contents (Elt F)) ]

theorem sB1a_sub : (sB1a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

/-- Window 0's operations, stretch after stretch. -/
abbrev w0 : List (HloOp τ sig (Elt F)) := sA ++ sB0 ++ sC0 ++ sB1a

theorem w0_sub : (w0 : List (HloOp τ sig (Elt F))).Forall fun op => op.bufs ⊆ tcRefs τ sig :=
  List.forall_append.mpr ⟨List.forall_append.mpr ⟨List.forall_append.mpr ⟨sA_sub, sB0_sub⟩, sC0_sub⟩, sB1a_sub⟩

set_option maxRecDepth 8192 in
set_option maxHeartbeats 4000000 in
/-- The window is that straight line: the callees' bodies unfolded at their calls, sequencing reassociated. -/
theorem main_part0_eq (c : Dev nD) : main_part0 (F := F) c = seq w0 := by
  show main_part0 (F := F) c = seq (sA ++ sB0 ++ sC0 ++ sB1a)
  rw [seq_append, seq_append, seq_append]
  simp only [main_part0, fn_norm.body, fn_leaky_relu.body, fn_where.body, seq, bind_assoc, pure_bind] <;> rfl

end Cert.Gcn.RefRun

end
-- ==== Proof.RefOps1.lean ====
/-
  The second piece of the reference, as four stretches of operations in order: the sum that ends the second edge
  aggregation; the second round (two linear maps with their leaky rectifiers, bias and residual, the concatenation and
  the update map); the third aggregation (rows gathered at the edges' sources, summed at their targets); and the third
  round up to its last bias broadcast. A program given as pieces run in order is its pieces' operation lists appended:
  the piece equals the straight line over the four lists in a row, the callees' bodies standing at their calls. Every
  operation touches only buffers of the device.
-/
import proofs.«124699_j23029614641915_1_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-! The second window of the reference, as four stretches of operations. -/

/-- The second aggregation's sum into the target rows: one operation. -/
abbrev sB1b : List (HloOp τ sig (Elt F)) :=
  [ ternary main_v51 main_v52 main_v50 main_v53 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem sB1b_sub : (sB1b : List (HloOp τ sig (Elt F))).Forall fun op => op.bufs ⊆ tcRefs τ sig :=
  ternary_bufs_sub ..

/-- The second layer after its aggregation: forty-two operations. -/
abbrev sC1 : List (HloOp τ sig (Elt F)) :=
  [ unary main_arg7 main_v54 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v54 main_v55 rfl shapeCasts_S1x128x128_S128x128,
    binary main_v53 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (.of main_v56 : TRef sig ⟨S100000x128, .f32⟩) main_call4.v0 main_call4.v1 (cmpf .oge),
    TRef.nullary main_call4.cst_0 (constant S_ .f32 0x3C23D70A#32),
    TRef.unary main_call4.cst_0 main_call4.v2 (broadcastInDim S100000x128 ![] bcast_S_S100000x128),
    TRef.binary main_call4.v2 (.of main_v56 : TRef sig ⟨S100000x128, .f32⟩) main_call4.v3 mulf,
    TRef.ternary main_call4.v1 (.of main_v56 : TRef sig ⟨S100000x128, .f32⟩) main_call4.v3 main_call4.call0.v0 select,
    unary main_arg8 main_v58 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v58 main_v59 rfl shapeCasts_S1x128x128_S128x128,
    binary main_v57 main_v59 main_v60 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v61 ((extractStridedSlice S1x128 ![1, 0] · slices_S3x128_S1x128_1_0) : (⟨S3x128, .f32⟩ : BufTy).Contents (Elt F) → (⟨S1x128, .f32⟩ : BufTy).Contents (Elt F)),
    reshape main_v61 main_v62 rfl shapeCasts_S1x128_S128,
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v60 main_v64 main_v65 (addf : (⟨S100000x128, .f32⟩ : BufTy).Contents (Elt F) → (⟨S100000x128, .f32⟩ : BufTy).Contents (Elt F) → (⟨S100000x128, .f32⟩ : BufTy).Contents (Elt F)),
    binary main_v65 main_arg1 main_v66 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v66 : TRef sig ⟨S100000x128, .f32⟩) main_call5.v0 main_call5.v1 (cmpf .oge),
    TRef.nullary main_call5.cst_0 (constant S_ .f32 0x3C23D70A#32),
    TRef.unary main_call5.cst_0 main_call5.v2 (broadcastInDim S100000x128 ![] bcast_S_S100000x128),
    TRef.binary main_call5.v2 (.of main_v66 : TRef sig ⟨S100000x128, .f32⟩) main_call5.v3 mulf,
    TRef.ternary main_call5.v1 (.of main_v66 : TRef sig ⟨S100000x128, .f32⟩) main_call5.v3 main_call5.call0.v0 select,
    binary main_v57 main_v67 main_v68 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg10 main_v69 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v69 main_v70 rfl shapeCasts_S1x256x128_S256x128,
    binary main_v68 main_v70 main_v71 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg11 main_v72 ((extractStridedSlice S1x128 ![1, 0] · slices_S3x128_S1x128_1_0) : (⟨S3x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v71 main_v75 main_v76 (addf : (⟨S100000x128, .f32⟩ : BufTy).Contents (Elt F) → (⟨S100000x128, .f32⟩ : BufTy).Contents (Elt F) → (⟨S100000x128, .f32⟩ : BufTy).Contents (Elt F)),
    TRef.nullary main_call6.cst (constant S_ .f32 0x00000000#32),
    TRef.unary main_call6.cst main_call6.v0 (broadcastInDim S100000x128 ![] bcast_S_S100000x128),
    TRef.binary (.of main_v76 : TRef sig ⟨S100000x128, .f32⟩) main_call6.v0 main_call6.v1 (cmpf .oge),
    TRef.nullary main_call6.cst_0 (constant S_ .f32 0x3C23D70A#32),
    TRef.unary main_call6.cst_0 main_call6.v2 (broadcastInDim S100000x128 ![] bcast_S_S100000x128),
    TRef.binary main_call6.v2 (.of main_v76 : TRef sig ⟨S100000x128, .f32⟩) main_call6.v3 mulf,
    TRef.ternary main_call6.v1 (.of main_v76 : TRef sig ⟨S100000x128, .f32⟩) main_call6.v3 main_call6.call0.v0 select ]

theorem sC1_sub : (sC1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

/-- The third aggregation: thirteen operations. -/
abbrev sB2 : List (HloOp τ sig (Elt F)) :=
  [ nullary main_c_5 (constantI S_ 32 0#32),
    unary main_c_5 main_v78 (broadcastInDim S1600000 ![] bcast_S_S1600000 : (⟨S_, .i32⟩ : BufTy).Contents (Elt F) → (⟨S1600000, .i32⟩ : BufTy).Contents (Elt F)),
    binary main_arg2 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v80 (broadcastInDim S1600000 ![] bcast_S_S1600000 : (⟨S_, .i32⟩ : BufTy).Contents (Elt F) → (⟨S1600000, .i32⟩ : BufTy).Contents (Elt F)),
    binary main_arg2 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_arg2 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v77 main_v83 main_v84 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v85 (broadcastInDim S100000x128 ![] bcast_S_S100000x128 : (⟨S_, .f32⟩ : BufTy).Contents (Elt F) → (⟨S100000x128, .f32⟩ : BufTy).Contents (Elt F)),
    unary main_arg3 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

theorem sB2_sub : (sB2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub ..⟩

/-- The third layer after its aggregation, up to its second bias broadcast: thirty-four operations. -/
abbrev sC2a : List (HloOp τ sig (Elt F)) :=
  [ unary main_arg7 main_v88 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v88 main_v89 rfl shapeCasts_S1x128x128_S128x128,
    binary main_v87 main_v89 main_v90 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    TRef.nullary main_call7.cst (constant S_ .f32 0x00000000#32),
    TRef.unary main_call7.cst main_call7.v0 (broadcastInDim S100000x128 ![] bcast_S_S100000x128),
    TRef.binary (.of main_v90 : TRef sig ⟨S100000x128, .f32⟩) main_call7.v0 main_call7.v1 (cmpf .oge),
    TRef.nullary main_call7.cst_0 (constant S_ .f32 0x3C23D70A#32),
    TRef.unary main_call7.cst_0 main_call7.v2 (broadcastInDim S100000x128 ![] bcast_S_S100000x128),
    TRef.binary main_call7.v2 (.of main_v90 : TRef sig ⟨S100000x128, .f32⟩) main_call7.v3 mulf,
    TRef.ternary main_call7.v1 (.of main_v90 : TRef sig ⟨S100000x128, .f32⟩) main_call7.v3 main_call7.call0.v0 select,
    unary main_arg8 main_v92 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v92 main_v93 rfl shapeCasts_S1x128x128_S128x128,
    binary main_v91 main_v93 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v95 ((extractStridedSlice S1x128 ![2, 0] · slices_S3x128_S1x128_2_0) : (⟨S3x128, .f32⟩ : BufTy).Contents (Elt F) → (⟨S1x128, .f32⟩ : BufTy).Contents (Elt F)),
    reshape main_v95 main_v96 rfl shapeCasts_S1x128_S128,
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S100000x128 ![0, 1] bcast_S1x128_S100000x128_0_1 : (⟨S1x128, .f32⟩ : BufTy).Contents (Elt F) → (⟨S100000x128, .f32⟩ : BufTy).Contents (Elt F)),
    binary main_v94 main_v98 main_v99 (addf : (⟨S100000x128, .f32⟩ : BufTy).Contents (Elt F) → (⟨S100000x128, .f32⟩ : BufTy).Contents (Elt F) → (⟨S100000x128, .f32⟩ : BufTy).Contents (Elt F)),
    binary main_v99 main_arg1 main_v100 (addf : (⟨S100000x128, .f32⟩ : BufTy).Contents (Elt F) → (⟨S100000x128, .f32⟩ : BufTy).Contents (Elt F) → (⟨S100000x128, .f32⟩ : BufTy).Contents (Elt F)),
    TRef.nullary main_call8.cst (constant S_ .f32 0x00000000#32),
    TRef.unary main_call8.cst main_call8.v0 (broadcastInDim S100000x128 ![] bcast_S_S100000x128),
    TRef.binary (.of main_v100 : TRef sig ⟨S100000x128, .f32⟩) main_call8.v0 main_call8.v1 (cmpf .oge),
    TRef.nullary main_call8.cst_0 (constant S_ .f32 0x3C23D70A#32),
    TRef.unary main_call8.cst_0 main_call8.v2 (broadcastInDim S100000x128 ![] bcast_S_S100000x128),
    TRef.binary main_call8.v2 (.of main_v100 : TRef sig ⟨S100000x128, .f32⟩) main_call8.v3 mulf,
    TRef.ternary main_call8.v1 (.of main_v100 : TRef sig ⟨S100000x128, .f32⟩) main_call8.v3 main_call8.call0.v0 select,
    binary main_v91 main_v101 main_v102 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    unary main_arg10 main_v103 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v103 main_v104 rfl shapeCasts_S1x256x128_S256x128,
    binary main_v102 main_v104 main_v105 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg11 main_v106 ((extractStridedSlice S1x128 ![2, 0] · slices_S3x128_S1x128_2_0) : (⟨S3x128, .f32⟩ : BufTy).Contents (Elt F) → (⟨S1x128, .f32⟩ : BufTy).Contents (Elt F)),
    reshape main_v106 main_v107 rfl shapeCasts_S1x128_S128,
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)) ]

theorem sC2a_sub : (sC2a : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., binary_bufs_sub .., unary_bufs_sub .., reshape_bufs_sub .., binary_bufs_sub .., unary_bufs_sub .., reshape_bufs_sub .., unary_bufs_sub .., unary_bufs_sub ..⟩

/-- Window 1's operations, stretch after stretch. -/
abbrev w1 : List (HloOp τ sig (Elt F)) := sB1b ++ sC1 ++ sB2 ++ sC2a

theorem w1_sub : (w1 : List (HloOp τ sig (Elt F))).Forall fun op => op.bufs ⊆ tcRefs τ sig :=
  List.forall_append.mpr ⟨List.forall_append.mpr ⟨List.forall_append.mpr ⟨sB1b_sub, sC1_sub⟩, sB2_sub⟩, sC2a_sub⟩

set_option maxRecDepth 8192 in
set_option maxHeartbeats 4000000 in
/-- The window is that straight line: the callees' bodies unfolded at their calls, sequencing reassociated. -/
theorem main_part1_eq (c : Dev nD) : main_part1 (F := F) c = seq w1 := by
  show main_part1 (F := F) c = seq (sB1b ++ sC1 ++ sB2 ++ sC2a)
  rw [seq_append, seq_append, seq_append]
  simp only [main_part1, fn_norm.body, fn_leaky_relu.body, fn_where.body, seq, bind_assoc, pure_bind] <;> rfl

end Cert.Gcn.RefRun

end
-- ==== Proof.RefOps2.lean ====
/-
  The third piece of the reference, one stretch: the last bias added and the last leaky rectifier (a zero and a slope
  broadcast, the comparison with zero, the scaled copy, the selection between the entry and its scaled copy), which
  ends the third round. The piece equals the straight line over that list, the callee's body standing at its call.
  Every operation touches only buffers of the device.
-/
import proofs.«124699_j23029614641915_1_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-! The third window of the reference: the last layer's second bias added, and the last leaky rectifier
    (a constant zero and a constant slope broadcast, the comparison, the scaled copy, the selection). -/

/-- The last addition and the last leaky rectifier: eight operations. -/
abbrev sC2b : List (HloOp τ sig (Elt F)) :=
  [ binary main_v105 main_v109 main_v110 (addf : (⟨S100000x128, .f32⟩ : BufTy).Contents (Elt F) → (⟨S100000x128, .f32⟩ : BufTy).Contents (Elt F) → (⟨S100000x128, .f32⟩ : BufTy).Contents (Elt F)),
    TRef.nullary main_call9.cst (constant S_ .f32 0x00000000#32),
    TRef.unary main_call9.cst main_call9.v0 (broadcastInDim S100000x128 ![] bcast_S_S100000x128),
    TRef.binary (.of main_v110 : TRef sig ⟨S100000x128, .f32⟩) main_call9.v0 main_call9.v1 (cmpf .oge),
    TRef.nullary main_call9.cst_0 (constant S_ .f32 0x3C23D70A#32),
    TRef.unary main_call9.cst_0 main_call9.v2 (broadcastInDim S100000x128 ![] bcast_S_S100000x128),
    TRef.binary main_call9.v2 (.of main_v110 : TRef sig ⟨S100000x128, .f32⟩) main_call9.v3 mulf,
    TRef.ternary main_call9.v1 (.of main_v110 : TRef sig ⟨S100000x128, .f32⟩) main_call9.v3 main_call9.call0.v0 select ]

theorem sC2b_sub : (sC2b : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub ..⟩

/-- The third window's operations. -/
abbrev w2 : List (HloOp τ sig (Elt F)) := sC2b

theorem w2_sub : (w2 : List (HloOp τ sig (Elt F))).Forall fun op => op.bufs ⊆ tcRefs τ sig := sC2b_sub

set_option maxRecDepth 4096 in
theorem main_part2_eq (c : Dev nD) : main_part2 (F := F) c = seq w2 := by
  simp only [main_part2, fn_leaky_relu.body, fn_where.body, seq, bind_assoc, pure_bind] <;> rfl

end Cert.Gcn.RefRun

end
-- ==== Proof.RefRun.lean ====
import proofs.«124699_j23029614641915_1_alg».proof.Proof.RefOps0
import proofs.«124699_j23029614641915_1_alg».proof.Proof.RefOps1
import proofs.«124699_j23029614641915_1_alg».proof.Proof.RefOps2

/-!
  The reference program as one straight line of operations, and its run: every weakly fair execution ends with each
  buffer holding what the line's fold leaves there.
-/

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations: the three windows in order. -/
abbrev ops : List (HloOp τ sig (Elt F)) := w0 ++ w1 ++ w2

/-- The program is the line: each window is its own line, and lines run one after the other are their concatenation. -/
theorem main_eq (c : Dev nD) : main (F := F) c = seq ops := by
  show main (F := F) c = seq (w0 ++ w1 ++ w2)
  rw [seq_append, seq_append, ← main_part0_eq c, ← main_part1_eq c, ← main_part2_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨w0_sub, w1_sub⟩, w2_sub⟩

/-- From any memory with zero counters, every weakly fair execution terminates with every buffer at the fold of the
    operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Gcn.RefRun

end
-- ==== Proof.RefFrame.lean ====
/-
  What a stretch of the reference leaves alone. Folding two lists of operations in a row over any contents is folding
  the second over what the first leaves. Each stretch (the normalised table; an edge aggregation; a round) writes only
  the buffers of its own intermediate values, listed here stretch by stretch; none of the twelve argument arrays is
  among them, so folding the stretch over any contents leaves every argument array as it was.
-/
import proofs.«124699_j23029614641915_1_alg».proof.Proof.RefOps0
import proofs.«124699_j23029614641915_1_alg».proof.Proof.RefOps1
import proofs.«124699_j23029614641915_1_alg».proof.Proof.RefOps2

noncomputable section

namespace Cert.Gcn.RefRun

open Cert.ReferenceIdeal Cert.ReferenceIdeal.Gen Idealize.ShloMosaic Idealize.ShloMosaic.TcCoe Idealize.SL.Sem Idealize.ShloMosaic.StableHlo

/-!
  What each stretch of the reference leaves alone: the twelve argument buffers keep their contents, because no
  operation of the stretch writes them.
-/

variable {F : FTy → Type} [FloatOps F]

/-- A fold over two lists in a row is the fold over the second from the fold over the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- A one-buffer write set lies in the set of a list that names the buffer. -/
theorem wr {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- The buffers stretch `sA` writes. -/
abbrev sA_W : List (Ref sig .tc) :=
  [main_v0, main_v1, main_v2, main_v3, main_v4, main_call0.v0.ref, main_call0.cst.ref, main_call0.v1.ref, main_call0.v2.ref, main_call0.v3.ref, main_cst, main_v6, main_v7, main_v8, main_v9]

theorem sA_writes : (sA (F := F)).Forall fun op => op.writes ⊆ ((sA_W).map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide)⟩

theorem after_sA_arg0 (V : Valuation τ sig (Elt F)) : after (sA (F := F)) V (main_arg0 : DevRef τ sig) = V (main_arg0 : DevRef τ sig) :=
  after_of_writes_sub _ V sA_writes (by decide)
theorem after_sA_arg1 (V : Valuation τ sig (Elt F)) : after (sA (F := F)) V (main_arg1 : DevRef τ sig) = V (main_arg1 : DevRef τ sig) :=
  after_of_writes_sub _ V sA_writes (by decide)
theorem after_sA_arg2 (V : Valuation τ sig (Elt F)) : after (sA (F := F)) V (main_arg2 : DevRef τ sig) = V (main_arg2 : DevRef τ sig) :=
  after_of_writes_sub _ V sA_writes (by decide)
theorem after_sA_arg3 (V : Valuation τ sig (Elt F)) : after (sA (F := F)) V (main_arg3 : DevRef τ sig) = V (main_arg3 : DevRef τ sig) :=
  after_of_writes_sub _ V sA_writes (by decide)
theorem after_sA_arg4 (V : Valuation τ sig (Elt F)) : after (sA (F := F)) V (main_arg4 : DevRef τ sig) = V (main_arg4 : DevRef τ sig) :=
  after_of_writes_sub _ V sA_writes (by decide)
theorem after_sA_arg5 (V : Valuation τ sig (Elt F)) : after (sA (F := F)) V (main_arg5 : DevRef τ sig) = V (main_arg5 : DevRef τ sig) :=
  after_of_writes_sub _ V sA_writes (by decide)
theorem after_sA_arg6 (V : Valuation τ sig (Elt F)) : after (sA (F := F)) V (main_arg6 : DevRef τ sig) = V (main_arg6 : DevRef τ sig) :=
  after_of_writes_sub _ V sA_writes (by decide)
theorem after_sA_arg7 (V : Valuation τ sig (Elt F)) : after (sA (F := F)) V (main_arg7 : DevRef τ sig) = V (main_arg7 : DevRef τ sig) :=
  after_of_writes_sub _ V sA_writes (by decide)
theorem after_sA_arg8 (V : Valuation τ sig (Elt F)) : after (sA (F := F)) V (main_arg8 : DevRef τ sig) = V (main_arg8 : DevRef τ sig) :=
  after_of_writes_sub _ V sA_writes (by decide)
theorem after_sA_arg9 (V : Valuation τ sig (Elt F)) : after (sA (F := F)) V (main_arg9 : DevRef τ sig) = V (main_arg9 : DevRef τ sig) :=
  after_of_writes_sub _ V sA_writes (by decide)
theorem after_sA_arg10 (V : Valuation τ sig (Elt F)) : after (sA (F := F)) V (main_arg10 : DevRef τ sig) = V (main_arg10 : DevRef τ sig) :=
  after_of_writes_sub _ V sA_writes (by decide)
theorem after_sA_arg11 (V : Valuation τ sig (Elt F)) : after (sA (F := F)) V (main_arg11 : DevRef τ sig) = V (main_arg11 : DevRef τ sig) :=
  after_of_writes_sub _ V sA_writes (by decide)

/-- The buffers stretch `sB0` writes. -/
abbrev sB0_W : List (Ref sig .tc) :=
  [main_c, main_v10, main_v11, main_c_0, main_v12, main_v13, main_v14, main_v15, main_v16, main_cst_1, main_v17, main_v18, main_v19]

theorem sB0_writes : (sB0 (F := F)).Forall fun op => op.writes ⊆ ((sB0_W).map (Proc.devRef (τ := τ) .tc)).toFinset :=
  ⟨wr (by decide), wr (by decide), wr (by decide), wr (by decide), wr (by decide), wr (by decide), wr (by decide), wr (by decide), wr (by decide), wr (by decide), wr (by decide), wr (by decide), wr (by decide)⟩

theorem after_sB0_arg0 (V : Valuation τ sig (Elt F)) : after (sB0 (F := F)) V (main_arg0 : DevRef τ sig) = V (main_arg0 : DevRef τ sig) :=
  after_of_writes_sub _ V sB0_writes (by decide)
theorem after_sB0_arg1 (V : Valuation τ sig (Elt F)) : after (sB0 (F := F)) V (main_arg1 : DevRef τ sig) = V (main_arg1 : DevRef τ sig) :=
  after_of_writes_sub _ V sB0_writes (by decide)
theorem after_sB0_arg2 (V : Valuation τ sig (Elt F)) : after (sB0 (F := F)) V (main_arg2 : DevRef τ sig) = V (main_arg2 : DevRef τ sig) :=
  after_of_writes_sub _ V sB0_writes (by decide)
theorem after_sB0_arg3 (V : Valuation τ sig (Elt F)) : after (sB0 (F := F)) V (main_arg3 : DevRef τ sig) = V (main_arg3 : DevRef τ sig) :=
  after_of_writes_sub _ V sB0_writes (by decide)
theorem after_sB0_arg4 (V : Valuation τ sig (Elt F)) : after (sB0 (F := F)) V (main_arg4 : DevRef τ sig) = V (main_arg4 : DevRef τ sig) :=
  after_of_writes_sub _ V sB0_writes (by decide)
theorem after_sB0_arg5 (V : Valuation τ sig (Elt F)) : after (sB0 (F := F)) V (main_arg5 : DevRef τ sig) = V (main_arg5 : DevRef τ sig) :=
  after_of_writes_sub _ V sB0_writes (by decide)
theorem after_sB0_arg6 (V : Valuation τ sig (Elt F)) : after (sB0 (F := F)) V (main_arg6 : DevRef τ sig) = V (main_arg6 : DevRef τ sig) :=
  after_of_writes_sub _ V sB0_writes (by decide)
theorem after_sB0_arg7 (V : Valuation τ sig (Elt F)) : after (sB0 (F := F)) V (main_arg7 : DevRef τ sig) = V (main_arg7 : DevRef τ sig) :=
  after_of_writes_sub _ V sB0_writes (by decide)
theorem after_sB0_arg8 (V : Valuation τ sig (Elt F)) : after (sB0 (F := F)) V (main_arg8 : DevRef τ sig) = V (main_arg8 : DevRef τ sig) :=
  after_of_writes_sub _ V sB0_writes (by decide)
theorem after_sB0_arg9 (V : Valuation τ sig (Elt F)) : after (sB0 (F := F)) V (main_arg9 : DevRef τ sig) = V (main_arg9 : DevRef τ sig) :=
  after_of_writes_sub _ V sB0_writes (by decide)
theorem after_sB0_arg10 (V : Valuation τ sig (Elt F)) : after (sB0 (F := F)) V (main_arg10 : DevRef τ sig) = V (main_arg10 : DevRef τ sig) :=
  after_of_writes_sub _ V sB0_writes (by decide)
theorem after_sB0_arg11 (V : Valuation τ sig (Elt F)) : after (sB0 (F := F)) V (main_arg11 : DevRef τ sig) = V (main_arg11 : DevRef τ sig) :=
  after_of_writes_sub _ V sB0_writes (by decide)

/-- The buffers stretch `sC0` writes. -/
abbrev sC0_W : List (Ref sig .tc) :=
  [main_v20, main_v21, main_v22, main_call1.cst.ref, main_call1.v0.ref, main_call1.v1.ref, main_call1.cst_0.ref, main_call1.v2.ref, main_call1.v3.ref, main_call1.call0.v0.ref, main_v24, main_v25, main_v26, main_v27, main_v28, main_v29, main_v30, main_v31, main_v32, main_call2.cst.ref, main_call2.v0.ref, main_call2.v1.ref, main_call2.cst_0.ref, main_call2.v2.ref, main_call2.v3.ref, main_call2.call0.v0.ref, main_v34, main_v35, main_v36, main_v37, main_v38, main_v39, main_v40, main_v41, main_v42, main_call3.cst.ref, main_call3.v0.ref, main_call3.v1.ref, main_call3.cst_0.ref, main_call3.v2.ref, main_call3.v3.ref, main_call3.call0.v0.ref]

theorem sC0_writes : (sC0 (F := F)).Forall fun op => op.writes ⊆ ((sC0_W).map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩

theorem after_sC0_arg0 (V : Valuation τ sig (Elt F)) : after (sC0 (F := F)) V (main_arg0 : DevRef τ sig) = V (main_arg0 : DevRef τ sig) :=
  after_of_writes_sub _ V sC0_writes (by decide)
theorem after_sC0_arg1 (V : Valuation τ sig (Elt F)) : after (sC0 (F := F)) V (main_arg1 : DevRef τ sig) = V (main_arg1 : DevRef τ sig) :=
  after_of_writes_sub _ V sC0_writes (by decide)
theorem after_sC0_arg2 (V : Valuation τ sig (Elt F)) : after (sC0 (F := F)) V (main_arg2 : DevRef τ sig) = V (main_arg2 : DevRef τ sig) :=
  after_of_writes_sub _ V sC0_writes (by decide)
theorem after_sC0_arg3 (V : Valuation τ sig (Elt F)) : after (sC0 (F := F)) V (main_arg3 : DevRef τ sig) = V (main_arg3 : DevRef τ sig) :=
  after_of_writes_sub _ V sC0_writes (by decide)
theorem after_sC0_arg4 (V : Valuation τ sig (Elt F)) : after (sC0 (F := F)) V (main_arg4 : DevRef τ sig) = V (main_arg4 : DevRef τ sig) :=
  after_of_writes_sub _ V sC0_writes (by decide)
theorem after_sC0_arg5 (V : Valuation τ sig (Elt F)) : after (sC0 (F := F)) V (main_arg5 : DevRef τ sig) = V (main_arg5 : DevRef τ sig) :=
  after_of_writes_sub _ V sC0_writes (by decide)
theorem after_sC0_arg6 (V : Valuation τ sig (Elt F)) : after (sC0 (F := F)) V (main_arg6 : DevRef τ sig) = V (main_arg6 : DevRef τ sig) :=
  after_of_writes_sub _ V sC0_writes (by decide)
theorem after_sC0_arg7 (V : Valuation τ sig (Elt F)) : after (sC0 (F := F)) V (main_arg7 : DevRef τ sig) = V (main_arg7 : DevRef τ sig) :=
  after_of_writes_sub _ V sC0_writes (by decide)
theorem after_sC0_arg8 (V : Valuation τ sig (Elt F)) : after (sC0 (F := F)) V (main_arg8 : DevRef τ sig) = V (main_arg8 : DevRef τ sig) :=
  after_of_writes_sub _ V sC0_writes (by decide)
theorem after_sC0_arg9 (V : Valuation τ sig (Elt F)) : after (sC0 (F := F)) V (main_arg9 : DevRef τ sig) = V (main_arg9 : DevRef τ sig) :=
  after_of_writes_sub _ V sC0_writes (by decide)
theorem after_sC0_arg10 (V : Valuation τ sig (Elt F)) : after (sC0 (F := F)) V (main_arg10 : DevRef τ sig) = V (main_arg10 : DevRef τ sig) :=
  after_of_writes_sub _ V sC0_writes (by decide)
theorem after_sC0_arg11 (V : Valuation τ sig (Elt F)) : after (sC0 (F := F)) V (main_arg11 : DevRef τ sig) = V (main_arg11 : DevRef τ sig) :=
  after_of_writes_sub _ V sC0_writes (by decide)

/-- The buffers stretch `sB1a` writes. -/
abbrev sB1a_W : List (Ref sig .tc) :=
  [main_c_2, main_v44, main_v45, main_c_3, main_v46, main_v47, main_v48, main_v49, main_v50, main_cst_4, main_v51, main_v52]

theorem sB1a_writes : (sB1a (F := F)).Forall fun op => op.writes ⊆ ((sB1a_W).map (Proc.devRef (τ := τ) .tc)).toFinset :=
  ⟨wr (by decide), wr (by decide), wr (by decide), wr (by decide), wr (by decide), wr (by decide), wr (by decide), wr (by decide), wr (by decide), wr (by decide), wr (by decide), wr (by decide)⟩

theorem after_sB1a_arg0 (V : Valuation τ sig (Elt F)) : after (sB1a (F := F)) V (main_arg0 : DevRef τ sig) = V (main_arg0 : DevRef τ sig) :=
  after_of_writes_sub _ V sB1a_writes (by decide)
theorem after_sB1a_arg1 (V : Valuation τ sig (Elt F)) : after (sB1a (F := F)) V (main_arg1 : DevRef τ sig) = V (main_arg1 : DevRef τ sig) :=
  after_of_writes_sub _ V sB1a_writes (by decide)
theorem after_sB1a_arg2 (V : Valuation τ sig (Elt F)) : after (sB1a (F := F)) V (main_arg2 : DevRef τ sig) = V (main_arg2 : DevRef τ sig) :=
  after_of_writes_sub _ V sB1a_writes (by decide)
theorem after_sB1a_arg3 (V : Valuation τ sig (Elt F)) : after (sB1a (F := F)) V (main_arg3 : DevRef τ sig) = V (main_arg3 : DevRef τ sig) :=
  after_of_writes_sub _ V sB1a_writes (by decide)
theorem after_sB1a_arg4 (V : Valuation τ sig (Elt F)) : after (sB1a (F := F)) V (main_arg4 : DevRef τ sig) = V (main_arg4 : DevRef τ sig) :=
  after_of_writes_sub _ V sB1a_writes (by decide)
theorem after_sB1a_arg5 (V : Valuation τ sig (Elt F)) : after (sB1a (F := F)) V (main_arg5 : DevRef τ sig) = V (main_arg5 : DevRef τ sig) :=
  after_of_writes_sub _ V sB1a_writes (by decide)
theorem after_sB1a_arg6 (V : Valuation τ sig (Elt F)) : after (sB1a (F := F)) V (main_arg6 : DevRef τ sig) = V (main_arg6 : DevRef τ sig) :=
  after_of_writes_sub _ V sB1a_writes (by decide)
theorem after_sB1a_arg7 (V : Valuation τ sig (Elt F)) : after (sB1a (F := F)) V (main_arg7 : DevRef τ sig) = V (main_arg7 : DevRef τ sig) :=
  after_of_writes_sub _ V sB1a_writes (by decide)
theorem after_sB1a_arg8 (V : Valuation τ sig (Elt F)) : after (sB1a (F := F)) V (main_arg8 : DevRef τ sig) = V (main_arg8 : DevRef τ sig) :=
  after_of_writes_sub _ V sB1a_writes (by decide)
theorem after_sB1a_arg9 (V : Valuation τ sig (Elt F)) : after (sB1a (F := F)) V (main_arg9 : DevRef τ sig) = V (main_arg9 : DevRef τ sig) :=
  after_of_writes_sub _ V sB1a_writes (by decide)
theorem after_sB1a_arg10 (V : Valuation τ sig (Elt F)) : after (sB1a (F := F)) V (main_arg10 : DevRef τ sig) = V (main_arg10 : DevRef τ sig) :=
  after_of_writes_sub _ V sB1a_writes (by decide)
theorem after_sB1a_arg11 (V : Valuation τ sig (Elt F)) : after (sB1a (F := F)) V (main_arg11 : DevRef τ sig) = V (main_arg11 : DevRef τ sig) :=
  after_of_writes_sub _ V sB1a_writes (by decide)

/-- The buffers stretch `sB1b` writes. -/
abbrev sB1b_W : List (Ref sig .tc) :=
  [main_v53]

theorem sB1b_writes : (sB1b (F := F)).Forall fun op => op.writes ⊆ ((sB1b_W).map (Proc.devRef (τ := τ) .tc)).toFinset :=
  wr (by decide)

theorem after_sB1b_arg0 (V : Valuation τ sig (Elt F)) : after (sB1b (F := F)) V (main_arg0 : DevRef τ sig) = V (main_arg0 : DevRef τ sig) :=
  after_of_writes_sub _ V sB1b_writes (by decide)
theorem after_sB1b_arg1 (V : Valuation τ sig (Elt F)) : after (sB1b (F := F)) V (main_arg1 : DevRef τ sig) = V (main_arg1 : DevRef τ sig) :=
  after_of_writes_sub _ V sB1b_writes (by decide)
theorem after_sB1b_arg2 (V : Valuation τ sig (Elt F)) : after (sB1b (F := F)) V (main_arg2 : DevRef τ sig) = V (main_arg2 : DevRef τ sig) :=
  after_of_writes_sub _ V sB1b_writes (by decide)
theorem after_sB1b_arg3 (V : Valuation τ sig (Elt F)) : after (sB1b (F := F)) V (main_arg3 : DevRef τ sig) = V (main_arg3 : DevRef τ sig) :=
  after_of_writes_sub _ V sB1b_writes (by decide)
theorem after_sB1b_arg4 (V : Valuation τ sig (Elt F)) : after (sB1b (F := F)) V (main_arg4 : DevRef τ sig) = V (main_arg4 : DevRef τ sig) :=
  after_of_writes_sub _ V sB1b_writes (by decide)
theorem after_sB1b_arg5 (V : Valuation τ sig (Elt F)) : after (sB1b (F := F)) V (main_arg5 : DevRef τ sig) = V (main_arg5 : DevRef τ sig) :=
  after_of_writes_sub _ V sB1b_writes (by decide)
theorem after_sB1b_arg6 (V : Valuation τ sig (Elt F)) : after (sB1b (F := F)) V (main_arg6 : DevRef τ sig) = V (main_arg6 : DevRef τ sig) :=
  after_of_writes_sub _ V sB1b_writes (by decide)
theorem after_sB1b_arg7 (V : Valuation τ sig (Elt F)) : after (sB1b (F := F)) V (main_arg7 : DevRef τ sig) = V (main_arg7 : DevRef τ sig) :=
  after_of_writes_sub _ V sB1b_writes (by decide)
theorem after_sB1b_arg8 (V : Valuation τ sig (Elt F)) : after (sB1b (F := F)) V (main_arg8 : DevRef τ sig) = V (main_arg8 : DevRef τ sig) :=
  after_of_writes_sub _ V sB1b_writes (by decide)
theorem after_sB1b_arg9 (V : Valuation τ sig (Elt F)) : after (sB1b (F := F)) V (main_arg9 : DevRef τ sig) = V (main_arg9 : DevRef τ sig) :=
  after_of_writes_sub _ V sB1b_writes (by decide)
theorem after_sB1b_arg10 (V : Valuation τ sig (Elt F)) : after (sB1b (F := F)) V (main_arg10 : DevRef τ sig) = V (main_arg10 : DevRef τ sig) :=
  after_of_writes_sub _ V sB1b_writes (by decide)
theorem after_sB1b_arg11 (V : Valuation τ sig (Elt F)) : after (sB1b (F := F)) V (main_arg11 : DevRef τ sig) = V (main_arg11 : DevRef τ sig) :=
  after_of_writes_sub _ V sB1b_writes (by decide)

/-- The buffers stretch `sC1` writes. -/
abbrev sC1_W : List (Ref sig .tc) :=
  [main_v54, main_v55, main_v56, main_call4.cst.ref, main_call4.v0.ref, main_call4.v1.ref, main_call4.cst_0.ref, main_call4.v2.ref, main_call4.v3.ref, main_call4.call0.v0.ref, main_v58, main_v59, main_v60, main_v61, main_v62, main_v63, main_v64, main_v65, main_v66, main_call5.cst.ref, main_call5.v0.ref, main_call5.v1.ref, main_call5.cst_0.ref, main_call5.v2.ref, main_call5.v3.ref, main_call5.call0.v0.ref, main_v68, main_v69, main_v70, main_v71, main_v72, main_v73, main_v74, main_v75, main_v76, main_call6.cst.ref, main_call6.v0.ref, main_call6.v1.ref, main_call6.cst_0.ref, main_call6.v2.ref, main_call6.v3.ref, main_call6.call0.v0.ref]

theorem sC1_writes : (sC1 (F := F)).Forall fun op => op.writes ⊆ ((sC1_W).map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩

theorem after_sC1_arg0 (V : Valuation τ sig (Elt F)) : after (sC1 (F := F)) V (main_arg0 : DevRef τ sig) = V (main_arg0 : DevRef τ sig) :=
  after_of_writes_sub _ V sC1_writes (by decide)
theorem after_sC1_arg1 (V : Valuation τ sig (Elt F)) : after (sC1 (F := F)) V (main_arg1 : DevRef τ sig) = V (main_arg1 : DevRef τ sig) :=
  after_of_writes_sub _ V sC1_writes (by decide)
theorem after_sC1_arg2 (V : Valuation τ sig (Elt F)) : after (sC1 (F := F)) V (main_arg2 : DevRef τ sig) = V (main_arg2 : DevRef τ sig) :=
  after_of_writes_sub _ V sC1_writes (by decide)
theorem after_sC1_arg3 (V : Valuation τ sig (Elt F)) : after (sC1 (F := F)) V (main_arg3 : DevRef τ sig) = V (main_arg3 : DevRef τ sig) :=
  after_of_writes_sub _ V sC1_writes (by decide)
theorem after_sC1_arg4 (V : Valuation τ sig (Elt F)) : after (sC1 (F := F)) V (main_arg4 : DevRef τ sig) = V (main_arg4 : DevRef τ sig) :=
  after_of_writes_sub _ V sC1_writes (by decide)
theorem after_sC1_arg5 (V : Valuation τ sig (Elt F)) : after (sC1 (F := F)) V (main_arg5 : DevRef τ sig) = V (main_arg5 : DevRef τ sig) :=
  after_of_writes_sub _ V sC1_writes (by decide)
theorem after_sC1_arg6 (V : Valuation τ sig (Elt F)) : after (sC1 (F := F)) V (main_arg6 : DevRef τ sig) = V (main_arg6 : DevRef τ sig) :=
  after_of_writes_sub _ V sC1_writes (by decide)
theorem after_sC1_arg7 (V : Valuation τ sig (Elt F)) : after (sC1 (F := F)) V (main_arg7 : DevRef τ sig) = V (main_arg7 : DevRef τ sig) :=
  after_of_writes_sub _ V sC1_writes (by decide)
theorem after_sC1_arg8 (V : Valuation τ sig (Elt F)) : after (sC1 (F := F)) V (main_arg8 : DevRef τ sig) = V (main_arg8 : DevRef τ sig) :=
  after_of_writes_sub _ V sC1_writes (by decide)
theorem after_sC1_arg9 (V : Valuation τ sig (Elt F)) : after (sC1 (F := F)) V (main_arg9 : DevRef τ sig) = V (main_arg9 : DevRef τ sig) :=
  after_of_writes_sub _ V sC1_writes (by decide)
theorem after_sC1_arg10 (V : Valuation τ sig (Elt F)) : after (sC1 (F := F)) V (main_arg10 : DevRef τ sig) = V (main_arg10 : DevRef τ sig) :=
  after_of_writes_sub _ V sC1_writes (by decide)
theorem after_sC1_arg11 (V : Valuation τ sig (Elt F)) : after (sC1 (F := F)) V (main_arg11 : DevRef τ sig) = V (main_arg11 : DevRef τ sig) :=
  after_of_writes_sub _ V sC1_writes (by decide)

/-- The buffers stretch `sB2` writes. -/
abbrev sB2_W : List (Ref sig .tc) :=
  [main_c_5, main_v78, main_v79, main_c_6, main_v80, main_v81, main_v82, main_v83, main_v84, main_cst_7, main_v85, main_v86, main_v87]

theorem sB2_writes : (sB2 (F := F)).Forall fun op => op.writes ⊆ ((sB2_W).map (Proc.devRef (τ := τ) .tc)).toFinset :=
  ⟨wr (by decide), wr (by decide), wr (by decide), wr (by decide), wr (by decide), wr (by decide), wr (by decide), wr (by decide), wr (by decide), wr (by decide), wr (by decide), wr (by decide), wr (by decide)⟩

theorem after_sB2_arg0 (V : Valuation τ sig (Elt F)) : after (sB2 (F := F)) V (main_arg0 : DevRef τ sig) = V (main_arg0 : DevRef τ sig) :=
  after_of_writes_sub _ V sB2_writes (by decide)
theorem after_sB2_arg1 (V : Valuation τ sig (Elt F)) : after (sB2 (F := F)) V (main_arg1 : DevRef τ sig) = V (main_arg1 : DevRef τ sig) :=
  after_of_writes_sub _ V sB2_writes (by decide)
theorem after_sB2_arg2 (V : Valuation τ sig (Elt F)) : after (sB2 (F := F)) V (main_arg2 : DevRef τ sig) = V (main_arg2 : DevRef τ sig) :=
  after_of_writes_sub _ V sB2_writes (by decide)
theorem after_sB2_arg3 (V : Valuation τ sig (Elt F)) : after (sB2 (F := F)) V (main_arg3 : DevRef τ sig) = V (main_arg3 : DevRef τ sig) :=
  after_of_writes_sub _ V sB2_writes (by decide)
theorem after_sB2_arg4 (V : Valuation τ sig (Elt F)) : after (sB2 (F := F)) V (main_arg4 : DevRef τ sig) = V (main_arg4 : DevRef τ sig) :=
  after_of_writes_sub _ V sB2_writes (by decide)
theorem after_sB2_arg5 (V : Valuation τ sig (Elt F)) : after (sB2 (F := F)) V (main_arg5 : DevRef τ sig) = V (main_arg5 : DevRef τ sig) :=
  after_of_writes_sub _ V sB2_writes (by decide)
theorem after_sB2_arg6 (V : Valuation τ sig (Elt F)) : after (sB2 (F := F)) V (main_arg6 : DevRef τ sig) = V (main_arg6 : DevRef τ sig) :=
  after_of_writes_sub _ V sB2_writes (by decide)
theorem after_sB2_arg7 (V : Valuation τ sig (Elt F)) : after (sB2 (F := F)) V (main_arg7 : DevRef τ sig) = V (main_arg7 : DevRef τ sig) :=
  after_of_writes_sub _ V sB2_writes (by decide)
theorem after_sB2_arg8 (V : Valuation τ sig (Elt F)) : after (sB2 (F := F)) V (main_arg8 : DevRef τ sig) = V (main_arg8 : DevRef τ sig) :=
  after_of_writes_sub _ V sB2_writes (by decide)
theorem after_sB2_arg9 (V : Valuation τ sig (Elt F)) : after (sB2 (F := F)) V (main_arg9 : DevRef τ sig) = V (main_arg9 : DevRef τ sig) :=
  after_of_writes_sub _ V sB2_writes (by decide)
theorem after_sB2_arg10 (V : Valuation τ sig (Elt F)) : after (sB2 (F := F)) V (main_arg10 : DevRef τ sig) = V (main_arg10 : DevRef τ sig) :=
  after_of_writes_sub _ V sB2_writes (by decide)
theorem after_sB2_arg11 (V : Valuation τ sig (Elt F)) : after (sB2 (F := F)) V (main_arg11 : DevRef τ sig) = V (main_arg11 : DevRef τ sig) :=
  after_of_writes_sub _ V sB2_writes (by decide)

/-- The buffers stretch `sC2a` writes. -/
abbrev sC2a_W : List (Ref sig .tc) :=
  [main_v88, main_v89, main_v90, main_call7.cst.ref, main_call7.v0.ref, main_call7.v1.ref, main_call7.cst_0.ref, main_call7.v2.ref, main_call7.v3.ref, main_call7.call0.v0.ref, main_v92, main_v93, main_v94, main_v95, main_v96, main_v97, main_v98, main_v99, main_v100, main_call8.cst.ref, main_call8.v0.ref, main_call8.v1.ref, main_call8.cst_0.ref, main_call8.v2.ref, main_call8.v3.ref, main_call8.call0.v0.ref, main_v102, main_v103, main_v104, main_v105, main_v106, main_v107, main_v108, main_v109]

theorem sC2a_writes : (sC2a (F := F)).Forall fun op => op.writes ⊆ ((sC2a_W).map (Proc.devRef (τ := τ) .tc)).toFinset :=
  ⟨wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide), wr (by decide)⟩

theorem after_sC2a_arg0 (V : Valuation τ sig (Elt F)) : after (sC2a (F := F)) V (main_arg0 : DevRef τ sig) = V (main_arg0 : DevRef τ sig) :=
  after_of_writes_sub _ V sC2a_writes (by decide)
theorem after_sC2a_arg1 (V : Valuation τ sig (Elt F)) : after (sC2a (F := F)) V (main_arg1 : DevRef τ sig) = V (main_arg1 : DevRef τ sig) :=
  after_of_writes_sub _ V sC2a_writes (by decide)
theorem after_sC2a_arg2 (V : Valuation τ sig (Elt F)) : after (sC2a (F := F)) V (main_arg2 : DevRef τ sig) = V (main_arg2 : DevRef τ sig) :=
  after_of_writes_sub _ V sC2a_writes (by decide)
theorem after_sC2a_arg3 (V : Valuation τ sig (Elt F)) : after (sC2a (F := F)) V (main_arg3 : DevRef τ sig) = V (main_arg3 : DevRef τ sig) :=
  after_of_writes_sub _ V sC2a_writes (by decide)
theorem after_sC2a_arg4 (V : Valuation τ sig (Elt F)) : after (sC2a (F := F)) V (main_arg4 : DevRef τ sig) = V (main_arg4 : DevRef τ sig) :=
  after_of_writes_sub _ V sC2a_writes (by decide)
theorem after_sC2a_arg5 (V : Valuation τ sig (Elt F)) : after (sC2a (F := F)) V (main_arg5 : DevRef τ sig) = V (main_arg5 : DevRef τ sig) :=
  after_of_writes_sub _ V sC2a_writes (by decide)
theorem after_sC2a_arg6 (V : Valuation τ sig (Elt F)) : after (sC2a (F := F)) V (main_arg6 : DevRef τ sig) = V (main_arg6 : DevRef τ sig) :=
  after_of_writes_sub _ V sC2a_writes (by decide)
theorem after_sC2a_arg7 (V : Valuation τ sig (Elt F)) : after (sC2a (F := F)) V (main_arg7 : DevRef τ sig) = V (main_arg7 : DevRef τ sig) :=
  after_of_writes_sub _ V sC2a_writes (by decide)
theorem after_sC2a_arg8 (V : Valuation τ sig (Elt F)) : after (sC2a (F := F)) V (main_arg8 : DevRef τ sig) = V (main_arg8 : DevRef τ sig) :=
  after_of_writes_sub _ V sC2a_writes (by decide)
theorem after_sC2a_arg9 (V : Valuation τ sig (Elt F)) : after (sC2a (F := F)) V (main_arg9 : DevRef τ sig) = V (main_arg9 : DevRef τ sig) :=
  after_of_writes_sub _ V sC2a_writes (by decide)
theorem after_sC2a_arg10 (V : Valuation τ sig (Elt F)) : after (sC2a (F := F)) V (main_arg10 : DevRef τ sig) = V (main_arg10 : DevRef τ sig) :=
  after_of_writes_sub _ V sC2a_writes (by decide)
theorem after_sC2a_arg11 (V : Valuation τ sig (Elt F)) : after (sC2a (F := F)) V (main_arg11 : DevRef τ sig) = V (main_arg11 : DevRef τ sig) :=
  after_of_writes_sub _ V sC2a_writes (by decide)

/-- The buffers stretch `sC2b` writes. -/
abbrev sC2b_W : List (Ref sig .tc) :=
  [main_v110, main_call9.cst.ref, main_call9.v0.ref, main_call9.v1.ref, main_call9.cst_0.ref, main_call9.v2.ref, main_call9.v3.ref, main_call9.call0.v0.ref]

theorem sC2b_writes : (sC2b (F := F)).Forall fun op => op.writes ⊆ ((sC2b_W).map (Proc.devRef (τ := τ) .tc)).toFinset :=
  ⟨wr (by decide), wr (by decide), wr (by decide), wr (by decide), wr (by decide), wr (by decide), wr (by decide), wr (by decide)⟩

theorem after_sC2b_arg0 (V : Valuation τ sig (Elt F)) : after (sC2b (F := F)) V (main_arg0 : DevRef τ sig) = V (main_arg0 : DevRef τ sig) :=
  after_of_writes_sub _ V sC2b_writes (by decide)
theorem after_sC2b_arg1 (V : Valuation τ sig (Elt F)) : after (sC2b (F := F)) V (main_arg1 : DevRef τ sig) = V (main_arg1 : DevRef τ sig) :=
  after_of_writes_sub _ V sC2b_writes (by decide)
theorem after_sC2b_arg2 (V : Valuation τ sig (Elt F)) : after (sC2b (F := F)) V (main_arg2 : DevRef τ sig) = V (main_arg2 : DevRef τ sig) :=
  after_of_writes_sub _ V sC2b_writes (by decide)
theorem after_sC2b_arg3 (V : Valuation τ sig (Elt F)) : after (sC2b (F := F)) V (main_arg3 : DevRef τ sig) = V (main_arg3 : DevRef τ sig) :=
  after_of_writes_sub _ V sC2b_writes (by decide)
theorem after_sC2b_arg4 (V : Valuation τ sig (Elt F)) : after (sC2b (F := F)) V (main_arg4 : DevRef τ sig) = V (main_arg4 : DevRef τ sig) :=
  after_of_writes_sub _ V sC2b_writes (by decide)
theorem after_sC2b_arg5 (V : Valuation τ sig (Elt F)) : after (sC2b (F := F)) V (main_arg5 : DevRef τ sig) = V (main_arg5 : DevRef τ sig) :=
  after_of_writes_sub _ V sC2b_writes (by decide)
theorem after_sC2b_arg6 (V : Valuation τ sig (Elt F)) : after (sC2b (F := F)) V (main_arg6 : DevRef τ sig) = V (main_arg6 : DevRef τ sig) :=
  after_of_writes_sub _ V sC2b_writes (by decide)
theorem after_sC2b_arg7 (V : Valuation τ sig (Elt F)) : after (sC2b (F := F)) V (main_arg7 : DevRef τ sig) = V (main_arg7 : DevRef τ sig) :=
  after_of_writes_sub _ V sC2b_writes (by decide)
theorem after_sC2b_arg8 (V : Valuation τ sig (Elt F)) : after (sC2b (F := F)) V (main_arg8 : DevRef τ sig) = V (main_arg8 : DevRef τ sig) :=
  after_of_writes_sub _ V sC2b_writes (by decide)
theorem after_sC2b_arg9 (V : Valuation τ sig (Elt F)) : after (sC2b (F := F)) V (main_arg9 : DevRef τ sig) = V (main_arg9 : DevRef τ sig) :=
  after_of_writes_sub _ V sC2b_writes (by decide)
theorem after_sC2b_arg10 (V : Valuation τ sig (Elt F)) : after (sC2b (F := F)) V (main_arg10 : DevRef τ sig) = V (main_arg10 : DevRef τ sig) :=
  after_of_writes_sub _ V sC2b_writes (by decide)
theorem after_sC2b_arg11 (V : Valuation τ sig (Elt F)) : after (sC2b (F := F)) V (main_arg11 : DevRef τ sig) = V (main_arg11 : DevRef τ sig) :=
  after_of_writes_sub _ V sC2b_writes (by decide)

end Cert.Gcn.RefRun

end
-- ==== Proof.RefTerm.lean ====
/-
  The reference program's values as whole-array terms over the extended reals: each definition is the composition of
  exactly the operations the program applies, with the program's own shape records and facts.

  pre   : the embedding table stacked on the affine image of the feature table;
  x0    : pre with every row divided by the larger of its Euclidean norm and a small constant;
  agg   : rows gathered along the edges' sources (negative indices wrapped) and added up at the edges' targets;
  lrelu : the identity where the entry is at least zero, a constant slope times the entry elsewhere;
  layerT i : one round with the i-th members of the stacked weights; result : three rounds over x0.
-/
import proofs.«124699_j23029614641915_1_alg».proof.ReferenceIdeal
import Idealize.ShloMosaic.PureOps.Ideal

noncomputable section

namespace Cert.Gcn.RefTerm

open Cert.ReferenceIdeal Cert.ReferenceIdeal.Facts₀ Idealize.ShloMosaic

variable [Cert.ReferenceIdeal.Facts]

/-- The embedding table stacked on `feat · W + b`. -/
def pre (a0 : FVec Ideal S50000x256 .f32) (a4 : FVec Ideal S50000x128 .f32) (a5 : FVec Ideal S256x128 .f32)
    (a6 : FVec Ideal S128 .f32) : FVec Ideal S100000x128 .f32 :=
  concatenate S100000x128 0
    [⟨S50000x128, a4⟩,
     ⟨S50000x128, addf (Host.dotGeneral (F := Ideal) dot_S50000x256_S256x128_S50000x128_1_0_0_1_n_n none a0 a5)
        (broadcastInDim S50000x128 ![0, 1] bcast_S1x128_S50000x128_0_1
          (broadcastInDim S1x128 ![1] bcast_S128_S1x128_1 a6))⟩]
    concatenates_S50000x128_S50000x128_S100000x128_d0

/-- The column of row norms: the square root of each row's sum of squares. -/
def norm (x : FVec Ideal S100000x128 .f32) : FVec Ideal S100000x1 .f32 :=
  Host.sqrt (F := Ideal) (broadcastInDim S100000x1 ![0] bcast_S100000_S100000x1_0
    (Host.reduceAdd (F := Ideal) (mulf x x) (constant (F := Ideal) S_ .f32 0x00000000#32)
      reducesTo_S100000x128_S100000_d1 h_S_))

/-- A table with every row divided by the larger of its norm and the floor constant. -/
def normalize (x : FVec Ideal S100000x128 .f32) : FVec Ideal S100000x128 .f32 :=
  Host.divf (F := Ideal) x
    (broadcastInDim S100000x128 ![0, 1] bcast_S100000x1_S100000x128_0_1
      (maximumf (norm x)
        (broadcastInDim S100000x1 ![] bcast_S_S100000x1 (constant (F := Ideal) S_ .f32 0x2B8CBCCC#32))))

/-- The normalised node table. -/
def x0 (a0 : FVec Ideal S50000x256 .f32) (a4 : FVec Ideal S50000x128 .f32) (a5 : FVec Ideal S256x128 .f32)
    (a6 : FVec Ideal S128 .f32) : FVec Ideal S100000x128 .f32 :=
  normalize (pre a0 a4 a5 a6)

/-- The edges' source indices, a negative one wrapped by the number of nodes. -/
def src (a2 : IVec S1600000 32) : IVec S1600000x1 32 :=
  broadcastInDim S1600000x1 ![0] bcast_S1600000_S1600000x1_0
    (select (cmpi .slt a2 (broadcastInDim S1600000 ![] bcast_S_S1600000 (constantI S_ 32 0#32)))
      (addi a2 (broadcastInDim S1600000 ![] bcast_S_S1600000 (constantI S_ 32 100000#32))) a2)

/-- The edge aggregation: rows gathered at the sources, added into a zero table at the targets. -/
def agg (a2 a3 : IVec S1600000 32) (x : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a3)
    (Host.gather gather_S100000x128_S1600000x1_S1600000x128_1_0_n_n_0_1_1128 x (src a2))

/-- The activation, entry by entry. -/
def lrelu (y : FVec Ideal S100000x128 .f32) : FVec Ideal S100000x128 .f32 :=
  select (cmpf .oge y (broadcastInDim S100000x128 ![] bcast_S_S100000x128 (constant (F := Ideal) S_ .f32 0x00000000#32)))
    y
    (mulf (broadcastInDim S100000x128 ![] bcast_S_S100000x128 (constant (F := Ideal) S_ .f32 0x3C23D70A#32)) y)

/-- Member `i` of a stack of three 128 × 128 matrices. -/
def mat128 (i : ℕ) (h : S3x128x128.Slices ![i, 0, 0] S1x128x128) (a : FVec Ideal S3x128x128 .f32) : FVec Ideal S128x128 .f32 :=
  shapeCast S128x128 (extractStridedSlice S1x128x128 ![i, 0, 0] a h) shapeCasts_S1x128x128_S128x128

/-- Member `i` of a stack of three 256 × 128 matrices. -/
def mat256 (i : ℕ) (h : S3x256x128.Slices ![i, 0, 0] S1x256x128) (a : FVec Ideal S3x256x128 .f32) : FVec Ideal S256x128 .f32 :=
  shapeCast S256x128 (extractStridedSlice S1x256x128 ![i, 0, 0] a h) shapeCasts_S1x256x128_S256x128

/-- Member `i` of a stack of three rows of width 128, repeated down the 100000 rows. -/
def bias (i : ℕ) (h : S3x128.Slices ![i, 0] S1x128) (a : FVec Ideal S3x128 .f32) : FVec Ideal S100000x128 .f32 :=
  broadcastInDim S100000x128 ![0, 1] bcast_S1x128_S100000x128_0_1
    (broadcastInDim S1x128 ![1] bcast_S128_S1x128_1
      (shapeCast S128 (extractStridedSlice S1x128 ![i, 0] a h) shapeCasts_S1x128_S128))

/-- The hidden table of round `i`. -/
def hidT (i : ℕ) (h7 : S3x128x128.Slices ![i, 0, 0] S1x128x128) (g : FVec Ideal S100000x128 .f32)
    (a7 : FVec Ideal S3x128x128 .f32) : FVec Ideal S100000x128 .f32 :=
  lrelu (Host.dotGeneral (F := Ideal) dot_S100000x128_S128x128_S100000x128_1_0_0_1_n_n none g (mat128 i h7 a7))

/-- The update table of round `i`. -/
def updT (i : ℕ) (h7 : S3x128x128.Slices ![i, 0, 0] S1x128x128) (h9 : S3x128.Slices ![i, 0] S1x128)
    (h a1 : FVec Ideal S100000x128 .f32) (a8 : FVec Ideal S3x128x128 .f32) (a9 : FVec Ideal S3x128 .f32) :
    FVec Ideal S100000x128 .f32 :=
  lrelu (addf (addf (Host.dotGeneral (F := Ideal) dot_S100000x128_S128x128_S100000x128_1_0_0_1_n_n none h (mat128 i h7 a8))
    (bias i h9 a9)) a1)

/-- The output table of round `i` from the hidden and update tables. -/
def outT (i : ℕ) (h9 : S3x128.Slices ![i, 0] S1x128) (h10 : S3x256x128.Slices ![i, 0, 0] S1x256x128)
    (h u : FVec Ideal S100000x128 .f32) (a10 : FVec Ideal S3x256x128 .f32) (a11 : FVec Ideal S3x128 .f32) :
    FVec Ideal S100000x128 .f32 :=
  lrelu (addf (Host.dotGeneral (F := Ideal) dot_S100000x256_S256x128_S100000x128_1_0_0_1_n_n none
      (concatenate S100000x256 1 [⟨S100000x128, h⟩, ⟨S100000x128, u⟩] concatenates_S100000x128_S100000x128_S100000x256_d1)
      (mat256 i h10 a10))
    (bias i h9 a11))

/-- Round `i` on the aggregated table `g`. -/
def layerT (i : ℕ) (h7 : S3x128x128.Slices ![i, 0, 0] S1x128x128) (h9 : S3x128.Slices ![i, 0] S1x128)
    (h10 : S3x256x128.Slices ![i, 0, 0] S1x256x128) (g a1 : FVec Ideal S100000x128 .f32)
    (a7 a8 : FVec Ideal S3x128x128 .f32) (a9 : FVec Ideal S3x128 .f32) (a10 : FVec Ideal S3x256x128 .f32)
    (a11 : FVec Ideal S3x128 .f32) : FVec Ideal S100000x128 .f32 :=
  outT i h9 h10 (hidT i h7 g a7) (updT i h7 h9 (hidT i h7 g a7) a1 a8 a9) a10 a11

/-- The program's result: three rounds over the normalised table. -/
def result (a0 : FVec Ideal S50000x256 .f32) (a1 : FVec Ideal S100000x128 .f32) (a2 a3 : IVec S1600000 32)
    (a4 : FVec Ideal S50000x128 .f32) (a5 : FVec Ideal S256x128 .f32) (a6 : FVec Ideal S128 .f32)
    (a7 a8 : FVec Ideal S3x128x128 .f32) (a9 : FVec Ideal S3x128 .f32) (a10 : FVec Ideal S3x256x128 .f32)
    (a11 : FVec Ideal S3x128 .f32) : FVec Ideal S100000x128 .f32 :=
  layerT 2 slices_S3x128x128_S1x128x128_2_0_0 slices_S3x128_S1x128_2_0 slices_S3x256x128_S1x256x128_2_0_0
    (agg a2 a3
      (layerT 1 slices_S3x128x128_S1x128x128_1_0_0 slices_S3x128_S1x128_1_0 slices_S3x256x128_S1x256x128_1_0_0
        (agg a2 a3
          (layerT 0 slices_S3x128x128_S1x128x128_0_0_0 slices_S3x128_S1x128_0_0 slices_S3x256x128_S1x256x128_0_0_0
            (agg a2 a3 (x0 a0 a4 a5 a6)) a1 a7 a8 a9 a10 a11))
        a1 a7 a8 a9 a10 a11))
    a1 a7 a8 a9 a10 a11

end Cert.Gcn.RefTerm

end
-- ==== Proof.RefAfterA.lean ====
/-
  What a stretch of the reference computes. Folding a stretch over any contents leaves its last buffer at the
  stretch's whole-array term of what it reads: after the first stretch, the normalised node table of the four input
  arrays; after an aggregation stretch, the edge aggregation (rows gathered at the sources, summed at the targets) of
  the table found in place; after a round's stretch, the round's term of the aggregated table found in place, the
  residual table and that round's members of the stacked weights. Here: the normalised table, the three aggregations,
  and the first round.
-/
import proofs.«124699_j23029614641915_1_alg».proof.Proof.RefOps0
import proofs.«124699_j23029614641915_1_alg».proof.Proof.RefOps1
import proofs.«124699_j23029614641915_1_alg».proof.Proof.RefTerm

noncomputable section

namespace Cert.Gcn.RefRun

open Cert.ReferenceIdeal Cert.ReferenceIdeal.Gen Idealize.ShloMosaic Idealize.ShloMosaic.TcCoe Idealize.SL.Sem Idealize.ShloMosaic.StableHlo

/-!
  What each stretch of the reference computes, as the whole-array terms: the normalised table, each aggregation, the
  first round. Every equation is a computation: the fold is unrolled, each operation's result read at the buffer it
  writes and passed over elsewhere, and the composed term is the definition's body.
-/

attribute [local irreducible] Host.gather Host.scatterAdd Host.reduceAdd

set_option maxRecDepth 16384 in
set_option maxHeartbeats 4000000 in
/-- After the first stretch the normalised node table is in place. -/
theorem after_sA (V : Valuation τ sig (Elt Ideal)) :
    after (sA (F := Ideal)) V (main_v9 : DevRef τ sig)
      = RefTerm.x0 (V (main_arg0 : DevRef τ sig)) (V (main_arg4 : DevRef τ sig)) (V (main_arg5 : DevRef τ sig)) (V (main_arg6 : DevRef τ sig)) := by
  simp only [after_cons, after_nil]
  rfl

set_option maxRecDepth 16384 in
set_option maxHeartbeats 4000000 in
/-- The first aggregation, of the table the stretch finds in place. -/
theorem after_sB0 (V : Valuation τ sig (Elt Ideal)) :
    after (sB0 (F := Ideal)) V (main_v19 : DevRef τ sig)
      = RefTerm.agg (V (main_arg2 : DevRef τ sig)) (V (main_arg3 : DevRef τ sig)) (V (main_v9 : DevRef τ sig)) := by
  simp only [after_cons, after_nil]
  rfl

set_option maxRecDepth 16384 in
set_option maxHeartbeats 4000000 in
/-- The first round, on the aggregated table the stretch finds in place. -/
theorem after_sC0 (V : Valuation τ sig (Elt Ideal)) :
    after (sC0 (F := Ideal)) V (main_v43 : DevRef τ sig)
      = RefTerm.layerT 0 slices_S3x128x128_S1x128x128_0_0_0 slices_S3x128_S1x128_0_0 slices_S3x256x128_S1x256x128_0_0_0
          (V (main_v19 : DevRef τ sig)) (V (main_arg1 : DevRef τ sig)) (V (main_arg7 : DevRef τ sig)) (V (main_arg8 : DevRef τ sig))
          (V (main_arg9 : DevRef τ sig)) (V (main_arg10 : DevRef τ sig)) (V (main_arg11 : DevRef τ sig)) := by
  simp only [after_cons, after_nil]
  rfl

set_option maxRecDepth 16384 in
set_option maxHeartbeats 4000000 in
/-- The second aggregation: its two stretches in a row. -/
theorem after_sB1 (V : Valuation τ sig (Elt Ideal)) :
    after (sB1b (F := Ideal)) (after (sB1a (F := Ideal)) V) (main_v53 : DevRef τ sig)
      = RefTerm.agg (V (main_arg2 : DevRef τ sig)) (V (main_arg3 : DevRef τ sig)) (V (main_v43 : DevRef τ sig)) := by
  simp only [after_cons, after_nil]
  rfl

set_option maxRecDepth 16384 in
set_option maxHeartbeats 4000000 in
/-- The third aggregation. -/
theorem after_sB2 (V : Valuation τ sig (Elt Ideal)) :
    after (sB2 (F := Ideal)) V (main_v87 : DevRef τ sig)
      = RefTerm.agg (V (main_arg2 : DevRef τ sig)) (V (main_arg3 : DevRef τ sig)) (V (main_v77 : DevRef τ sig)) := by
  simp only [after_cons, after_nil]
  rfl

end Cert.Gcn.RefRun

end
-- ==== Proof.RefAfterB.lean ====
/-
  What the reference's second and third rounds leave in their result buffers: folding each round's operations over any
  contents gives the round's whole-array term at the contents of the round's inputs.
-/
import proofs.«124699_j23029614641915_1_alg».proof.Proof.RefOps1
import proofs.«124699_j23029614641915_1_alg».proof.Proof.RefOps2
import proofs.«124699_j23029614641915_1_alg».proof.Proof.RefTerm

noncomputable section

namespace Cert.Gcn.RefRun

open Cert.ReferenceIdeal Cert.ReferenceIdeal.Gen Idealize.ShloMosaic Idealize.ShloMosaic.TcCoe Idealize.SL.Sem Idealize.ShloMosaic.StableHlo

attribute [local irreducible] Host.gather Host.scatterAdd Host.reduceAdd

set_option maxRecDepth 16384 in
set_option maxHeartbeats 4000000 in
/-- After the second round's operations its result buffer holds the round's term at the aggregated table, the
    embedding table and the stacked weights. -/
theorem after_sC1 (V : Valuation τ sig (Elt Ideal)) :
    after (sC1 (F := Ideal)) V (main_v77 : DevRef τ sig)
      = RefTerm.layerT 1 slices_S3x128x128_S1x128x128_1_0_0 slices_S3x128_S1x128_1_0 slices_S3x256x128_S1x256x128_1_0_0
          (V (main_v53 : DevRef τ sig)) (V (main_arg1 : DevRef τ sig)) (V (main_arg7 : DevRef τ sig))
          (V (main_arg8 : DevRef τ sig)) (V (main_arg9 : DevRef τ sig)) (V (main_arg10 : DevRef τ sig))
          (V (main_arg11 : DevRef τ sig)) := by
  simp only [after_cons, after_nil]
  rfl

set_option maxRecDepth 16384 in
set_option maxHeartbeats 4000000 in
/-- After the third round's operations its result buffer holds the round's term at the aggregated table, the
    embedding table and the stacked weights. -/
theorem after_sC2 (V : Valuation τ sig (Elt Ideal)) :
    after (sC2b (F := Ideal)) (after (sC2a (F := Ideal)) V) (main_v111 : DevRef τ sig)
      = RefTerm.layerT 2 slices_S3x128x128_S1x128x128_2_0_0 slices_S3x128_S1x128_2_0 slices_S3x256x128_S1x256x128_2_0_0
          (V (main_v87 : DevRef τ sig)) (V (main_arg1 : DevRef τ sig)) (V (main_arg7 : DevRef τ sig))
          (V (main_arg8 : DevRef τ sig)) (V (main_arg9 : DevRef τ sig)) (V (main_arg10 : DevRef τ sig))
          (V (main_arg11 : DevRef τ sig)) := by
  simp only [after_cons, after_nil]
  rfl

end Cert.Gcn.RefRun

end
-- ==== Proof.RefAfter.lean ====
/-
  The reference's run, read back. The whole line is the stretches in a row, so its fold is the stretches' folds one
  after the other: each stretch leaves its last buffer at its whole-array term of what the stretch before left and of
  the argument arrays, and leaves every argument array untouched. Hence the result buffer after the whole line is
  three rounds, each on the edge aggregation of the table before it, starting from the normalised table of the
  arguments; and every argument buffer is as it began. Every weakly fair execution from a memory with zero counters
  ends with each buffer at the fold, so with the result at that term and the arguments unchanged.
-/
import proofs.«124699_j23029614641915_1_alg».proof.Proof.RefRun
import proofs.«124699_j23029614641915_1_alg».proof.Proof.RefFrame
import proofs.«124699_j23029614641915_1_alg».proof.Proof.RefAfterA
import proofs.«124699_j23029614641915_1_alg».proof.Proof.RefAfterB

noncomputable section

namespace Cert.Gcn.RefRun

open Cert.ReferenceIdeal Cert.ReferenceIdeal.Gen Idealize.ShloMosaic Idealize.ShloMosaic.TcCoe Idealize.SL.Sem Idealize.ShloMosaic.StableHlo

/-!
  The reference's run, read back: the result buffer ends at the whole-array term of the twelve arguments' launch
  contents, and the arguments end as they began.
-/

/-- The result buffer after the whole line: stretch by stretch, each reading what the one before left and the
    arguments, which no stretch writes. -/
theorem after_result (V : Valuation τ sig (Elt Ideal)) :
    after (ops (F := Ideal)) V (main_v111 : DevRef τ sig)
      = RefTerm.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  show after ((sA ++ sB0 ++ sC0 ++ sB1a) ++ (sB1b ++ sC1 ++ sB2 ++ sC2a) ++ sC2b : List (HloOp τ sig (Elt Ideal))) V _ = _
  simp only [after_append]
  rw [after_sC2, after_sB2, after_sC1, after_sB1, after_sC0, after_sB0, after_sA]
  rw [after_sB2_arg1, after_sC1_arg1, after_sB1b_arg1, after_sB1a_arg1, after_sC0_arg1, after_sB0_arg1, after_sA_arg1,
    after_sB2_arg7, after_sC1_arg7, after_sB1b_arg7, after_sB1a_arg7, after_sC0_arg7, after_sB0_arg7, after_sA_arg7,
    after_sB2_arg8, after_sC1_arg8, after_sB1b_arg8, after_sB1a_arg8, after_sC0_arg8, after_sB0_arg8, after_sA_arg8,
    after_sB2_arg9, after_sC1_arg9, after_sB1b_arg9, after_sB1a_arg9, after_sC0_arg9, after_sB0_arg9, after_sA_arg9,
    after_sB2_arg10, after_sC1_arg10, after_sB1b_arg10, after_sB1a_arg10, after_sC0_arg10, after_sB0_arg10, after_sA_arg10,
    after_sB2_arg11, after_sC1_arg11, after_sB1b_arg11, after_sB1a_arg11, after_sC0_arg11, after_sB0_arg11, after_sA_arg11,
    after_sC1_arg2, after_sB1b_arg2, after_sB1a_arg2, after_sC0_arg2, after_sB0_arg2, after_sA_arg2,
    after_sC1_arg3, after_sB1b_arg3, after_sB1a_arg3, after_sC0_arg3, after_sB0_arg3, after_sA_arg3]
  rfl

theorem after_arg0 (V : Valuation τ sig (Elt Ideal)) :
    after (ops (F := Ideal)) V (main_arg0 : DevRef τ sig) = V (main_arg0 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg0, after_sC2a_arg0, after_sB2_arg0, after_sC1_arg0, after_sB1b_arg0, after_sB1a_arg0, after_sC0_arg0, after_sB0_arg0, after_sA_arg0]

theorem after_arg1 (V : Valuation τ sig (Elt Ideal)) :
    after (ops (F := Ideal)) V (main_arg1 : DevRef τ sig) = V (main_arg1 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg1, after_sC2a_arg1, after_sB2_arg1, after_sC1_arg1, after_sB1b_arg1, after_sB1a_arg1, after_sC0_arg1, after_sB0_arg1, after_sA_arg1]

theorem after_arg2 (V : Valuation τ sig (Elt Ideal)) :
    after (ops (F := Ideal)) V (main_arg2 : DevRef τ sig) = V (main_arg2 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg2, after_sC2a_arg2, after_sB2_arg2, after_sC1_arg2, after_sB1b_arg2, after_sB1a_arg2, after_sC0_arg2, after_sB0_arg2, after_sA_arg2]

theorem after_arg3 (V : Valuation τ sig (Elt Ideal)) :
    after (ops (F := Ideal)) V (main_arg3 : DevRef τ sig) = V (main_arg3 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg3, after_sC2a_arg3, after_sB2_arg3, after_sC1_arg3, after_sB1b_arg3, after_sB1a_arg3, after_sC0_arg3, after_sB0_arg3, after_sA_arg3]

theorem after_arg4 (V : Valuation τ sig (Elt Ideal)) :
    after (ops (F := Ideal)) V (main_arg4 : DevRef τ sig) = V (main_arg4 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg4, after_sC2a_arg4, after_sB2_arg4, after_sC1_arg4, after_sB1b_arg4, after_sB1a_arg4, after_sC0_arg4, after_sB0_arg4, after_sA_arg4]

theorem after_arg5 (V : Valuation τ sig (Elt Ideal)) :
    after (ops (F := Ideal)) V (main_arg5 : DevRef τ sig) = V (main_arg5 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg5, after_sC2a_arg5, after_sB2_arg5, after_sC1_arg5, after_sB1b_arg5, after_sB1a_arg5, after_sC0_arg5, after_sB0_arg5, after_sA_arg5]

theorem after_arg6 (V : Valuation τ sig (Elt Ideal)) :
    after (ops (F := Ideal)) V (main_arg6 : DevRef τ sig) = V (main_arg6 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg6, after_sC2a_arg6, after_sB2_arg6, after_sC1_arg6, after_sB1b_arg6, after_sB1a_arg6, after_sC0_arg6, after_sB0_arg6, after_sA_arg6]

theorem after_arg7 (V : Valuation τ sig (Elt Ideal)) :
    after (ops (F := Ideal)) V (main_arg7 : DevRef τ sig) = V (main_arg7 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg7, after_sC2a_arg7, after_sB2_arg7, after_sC1_arg7, after_sB1b_arg7, after_sB1a_arg7, after_sC0_arg7, after_sB0_arg7, after_sA_arg7]

theorem after_arg8 (V : Valuation τ sig (Elt Ideal)) :
    after (ops (F := Ideal)) V (main_arg8 : DevRef τ sig) = V (main_arg8 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg8, after_sC2a_arg8, after_sB2_arg8, after_sC1_arg8, after_sB1b_arg8, after_sB1a_arg8, after_sC0_arg8, after_sB0_arg8, after_sA_arg8]

theorem after_arg9 (V : Valuation τ sig (Elt Ideal)) :
    after (ops (F := Ideal)) V (main_arg9 : DevRef τ sig) = V (main_arg9 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg9, after_sC2a_arg9, after_sB2_arg9, after_sC1_arg9, after_sB1b_arg9, after_sB1a_arg9, after_sC0_arg9, after_sB0_arg9, after_sA_arg9]

theorem after_arg10 (V : Valuation τ sig (Elt Ideal)) :
    after (ops (F := Ideal)) V (main_arg10 : DevRef τ sig) = V (main_arg10 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg10, after_sC2a_arg10, after_sB2_arg10, after_sC1_arg10, after_sB1b_arg10, after_sB1a_arg10, after_sC0_arg10, after_sB0_arg10, after_sA_arg10]

theorem after_arg11 (V : Valuation τ sig (Elt Ideal)) :
    after (ops (F := Ideal)) V (main_arg11 : DevRef τ sig) = V (main_arg11 : DevRef τ sig) := by
  show after ((sA ++ sB0 ++ sC0 ++ sB1a) ++ (sB1b ++ sC1 ++ sB2 ++ sC2a) ++ sC2b : List (HloOp τ sig (Elt Ideal))) V _ = _
  simp only [after_append]
  rw [after_sC2b_arg11, after_sC2a_arg11, after_sB2_arg11, after_sC1_arg11, after_sB1b_arg11, after_sB1a_arg11, after_sC0_arg11, after_sB0_arg11, after_sA_arg11]

/-- From any memory with zero counters, every weakly fair execution of the reference terminates with the result
    buffer at the whole-array term of the arguments' launch contents and every argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v111).trans (after_result _),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _)⟩)
    (run_after m ρ)

end Cert.Gcn.RefRun

end
-- ==== Proof.LibHostLayout.lean ====
/-
  Host-side layout operations and two host operations read at an index, over arrays of any extents: a vector laid as a
  single row, a single row repeated down the rows, a vector stood up as a column, a column repeated along the columns
  (each a broadcast that names which axes of the result the operand's axes become), one member cut out of a stack of
  matrices, the host's square root of an entry, and the host's sum over the entries of each row from an initial value
  that is zero, which over the extended reals is the sum of the row. Each lemma says which single entry (or which row)
  of the operand an entry of the result reads.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Idealize.ShloMosaic.HostLayout

open Idealize.ShloMosaic Idealize.ShloMosaic.ValueIdx

variable {α : Type}

/-- A vector `[b]` laid as the single row `[1, b]` reads, at `(u, j)`, the vector at `j`. -/
theorem bcast_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The single row `[1, b]` repeated down `a` rows reads, at `(p, j)`, the row at `j`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (j : Fin b) :
    broadcastInDim ⟨2, ![a, b]⟩ ![0, 1] h x (ix2 p j) = x (ix2 (0 : Fin 1) j) := by
  refine broadcastInDim_apply _ h x (ix2 p j) (ix2 (0 : Fin 1) j) fun ax => ?_
  match ax with
  | ⟨0, _⟩ => rfl
  | ⟨1, _⟩ =>
    show j.val = if b = 1 then 0 else j.val
    split
    · have := j.isLt; omega
    · rfl

/-- A vector `[a]` stood up as the column `[a, 1]` reads, at `(p, u)`, the vector at `p`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column `[a, 1]` repeated along `b` columns reads, at `(p, j)`, the column's entry of row `p`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (j : Fin b) :
    broadcastInDim ⟨2, ![a, b]⟩ ![0, 1] h x (ix2 p j) = x (ix2 p (0 : Fin 1)) := by
  refine broadcastInDim_apply _ h x (ix2 p j) (ix2 p (0 : Fin 1)) fun ax => ?_
  match ax with
  | ⟨0, _⟩ =>
    show p.val = if a = 1 then 0 else p.val
    split
    · have := p.isLt; omega
    · rfl
  | ⟨1, _⟩ => rfl

/-- Member `o` cut out of a stack `[n0, n1, n2]` reads, at `(u, p, q)`, the stack at `(o, p, q)`. -/
theorem slice3_axis0_apply {n0 n1 n2 : ℕ} (o : ℕ) (X : (⟨3, ![n0, n1, n2]⟩ : Shape).Idx → α)
    (h : (⟨3, ![n0, n1, n2]⟩ : Shape).Slices ![o, 0, 0] ⟨3, ![1, n1, n2]⟩)
    (u : Fin 1) (p : Fin n1) (q : Fin n2) (k : Fin n0) (hk : k.val = o) :
    extractStridedSlice ⟨3, ![1, n1, n2]⟩ ![o, 0, 0] X h (ix3 u p q) = X (ix3 k p q) :=
  extractStridedSlice_apply _ _ _ _ _ (fun ax => by
    match ax with
    | ⟨0, _⟩ =>
      show k.val = o + u.val
      have := u.isLt; omega
    | ⟨1, _⟩ => exact (Nat.zero_add _).symm
    | ⟨2, _⟩ => exact (Nat.zero_add _).symm)

/-- The host's square root at an index is the square root of the entry. -/
theorem hostSqrt_apply {s : Shape} {φ : FTy} (x : FVec Ideal s φ) (i : s.Idx) : Host.sqrt x i = Ideal.sqrt (x i) := rfl

/-- The host's sum over the rows' entries, from an initial value that is zero, read at row `p`: the sum of the row. -/
theorem hostRowSum_apply {a b : ℕ} {u : Shape} (x : FVec Ideal ⟨2, ![a, b]⟩ .f32) (init : u.Idx → Ideal .f32)
    (h' : (⟨2, ![a, b]⟩ : Shape).ReducesTo [1] ⟨1, ![a]⟩) (hu : 0 < u.numel) (h0 : init (Shape.Idx.first hu) = 0)
    (p : Fin a) : Host.reduceAdd x init h' hu (ix1 p) = ∑ k : Fin b, x (ix2 p k) := by
  have h : (⟨2, ![a, b]⟩ : Shape).Reduces [1] ⟨1, ![a]⟩ := ⟨h'.1, Nat.one_pos, h'.2⟩
  show Ideal.hostReduceAdd h' x _ (ix1 p) = _
  rw [Ideal.hostReduceAdd_single h' h, h0, zero_add]
  exact Finset.sum_congr rfl fun k _ => congrArg x (funext fun ax => Fin.ext (by
    match ax with
    | ⟨0, _⟩ => rfl
    | ⟨1, _⟩ => rfl))

end Idealize.ShloMosaic.HostLayout

end
-- ==== Proof.RefValue.lean ====
/-
  The reference program's whole-array terms are the specification's arrays, entry by entry over the extended reals.

  Each operation of a term is read at an index: a product of matrices as the sum over the contracted coordinate, a row
  sum as the sum over the row, a quotient, a square root, a maximum and the activation pointwise, and every layout
  operation (a vector laid along rows, a column laid along columns, a member cut out of a stack and its unit axis
  dropped, two tables stacked or set side by side) as the one entry of the operand it reads. Row normalisation commutes
  with stacking because entry (r, j) of the stack reads only row r of one piece; the 256-term product with the two
  tables set side by side is the sum of the two 128-term products.
-/
import proofs.«124699_j23029614641915_1_alg».proof.Proof.RefTerm
import proofs.«124699_j23029614641915_1_alg».proof.Proof.Spec
import proofs.«124699_j23029614641915_1_alg».proof.Proof.LibColumn
import proofs.«124699_j23029614641915_1_alg».proof.Proof.LibPlainProduct
import proofs.«124699_j23029614641915_1_alg».proof.Proof.LibHostLayout
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Gcn.RefValue

open Cert.ReferenceIdeal Cert.ReferenceIdeal.Facts₀ Idealize.ShloMosaic Idealize.ShloMosaic.ValueIdx
  Idealize.ShloMosaic.HostLayout

variable [Cert.ReferenceIdeal.Facts]

/-! ## The normalised table -/

/-- The column of norms at row `r`: the square root of the row's sum of squares. -/
theorem norm_apply (x : FVec Ideal S100000x128 .f32) (r : Fin 100000) (u : Fin 1) :
    RefTerm.norm x (ix2 r u) = Ideal.sqrt (∑ k : Fin 128, x (ix2 r k) * x (ix2 r k)) := by
  unfold RefTerm.norm
  rw [hostSqrt_apply, bcast_a_a1_apply, hostRowSum_apply _ _ _ _ Ideal.ofBits_zero_f32]
  rfl

/-- A normalised table at `(r, j)` is the normalised row `r` at `j`. -/
theorem normalize_apply (x : FVec Ideal S100000x128 .f32) (r : Fin 100000) (j : Fin 128) :
    RefTerm.normalize x (ix2 r j) = rowNorm (fun k => x (ix2 r k)) j := by
  unfold RefTerm.normalize rowNorm
  rw [hostDivf_apply, bcast_a1_ab_apply, maximumf_apply, norm_apply, broadcastInDim_scalar_apply, constant_apply]

/-- Below row 50000 the stacked table is the embedding table. -/
theorem pre_lo (a0 : FVec Ideal S50000x256 .f32) (a4 : FVec Ideal S50000x128 .f32) (a5 : FVec Ideal S256x128 .f32)
    (a6 : FVec Ideal S128 .f32) (r : Fin 100000) (j : Fin 128) (h : r.val < 50000) :
    RefTerm.pre a0 a4 a5 a6 (ix2 r j) = a4 (ix2 (⟨r.val, h⟩ : Fin 50000) j) := by
  unfold RefTerm.pre
  refine concatenate_pair_apply_left 0 a4 _ _ (ix2 r j) rfl (ix2 (⟨r.val, h⟩ : Fin 50000) j) fun b => ?_
  match b with
  | ⟨0, _⟩ => rfl
  | ⟨1, _⟩ => rfl

/-- From row 50000 on the stacked table is the affine image of the feature row. -/
theorem pre_hi (a0 : FVec Ideal S50000x256 .f32) (a4 : FVec Ideal S50000x128 .f32) (a5 : FVec Ideal S256x128 .f32)
    (a6 : FVec Ideal S128 .f32) (r : Fin 100000) (j : Fin 128) (h : ¬ r.val < 50000) :
    RefTerm.pre a0 a4 a5 a6 (ix2 r j)
      = linRow (fun k => a0 (ix2 (⟨r.val - 50000, by have := r.isLt; omega⟩ : Fin 50000) k))
          (fun a b => a5 (ix2 a b)) (fun b => a6 (ix1 b)) j := by
  unfold RefTerm.pre
  refine (concatenate_pair_apply_right (t := S100000x128) (s₁ := S50000x128) (s₂ := S50000x128) 0 a4 _ _ (ix2 r j) rfl rfl
    (ix2 (⟨r.val - 50000, by have := r.isLt; omega⟩ : Fin 50000) j) (fun b hb => ?_) ?_).trans ?_
  · match b with
    | ⟨0, _⟩ => exact absurd rfl hb
    | ⟨1, _⟩ => rfl
  · show r.val - 50000 + 50000 = r.val
    omega
  · unfold linRow
    rw [addf_apply, PlainProduct.dotGeneral_at dot_S50000x256_S256x128_S50000x128_1_0_0_1_n_n rfl, bcast_1b_ab_apply, bcast_b_1b_apply]

/-- The reference's normalised table is the specification's. -/
theorem x0_eq (a0 : FVec Ideal S50000x256 .f32) (a4 : FVec Ideal S50000x128 .f32) (a5 : FVec Ideal S256x128 .f32)
    (a6 : FVec Ideal S128 .f32) : RefTerm.x0 a0 a4 a5 a6 = Cert.Gcn.x0 a0 a4 a5 a6 := by
  funext i
  obtain ⟨r, j, rfl⟩ : ∃ (r : Fin 100000) (j : Fin 128), i = ix2 r j := ⟨i 0, i 1, eq_ix2 i⟩
  show RefTerm.normalize (RefTerm.pre a0 a4 a5 a6) (ix2 r j) = x0At a0 a4 a5 a6 r j
  rw [normalize_apply]
  unfold x0At
  by_cases h : r.val < 50000
  · rw [dif_pos h]
    exact congrArg (fun f => rowNorm f j) (funext fun k => pre_lo a0 a4 a5 a6 r k h)
  · rw [dif_neg h]
    exact congrArg (fun f => rowNorm f j) (funext fun k => pre_hi a0 a4 a5 a6 r k h)

/-! ## One round -/

/-- The activation at an index is `leaky` of the entry. -/
theorem lrelu_apply (y : FVec Ideal S100000x128 .f32) (i : S100000x128.Idx) : RefTerm.lrelu y i = leaky (y i) := by
  unfold RefTerm.lrelu
  rw [select_apply, cmpf_apply, mulf_apply, broadcastInDim_scalar_apply, broadcastInDim_scalar_apply, constant_apply,
    constant_apply, Ideal.ofBits_zero_f32, ← leaky_ge]
  show Scalar.select (BitVec.ofBool (decide (0 ≤ y i))) (y i) (slope * y i) = _
  by_cases h : 0 ≤ y i
  · rw [if_pos h, decide_eq_true h]
    exact select_one _ _
  · rw [if_neg h, decide_eq_false h]
    exact select_zero _ _

/-- Member `i` of a stack of 128 × 128 matrices at `(p, q)`. -/
theorem mat128_apply (i : Fin 3) (h : S3x128x128.Slices ![i.val, 0, 0] S1x128x128) (a : FVec Ideal S3x128x128 .f32)
    (p q : Fin 128) : RefTerm.mat128 i.val h a (ix2 p q) = a (ix3 i p q) := by
  unfold RefTerm.mat128
  rw [shapeCast_1ab_ab_apply]
  exact slice3_axis0_apply i.val a h 0 p q i rfl

/-- Member `i` of a stack of 256 × 128 matrices at `(p, q)`. -/
theorem mat256_apply (i : Fin 3) (h : S3x256x128.Slices ![i.val, 0, 0] S1x256x128) (a : FVec Ideal S3x256x128 .f32)
    (p : Fin 256) (q : Fin 128) : RefTerm.mat256 i.val h a (ix2 p q) = a (ix3 i p q) := by
  unfold RefTerm.mat256
  rw [shapeCast_1ab_ab_apply]
  exact slice3_axis0_apply i.val a h 0 p q i rfl

/-- Member `i` of a stack of rows, repeated down the table, at `(r, j)`. -/
theorem bias_apply (i : Fin 3) (h : S3x128.Slices ![i.val, 0] S1x128) (a : FVec Ideal S3x128 .f32)
    (r : Fin 100000) (j : Fin 128) : RefTerm.bias i.val h a (ix2 r j) = a (ix2 i j) := by
  unfold RefTerm.bias
  rw [bcast_1b_ab_apply, bcast_b_1b_apply, shapeCast_1a_a_apply]
  exact slice2_axis0_apply i.val a h 0 j i rfl

/-- The hidden table at `(r, l)`. -/
theorem hidT_apply (i : Fin 3) (h7 : S3x128x128.Slices ![i.val, 0, 0] S1x128x128) (g : FVec Ideal S100000x128 .f32)
    (a7 : FVec Ideal S3x128x128 .f32) (r : Fin 100000) (l : Fin 128) :
    RefTerm.hidT i.val h7 g a7 (ix2 r l) = hidRow (fun m => g (ix2 r m)) (fun a b => a7 (ix3 i a b)) l := by
  unfold RefTerm.hidT hidRow
  rw [lrelu_apply, PlainProduct.dotGeneral_at dot_S100000x128_S128x128_S100000x128_1_0_0_1_n_n rfl]
  simp only [mat128_apply]

/-- The update table at `(r, l)`. -/
theorem updT_apply (i : Fin 3) (h7 : S3x128x128.Slices ![i.val, 0, 0] S1x128x128) (h9 : S3x128.Slices ![i.val, 0] S1x128)
    (h a1 : FVec Ideal S100000x128 .f32) (a8 : FVec Ideal S3x128x128 .f32) (a9 : FVec Ideal S3x128 .f32)
    (r : Fin 100000) (l : Fin 128) :
    RefTerm.updT i.val h7 h9 h a1 a8 a9 (ix2 r l)
      = updRow (fun m => h (ix2 r m)) (fun m => a1 (ix2 r m)) (fun a b => a8 (ix3 i a b)) (fun b => a9 (ix2 i b)) l := by
  unfold RefTerm.updT updRow
  rw [lrelu_apply, addf_apply, addf_apply, PlainProduct.dotGeneral_at dot_S100000x128_S128x128_S100000x128_1_0_0_1_n_n rfl, bias_apply]
  simp only [mat128_apply]

/-- Two tables set side by side at `(r, k)`: the row of width 256 made of the two rows. -/
theorem catCols_apply (h u : FVec Ideal S100000x128 .f32) (r : Fin 100000) (k : Fin 256) :
    concatenate S100000x256 1 [⟨S100000x128, h⟩, ⟨S100000x128, u⟩] concatenates_S100000x128_S100000x128_S100000x256_d1 (ix2 r k)
      = cat (fun l => h (ix2 r l)) (fun l => u (ix2 r l)) k := by
  unfold cat
  by_cases hk : k.val < 128
  · rw [dif_pos hk]
    refine concatenate_pair_apply_left 1 h u _ (ix2 r k) rfl (ix2 r (⟨k.val, hk⟩ : Fin 128)) fun b => ?_
    match b with
    | ⟨0, _⟩ => rfl
    | ⟨1, _⟩ => rfl
  · rw [dif_neg hk]
    refine concatenate_pair_apply_right 1 h u _ (ix2 r k) rfl rfl
      (ix2 r (⟨k.val - 128, by have := k.isLt; omega⟩ : Fin 128)) (fun b hb => ?_) ?_
    · match b with
      | ⟨0, _⟩ => rfl
      | ⟨1, _⟩ => exact absurd rfl hb
    · show k.val - 128 + 128 = k.val
      omega

/-- The output table at `(r, j)`. -/
theorem outT_apply (i : Fin 3) (h9 : S3x128.Slices ![i.val, 0] S1x128) (h10 : S3x256x128.Slices ![i.val, 0, 0] S1x256x128)
    (h u : FVec Ideal S100000x128 .f32) (a10 : FVec Ideal S3x256x128 .f32) (a11 : FVec Ideal S3x128 .f32)
    (r : Fin 100000) (j : Fin 128) :
    RefTerm.outT i.val h9 h10 h u a10 a11 (ix2 r j)
      = outRow (fun l => h (ix2 r l)) (fun l => u (ix2 r l)) (fun a b => a10 (ix3 i (lo a) b))
          (fun a b => a10 (ix3 i (hi a) b)) (fun b => a11 (ix2 i b)) j := by
  unfold RefTerm.outT
  rw [lrelu_apply, addf_apply, PlainProduct.dotGeneral_at dot_S100000x256_S256x128_S100000x128_1_0_0_1_n_n rfl, bias_apply]
  simp only [catCols_apply, mat256_apply]
  exact outRow_of_cat _ _ (fun k b => a10 (ix3 i k b)) (fun b => a11 (ix2 i b)) j

/-- Round `i` of the reference is round `i` of the specification. -/
theorem layerT_eq (i : Fin 3) (h7 : S3x128x128.Slices ![i.val, 0, 0] S1x128x128) (h9 : S3x128.Slices ![i.val, 0] S1x128)
    (h10 : S3x256x128.Slices ![i.val, 0, 0] S1x256x128) (g a1 : FVec Ideal S100000x128 .f32)
    (a7 a8 : FVec Ideal S3x128x128 .f32) (a9 : FVec Ideal S3x128 .f32) (a10 : FVec Ideal S3x256x128 .f32)
    (a11 : FVec Ideal S3x128 .f32) :
    RefTerm.layerT i.val h7 h9 h10 g a1 a7 a8 a9 a10 a11 = Cert.Gcn.layer i g a1 a7 a8 a9 a10 a11 := by
  funext idx
  obtain ⟨r, j, rfl⟩ : ∃ (r : Fin 100000) (j : Fin 128), idx = ix2 r j := ⟨idx 0, idx 1, eq_ix2 idx⟩
  show RefTerm.outT i.val h9 h10 (RefTerm.hidT i.val h7 g a7) (RefTerm.updT i.val h7 h9 (RefTerm.hidT i.val h7 g a7) a1 a8 a9)
    a10 a11 (ix2 r j) = layerAt i g a1 a7 a8 a9 a10 a11 r j
  rw [outT_apply]
  simp only [updT_apply, hidT_apply]
  rfl

/-- The reference's result is the specification's, with the reference's edge aggregation. -/
theorem result_eq (a0 : FVec Ideal S50000x256 .f32) (a1 : FVec Ideal S100000x128 .f32) (a2 a3 : IVec S1600000 32)
    (a4 : FVec Ideal S50000x128 .f32) (a5 : FVec Ideal S256x128 .f32) (a6 : FVec Ideal S128 .f32)
    (a7 a8 : FVec Ideal S3x128x128 .f32) (a9 : FVec Ideal S3x128 .f32) (a10 : FVec Ideal S3x256x128 .f32)
    (a11 : FVec Ideal S3x128 .f32) :
    RefTerm.result a0 a1 a2 a3 a4 a5 a6 a7 a8 a9 a10 a11
      = Cert.Gcn.result (RefTerm.agg a2 a3) a0 a1 a4 a5 a6 a7 a8 a9 a10 a11 := by
  unfold RefTerm.result Cert.Gcn.result
  refine (layerT_eq 2 _ _ _ _ a1 a7 a8 a9 a10 a11).trans ?_
  refine congrArg (fun t => layer 2 (RefTerm.agg a2 a3 t) a1 a7 a8 a9 a10 a11) ?_
  refine (layerT_eq 1 _ _ _ _ a1 a7 a8 a9 a10 a11).trans ?_
  refine congrArg (fun t => layer 1 (RefTerm.agg a2 a3 t) a1 a7 a8 a9 a10 a11) ?_
  refine (layerT_eq 0 _ _ _ _ a1 a7 a8 a9 a10 a11).trans ?_
  exact congrArg (fun t => layer 0 (RefTerm.agg a2 a3 t) a1 a7 a8 a9 a10 a11) (x0_eq a0 a4 a5 a6)

end Cert.Gcn.RefValue

end
-- ==== Proof.lean ====
/-
  The certificate of a three-round graph network: a kernel program of five launches against its reference program, equal
  over the extended reals.

  Both programs compute one function of the twelve argument arrays (`Cert.Gcn.result`, Proof/Spec.lean). Rows of width
  128 are L2-normalised (the first 50000 from the user embedding table, the other 50000 from the affine image of the
  feature table); then, three times, rows are summed along the graph's edges and each node's row goes through
      h = φ(a · Ws),   u = φ(h · Wd + bd + e),   out = φ(h · Wo_top + u · Wo_bottom + bo).

  The kernel program normalises the two halves in two launches and stacks them, where the reference stacks first and
  normalises once: the same table, since an entry's normalisation reads its own row only. It computes each round 2000
  nodes at a time with the last product split into the two halves of `Wo`, where the reference multiplies the row
  `[h | u]` of width 256 by the whole `Wo`: a sum over 256 terms is the two sums over 128 terms, by associativity and
  commutativity alone, so no finiteness of the inputs is used. Its `φ` tests `x > 0` where the reference's tests `x ≥ 0`:
  at `x = 0` both branches are `0`. A change of float format is the identity over the extended reals, a product into a
  zero accumulator is the host's product, a lane sum is the host's sum. The edge aggregation is spelled by the same two host
  operations in both programs and is never opened.

  The three frames: the two kernel programs' are generated whole; the reference's is its run with the result dropped.
  The idealisation rewrote nothing, so `preserves` is trivial.
-/
import proofs.«124699_j23029614641915_1_alg».proof.Defs
import proofs.«124699_j23029614641915_1_alg».proof.Proof.Gen.Kernel
import proofs.«124699_j23029614641915_1_alg».proof.Proof.Gen.Kernel.Skeleton
import proofs.«124699_j23029614641915_1_alg».proof.Proof.Gen.Kernel.Launch
import proofs.«124699_j23029614641915_1_alg».proof.Proof.Gen.Kernel.Points
import proofs.«124699_j23029614641915_1_alg».proof.Proof.Gen.Kernel.Frame
import proofs.«124699_j23029614641915_1_alg».proof.Proof.Gen.KernelIdeal
import proofs.«124699_j23029614641915_1_alg».proof.Proof.Gen.KernelIdeal.Skeleton
import proofs.«124699_j23029614641915_1_alg».proof.Proof.Gen.KernelIdeal.Launch
import proofs.«124699_j23029614641915_1_alg».proof.Proof.Gen.KernelIdeal.Points
import proofs.«124699_j23029614641915_1_alg».proof.Proof.Gen.KernelIdeal.Frame
import proofs.«124699_j23029614641915_1_alg».proof.Proof.Gen.ReferenceIdeal
import proofs.«124699_j23029614641915_1_alg».proof.Proof.Gen.Pre_finite_inputs
import proofs.«124699_j23029614641915_1_alg».proof.Proof.KernelRun
import proofs.«124699_j23029614641915_1_alg».proof.Proof.ChainValue
import proofs.«124699_j23029614641915_1_alg».proof.Proof.RefAfter
import proofs.«124699_j23029614641915_1_alg».proof.Proof.RefValue
import Idealize.ShloMosaic.Adequacy
import Idealize.ShloMosaic.Init

set_option maxRecDepth 16384
set_option maxHeartbeats 4000000

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.Gcn.RefRun.run m ρ)

theorem preserves : Cert.preserves_Kernel_KernelIdeal := trivial

/-- The reference's edge aggregation is the kernel program's: the same two host operations over the same index arrays. -/
theorem agg_same (a2 a3 : IVec ⟨1, ![1600000]⟩ 32) :
    Cert.Gcn.RefTerm.agg a2 a3 = Cert.Gcn.HostK.aggK a2 a3 := rfl

/-- From memories agreeing on the arguments both programs end with the specification's result in the result array, the
    user embedding table in the second result, and the arguments unchanged. -/
theorem algebraic : Cert.algebraic_KernelIdeal_ReferenceIdeal := by
  intro m ρ m' ρ' _ hagree
  refine ⟨fun c => Cert.Gcn.result
      (Cert.Gcn.HostK.aggK (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    fun c => m ((c.tc : Thread Cert.KernelIdeal.nD Cert.KernelIdeal.τ).loc Cert.KernelIdeal.main_arg4), ?_, ?_⟩
  · refine (θ_run Cert.KernelIdeal.defs _ _).mono (fun r h c => ?_) (Cert.Gcn.KernelRun.run_all (F := Ideal) m ρ)
    exact ⟨(h c _ (Cert.KernelIdeal.Gen.mem_uc Cert.KernelIdeal.main_v80 (by decide))).trans (Cert.Gcn.Chain.result_eq m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c),
      (h c _ (Cert.KernelIdeal.Gen.mem_uc Cert.KernelIdeal.main_arg7 (by decide))).trans (Cert.KernelIdeal.Gen.W9_main_arg7 m ρ c),
      (h c _ (Cert.KernelIdeal.Gen.mem_uc Cert.KernelIdeal.main_arg8 (by decide))).trans (Cert.KernelIdeal.Gen.W9_main_arg8 m ρ c),
      (h c _ (Cert.KernelIdeal.Gen.mem_uc Cert.KernelIdeal.main_arg9 (by decide))).trans (Cert.KernelIdeal.Gen.W9_main_arg9 m ρ c),
      (h c _ (Cert.KernelIdeal.Gen.mem_uc Cert.KernelIdeal.main_arg10 (by decide))).trans (Cert.KernelIdeal.Gen.W9_main_arg10 m ρ c),
      (h c _ (Cert.KernelIdeal.Gen.mem_uc Cert.KernelIdeal.main_arg11 (by decide))).trans (Cert.KernelIdeal.Gen.W9_main_arg11 m ρ c)⟩
  · refine (θ_run Cert.ReferenceIdeal.defs _ _).mono (fun r h c => ?_) (Cert.Gcn.RefRun.run m' ρ')
    obtain ⟨h111, h0, h1, h2, h3, h4, h5, h6, h7, h8, h9, h10, h11⟩ := h c
    obtain ⟨g0, g1, g2, g3, g4, g5, g6, g7, g8, g9, g10, g11⟩ := hagree c
    refine ⟨?_, h4.trans g4, h0, h1, h2, h3, h4, h5, h6, h7, h8, h9, h10, h11⟩
    rw [h111, Cert.Gcn.RefValue.result_eq, agg_same, g0, g1, g2, g3, g4, g5, g6, g7, g8, g9, g10, g11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
